-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v131)) (v2 : (c : Dev Cert.KernelIdeal.nD) → Buf (Elt Ideal) ((c.tc : Thread Cert.KernelIdeal.nD Cert.KernelIdeal.τ).loc Cert.KernelIdeal.main_v146)) (v3 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v131) = v1 c
          ∧ r.2.mem ((c.tc : Thread Cert.KernelIdeal.nD Cert.KernelIdeal.τ).loc Cert.KernelIdeal.main_v146) = v2 c
          ∧ r.2.mem ((c.tc : Thread Cert.KernelIdeal.nD Cert.KernelIdeal.τ).loc Cert.KernelIdeal.main_v172) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_v173) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x4 : Shape := ⟨3, ![2, 128, 4]⟩
abbrev S2x8x81 : Shape := ⟨3, ![2, 8, 81]⟩
abbrev S2x8x4 : Shape := ⟨3, ![2, 8, 4]⟩
abbrev S2x8x384x384 : Shape := ⟨4, ![2, 8, 384, 384]⟩
abbrev S768 : Shape := ⟨1, ![768]⟩
abbrev S256 : Shape := ⟨1, ![256]⟩
abbrev S_ : Shape := ⟨0, ![]⟩

class Facts : Prop where
  bcast_S_S2x128x4 : S_.BroadcastsInDim S2x128x4 (![] : Fin 0 → Fin S2x128x4.rank)
  reducesTo_S2x128x4_S_d0_1_2 : S2x128x4.ReducesTo [0, 1, 2] S_
  h_S_ : 0 < S_.numel
  bcast_S_S2x8x81 : S_.BroadcastsInDim S2x8x81 (![] : Fin 0 → Fin S2x8x81.rank)
  reducesTo_S2x8x81_S_d0_1_2 : S2x8x81.ReducesTo [0, 1, 2] S_
  bcast_S_S2x8x4 : S_.BroadcastsInDim S2x8x4 (![] : Fin 0 → Fin S2x8x4.rank)
  reducesTo_S2x8x4_S_d0_1_2 : S2x8x4.ReducesTo [0, 1, 2] S_
  bcast_S_S2x8x384x384 : S_.BroadcastsInDim S2x8x384x384 (![] : Fin 0 → Fin S2x8x384x384.rank)
  reducesTo_S2x8x384x384_S_d0_1_2_3 : S2x8x384x384.ReducesTo [0, 1, 2, 3] S_

variable [Facts]

def fn_part1 {F : FTy → Type} [FloatOps F] (main_v13 : IVec S_ 1) (main_v16 : IVec S2x8x384x384 1) : IVec S_ 1 :=
  let main_c_5 : IVec S_ 1 := constantI S_ 1 1#1
  let main_v17 : IVec S_ 1 := (fun x v => Host.reduce IntOp.andi x v reducesTo_S2x8x384x384_S_d0_1_2_3 h_S_) main_v16 main_c_5
  let main_v18 : IVec S_ 1 := andi main_v13 main_v17
  main_v18

def fn {F : FTy → Type} [FloatOps F] (main_arg0 : FVec F S2x128x4 .f32) (main_arg1 : FVec F S2x8x81 .f32) (main_arg2 : FVec F S2x8x4 .f32) (main_arg3 : FVec F S2x8x384x384 .f32) (main_arg4 : IVec S768 32) (main_arg5 : IVec S256 32) : IVec S_ 1 :=
  let main_v0 : FVec F S2x128x4 .f32 := Host.absf main_arg0
  let main_cst : FVec F S_ .f32 := constant S_ .f32 0x7F800000#32
  let main_v1 : FVec F S2x128x4 .f32 := broadcastInDim S2x128x4 ![] bcast_S_S2x128x4 main_cst
  let main_v2 : IVec S2x128x4 1 := cmpf .olt main_v0 main_v1
  let main_c : IVec S_ 1 := constantI S_ 1 1#1
  let main_v3 : IVec S_ 1 := (fun x v => Host.reduce IntOp.andi x v reducesTo_S2x128x4_S_d0_1_2 h_S_) main_v2 main_c
  let main_v4 : FVec F S2x8x81 .f32 := Host.absf main_arg1
  let main_cst_0 : FVec F S_ .f32 := constant S_ .f32 0x7F800000#32
  let main_v5 : FVec F S2x8x81 .f32 := broadcastInDim S2x8x81 ![] bcast_S_S2x8x81 main_cst_0
  let main_v6 : IVec S2x8x81 1 := cmpf .olt main_v4 main_v5
  let main_c_1 : IVec S_ 1 := constantI S_ 1 1#1
  let main_v7 : IVec S_ 1 := (fun x v => Host.reduce IntOp.andi x v reducesTo_S2x8x81_S_d0_1_2 h_S_) main_v6 main_c_1
  let main_v8 : IVec S_ 1 := andi main_v3 main_v7
  let main_v9 : FVec F S2x8x4 .f32 := Host.absf main_arg2
  let main_cst_2 : FVec F S_ .f32 := constant S_ .f32 0x7F800000#32
  let main_v10 : FVec F S2x8x4 .f32 := broadcastInDim S2x8x4 ![] bcast_S_S2x8x4 main_cst_2
  let main_v11 : IVec S2x8x4 1 := cmpf .olt main_v9 main_v10
  let main_c_3 : IVec S_ 1 := constantI S_ 1 1#1
  let main_v12 : IVec S_ 1 := (fun x v => Host.reduce IntOp.andi x v reducesTo_S2x8x4_S_d0_1_2 h_S_) main_v11 main_c_3
  let main_v13 : IVec S_ 1 := andi main_v8 main_v12
  let main_v14 : FVec F S2x8x384x384 .f32 := Host.absf main_arg3
  let main_cst_4 : FVec F S_ .f32 := constant S_ .f32 0x7F800000#32
  let main_v15 : FVec F S2x8x384x384 .f32 := broadcastInDim S2x8x384x384 ![] bcast_S_S2x8x384x384 main_cst_4
  let main_v16 : IVec S2x8x384x384 1 := cmpf .olt main_v14 main_v15
  fn_part1 (F := F) main_v13 main_v16
-- ==== Kernel.lean ====
abbrev S2x128x4 : Shape := ⟨3, ![2, 128, 4]⟩
abbrev S2x8x81 : Shape := ⟨3, ![2, 8, 81]⟩
abbrev S2x8x4 : Shape := ⟨3, ![2, 8, 4]⟩
abbrev S2x8x384x384 : Shape := ⟨4, ![2, 8, 384, 384]⟩
abbrev S768 : Shape := ⟨1, ![768]⟩
abbrev S256 : Shape := ⟨1, ![256]⟩
abbrev S2x128x1x4 : Shape := ⟨4, ![2, 128, 1, 4]⟩
abbrev S2x1x8x4 : Shape := ⟨4, ![2, 1, 8, 4]⟩
abbrev S2x128x1x1 : Shape := ⟨4, ![2, 128, 1, 1]⟩
abbrev S2x128x1 : Shape := ⟨3, ![2, 128, 1]⟩
abbrev S_ : Shape := ⟨0, ![]⟩
abbrev S2x1x8x1 : Shape := ⟨4, ![2, 1, 8, 1]⟩
abbrev S2x1x8 : Shape := ⟨3, ![2, 1, 8]⟩
abbrev S2x128x8 : Shape := ⟨3, ![2, 128, 8]⟩
abbrev S2x128x8x1 : Shape := ⟨4, ![2, 128, 8, 1]⟩
abbrev S2x128x8x4 : Shape := ⟨4, ![2, 128, 8, 4]⟩
abbrev S2x1x8x81 : Shape := ⟨4, ![2, 1, 8, 81]⟩
abbrev S2x128x8x81 : Shape := ⟨4, ![2, 128, 8, 81]⟩
abbrev S2x1024x4 : Shape := ⟨3, ![2, 1024, 4]⟩
abbrev S2x1024x81 : Shape := ⟨3, ![2, 1024, 81]⟩
abbrev S768x1 : Shape := ⟨2, ![768, 1]⟩
abbrev S2x768x4 : Shape := ⟨3, ![2, 768, 4]⟩
abbrev S256x1 : Shape := ⟨2, ![256, 1]⟩
abbrev S2x256x4 : Shape := ⟨3, ![2, 256, 4]⟩
abbrev S2x768x81 : Shape := ⟨3, ![2, 768, 81]⟩
abbrev S2x256x81 : Shape := ⟨3, ![2, 256, 81]⟩
abbrev S256x2 : Shape := ⟨2, ![256, 2]⟩
abbrev S2x256 : Shape := ⟨2, ![2, 256]⟩
abbrev S1x8 : Shape := ⟨2, ![1, 8]⟩
abbrev S256x8 : Shape := ⟨2, ![256, 8]⟩
abbrev S1x256x8 : Shape := ⟨3, ![1, 256, 8]⟩
abbrev S2x256x1 : Shape := ⟨3, ![2, 256, 1]⟩
abbrev S2x256x8 : Shape := ⟨3, ![2, 256, 8]⟩
abbrev S2x8x147456 : Shape := ⟨3, ![2, 8, 147456]⟩
abbrev S2x256x147456 : Shape := ⟨3, ![2, 256, 147456]⟩
abbrev S1x8x6144 : Shape := ⟨3, ![1, 8, 6144]⟩
abbrev S1x256x6144 : Shape := ⟨3, ![1, 256, 6144]⟩
abbrev S8x6144 : Shape := ⟨2, ![8, 6144]⟩
abbrev S256x6144 : Shape := ⟨2, ![256, 6144]⟩
abbrev S2x256x384x384 : Shape := ⟨4, ![2, 256, 384, 384]⟩

abbrev nBuf : Space → Nat
  | .hbm => 246
  | .vmem => 6
  | .smem => 0
  | _ => 0

abbrev hbmTy0_0 (i : Nat) : BufTy := match i % 128 with
  | 0 => ⟨S2x128x4, .f32⟩
  | 1 => ⟨S2x8x81, .f32⟩
  | 2 => ⟨S2x8x4, .f32⟩
  | 3 => ⟨S2x8x384x384, .f32⟩
  | 4 => ⟨S768, .i32⟩
  | 5 => ⟨S256, .i32⟩
  | 6 => ⟨S2x128x1x4, .f32⟩
  | 7 => ⟨S2x1x8x4, .f32⟩
  | 8 => ⟨S2x128x1x1, .f32⟩
  | 9 => ⟨S2x128x1, .f32⟩
  | 10 => ⟨S2x128x1x1, .f32⟩
  | 11 => ⟨S2x128x1, .f32⟩
  | 12 => ⟨S2x128x1, .f32⟩
  | 13 => ⟨S_, .f32⟩
  | 14 => ⟨S2x128x1, .f32⟩
  | 15 => ⟨S2x128x1, .f32⟩
  | 16 => ⟨S2x128x1x1, .f32⟩
  | 17 => ⟨S2x128x1, .f32⟩
  | 18 => ⟨S2x128x1x1, .f32⟩
  | 19 => ⟨S2x128x1, .f32⟩
  | 20 => ⟨S2x128x1, .f32⟩
  | 21 => ⟨S2x128x1, .f32⟩
  | 22 => ⟨S2x1x8x1, .f32⟩
  | 23 => ⟨S2x1x8, .f32⟩
  | 24 => ⟨S2x1x8x1, .f32⟩
  | 25 => ⟨S2x1x8, .f32⟩
  | 26 => ⟨S2x1x8, .f32⟩
  | 27 => ⟨S_, .f32⟩
  | 28 => ⟨S2x1x8, .f32⟩
  | 29 => ⟨S2x1x8, .f32⟩
  | 30 => ⟨S2x1x8x1, .f32⟩
  | 31 => ⟨S2x1x8, .f32⟩
  | 32 => ⟨S2x1x8x1, .f32⟩
  | 33 => ⟨S2x1x8, .f32⟩
  | 34 => ⟨S2x1x8, .f32⟩
  | 35 => ⟨S2x1x8, .f32⟩
  | 36 => ⟨S2x128x1x1, .f32⟩
  | 37 => ⟨S2x128x1, .f32⟩
  | 38 => ⟨S2x1x8x1, .f32⟩
  | 39 => ⟨S2x1x8, .f32⟩
  | 40 => ⟨S2x128x8, .f32⟩
  | 41 => ⟨S2x128x8, .f32⟩
  | 42 => ⟨S2x128x8, .f32⟩
  | 43 => ⟨S2x128x1x1, .f32⟩
  | 44 => ⟨S2x128x1, .f32⟩
  | 45 => ⟨S2x1x8x1, .f32⟩
  | 46 => ⟨S2x1x8, .f32⟩
  | 47 => ⟨S2x128x8, .f32⟩
  | 48 => ⟨S2x128x8, .f32⟩
  | 49 => ⟨S2x128x8, .f32⟩
  | 50 => ⟨S2x128x1x1, .f32⟩
  | 51 => ⟨S2x128x1, .f32⟩
  | 52 => ⟨S2x1x8x1, .f32⟩
  | 53 => ⟨S2x1x8, .f32⟩
  | 54 => ⟨S2x128x8, .f32⟩
  | 55 => ⟨S2x128x8, .f32⟩
  | 56 => ⟨S2x128x8, .f32⟩
  | 57 => ⟨S2x128x1x1, .f32⟩
  | 58 => ⟨S2x128x1, .f32⟩
  | 59 => ⟨S2x1x8x1, .f32⟩
  | 60 => ⟨S2x1x8, .f32⟩
  | 61 => ⟨S2x128x8, .f32⟩
  | 62 => ⟨S2x128x8, .f32⟩
  | 63 => ⟨S2x128x8, .f32⟩
  | 64 => ⟨S2x128x8, .f32⟩
  | 65 => ⟨S_, .f32⟩
  | 66 => ⟨S2x128x8, .f32⟩
  | 67 => ⟨S2x128x8, .f32⟩
  | 68 => ⟨S_, .f32⟩
  | 69 => ⟨S2x128x8, .f32⟩
  | 70 => ⟨S2x128x8, .f32⟩
  | 71 => ⟨S2x128x8, .f32⟩
  | 72 => ⟨S_, .f32⟩
  | 73 => ⟨S2x128x8, .f32⟩
  | 74 => ⟨S2x128x8, .f32⟩
  | 75 => ⟨S_, .f32⟩
  | 76 => ⟨S2x128x8, .f32⟩
  | 77 => ⟨S2x128x8, .f32⟩
  | 78 => ⟨S2x128x8, .f32⟩
  | 79 => ⟨S2x128x8, .f32⟩
  | 80 => ⟨S2x128x8, .f32⟩
  | 81 => ⟨S2x128x8, .f32⟩
  | 82 => ⟨S2x128x8, .f32⟩
  | 83 => ⟨S2x128x8, .f32⟩
  | 84 => ⟨S_, .f32⟩
  | 85 => ⟨S2x128x8, .f32⟩
  | 86 => ⟨S2x128x8, .i1⟩
  | 87 => ⟨S2x128x8x1, .i1⟩
  | 88 => ⟨S2x128x8x1, .f32⟩
  | 89 => ⟨S_, .f32⟩
  | 90 => ⟨S2x128x8x1, .f32⟩
  | 91 => ⟨S2x128x8x1, .f32⟩
  | 92 => ⟨S2x128x1x4, .f32⟩
  | 93 => ⟨S2x128x8x4, .f32⟩
  | 94 => ⟨S2x1x8x81, .f32⟩
  | 95 => ⟨S2x128x8x81, .f32⟩
  | 96 => ⟨S2x1x8x4, .f32⟩
  | 97 => ⟨S2x128x8x4, .f32⟩
  | 98 => ⟨S2x128x8x4, .f32⟩
  | 99 => ⟨S2x128x8x4, .f32⟩
  | 100 => ⟨S2x1024x4, .f32⟩
  | 101 => ⟨S2x128x8x4, .f32⟩
  | 102 => ⟨S2x128x8x4, .f32⟩
  | 103 => ⟨S2x1024x4, .f32⟩
  | 104 => ⟨S2x128x8x81, .f32⟩
  | 105 => ⟨S2x128x8x81, .f32⟩
  | 106 => ⟨S2x1024x81, .f32⟩
  | 107 => ⟨S2x128x8x81, .f32⟩
  | 108 => ⟨S2x128x8x81, .f32⟩
  | 109 => ⟨S2x1024x81, .f32⟩
  | 110 => ⟨S2x128x8x4, .f32⟩
  | 111 => ⟨S2x128x8x4, .f32⟩
  | 112 => ⟨S2x1024x4, .f32⟩
  | 113 => ⟨S2x128x8x4, .f32⟩
  | 114 => ⟨S2x128x8x4, .f32⟩
  | 115 => ⟨S2x1024x4, .f32⟩
  | 116 => ⟨S_, .i32⟩
  | 117 => ⟨S768, .i32⟩
  | 118 => ⟨S768, .i1⟩
  | 119 => ⟨S_, .i32⟩
  | 120 => ⟨S768, .i32⟩
  | 121 => ⟨S768, .i32⟩
  | 122 => ⟨S768, .i32⟩
  | 123 => ⟨S768x1, .i32⟩
  | 124 => ⟨S2x768x4, .f32⟩
  | 125 => ⟨S_, .i32⟩
  | 126 => ⟨S256, .i32⟩
  | 127 => ⟨S256, .i1⟩
  | _ => ⟨S2x128x4, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S2x256x4, .f32⟩
  | 6 => ⟨S2x1024x4, .f32⟩
  | 7 => ⟨S_, .i32⟩
  | 8 => ⟨S768, .i32⟩
  | 9 => ⟨S768, .i1⟩
  | 10 => ⟨S_, .i32⟩
  | 11 => ⟨S768, .i32⟩
  | 12 => ⟨S768, .i32⟩
  | 13 => ⟨S768, .i32⟩
  | 14 => ⟨S768x1, .i32⟩
  | 15 => ⟨S2x768x81, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S2x256x81, .f32⟩
  | 25 => ⟨S2x1024x81, .f32⟩
  | 26 => ⟨S_, .i32⟩
  | 27 => ⟨S768, .i32⟩
  | 28 => ⟨S768, .i1⟩
  | 29 => ⟨S_, .i32⟩
  | 30 => ⟨S768, .i32⟩
  | 31 => ⟨S768, .i32⟩
  | 32 => ⟨S768, .i32⟩
  | 33 => ⟨S768x1, .i32⟩
  | 34 => ⟨S2x768x4, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S256x1, .i32⟩
  | 43 => ⟨S2x256x4, .f32⟩
  | 44 => ⟨S2x1024x4, .f32⟩
  | 45 => ⟨S_, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i1⟩
  | 53 => ⟨S256, .i32⟩
  | 54 => ⟨S256, .i32⟩
  | 55 => ⟨S_, .i32⟩
  | 56 => ⟨S256, .i32⟩
  | 57 => ⟨S256, .i1⟩
  | 58 => ⟨S256, .i1⟩
  | 59 => ⟨S_, .i32⟩
  | 60 => ⟨S256, .i32⟩
  | 61 => ⟨S256, .i32⟩
  | 62 => ⟨S256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S256, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i1⟩
  | 77 => ⟨S_, .i32⟩
  | 78 => ⟨S_, .i1⟩
  | 79 => ⟨S256, .i1⟩
  | 80 => ⟨S256, .i1⟩
  | 81 => ⟨S256, .i1⟩
  | 82 => ⟨S256, .i32⟩
  | 83 => ⟨S256, .i32⟩
  | 84 => ⟨S256, .i32⟩
  | 85 => ⟨S_, .i32⟩
  | 86 => ⟨S256, .i32⟩
  | 87 => ⟨S256, .i1⟩
  | 88 => ⟨S_, .i32⟩
  | 89 => ⟨S256, .i32⟩
  | 90 => ⟨S256, .i32⟩
  | 91 => ⟨S256, .i32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256x1, .i32⟩
  | 101 => ⟨S256x2, .i32⟩
  | 102 => ⟨S2x256, .i1⟩
  | 103 => ⟨S2x256, .f32⟩
  | 104 => ⟨S256x1, .i32⟩
  | 105 => ⟨S1x8, .i32⟩
  | 106 => ⟨S256x8, .i32⟩
  | 107 => ⟨S256x8, .i32⟩
  | 108 => ⟨S256x8, .i1⟩
  | 109 => ⟨S256x8, .f32⟩
  | 110 => ⟨S1x256x8, .f32⟩
  | 111 => ⟨S2x256x1, .f32⟩
  | 112 => ⟨S2x256x8, .f32⟩
  | 113 => ⟨S2x256x8, .f32⟩
  | 114 => ⟨S2x256x8, .f32⟩
  | 115 => ⟨S2x8x147456, .f32⟩
  | 116 => ⟨S2x256x147456, .f32⟩
  | 117 => ⟨S2x256x384x384, .f32⟩
  | _ => ⟨S2x128x4, .f32⟩

abbrev hbmTy (i : Nat) : BufTy := match i / 128 with
  | 0 => hbmTy0_0 i
  | 1 => hbmTy0_1 i
  | _ => ⟨S2x128x4, .f32⟩

abbrev bufTy : (tb : Table) → Fin (tcTables nBuf tb) → BufTy
  | .hbm, ⟨i, _⟩ => hbmTy i
  | .local _ .vmem, ⟨0, _⟩ => ⟨S1x256x8, .f32⟩
  | .local _ .vmem, ⟨1, _⟩ => ⟨S1x256x8, .f32⟩
  | .local _ .vmem, ⟨2, _⟩ => ⟨S1x8x6144, .f32⟩
  | .local _ .vmem, ⟨3, _⟩ => ⟨S1x8x6144, .f32⟩
  | .local _ .vmem, ⟨4, _⟩ => ⟨S1x256x6144, .f32⟩
  | .local _ .vmem, ⟨5, _⟩ => ⟨S1x256x6144, .f32⟩
  | _, _ => ⟨S2x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_1 : Ref sig .tc := ⟨.hbm, 65, rfl⟩
abbrev main_v57 : Ref sig .tc := ⟨.hbm, 66, rfl⟩
abbrev main_v58 : Ref sig .tc := ⟨.hbm, 67, rfl⟩
abbrev main_cst_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_6 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_c : Ref sig .tc := ⟨.hbm, 116, rfl⟩
abbrev main_v102 : Ref sig .tc := ⟨.hbm, 117, rfl⟩
abbrev main_v103 : Ref sig .tc := ⟨.hbm, 118, rfl⟩
abbrev main_c_7 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_c_8 : Ref sig .tc := ⟨.hbm, 125, rfl⟩
abbrev main_v109 : Ref sig .tc := ⟨.hbm, 126, rfl⟩
abbrev main_v110 : Ref sig .tc := ⟨.hbm, 127, rfl⟩
abbrev main_c_9 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_c_10 : Ref sig .tc := ⟨.hbm, 135, rfl⟩
abbrev main_v117 : Ref sig .tc := ⟨.hbm, 136, rfl⟩
abbrev main_v118 : Ref sig .tc := ⟨.hbm, 137, rfl⟩
abbrev main_c_11 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_c_12 : Ref sig .tc := ⟨.hbm, 144, rfl⟩
abbrev main_v124 : Ref sig .tc := ⟨.hbm, 145, rfl⟩
abbrev main_v125 : Ref sig .tc := ⟨.hbm, 146, rfl⟩
abbrev main_c_13 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_c_14 : Ref sig .tc := ⟨.hbm, 154, rfl⟩
abbrev main_v132 : Ref sig .tc := ⟨.hbm, 155, rfl⟩
abbrev main_v133 : Ref sig .tc := ⟨.hbm, 156, rfl⟩
abbrev main_c_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_c_16 : Ref sig .tc := ⟨.hbm, 163, rfl⟩
abbrev main_v139 : Ref sig .tc := ⟨.hbm, 164, rfl⟩
abbrev main_v140 : Ref sig .tc := ⟨.hbm, 165, rfl⟩
abbrev main_c_17 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_c_18 : Ref sig .tc := ⟨.hbm, 173, rfl⟩
abbrev main_call0_v0 : Ref sig .tc := ⟨.hbm, 174, rfl⟩
abbrev main_call0_v1 : Ref sig .tc := ⟨.hbm, 175, rfl⟩
abbrev main_call0_v2 : Ref sig .tc := ⟨.hbm, 176, rfl⟩
abbrev main_call0_v3 : Ref sig .tc := ⟨.hbm, 177, rfl⟩
abbrev main_call0_v4 : Ref sig .tc := ⟨.hbm, 178, rfl⟩
abbrev main_call0_v5 : Ref sig .tc := ⟨.hbm, 179, rfl⟩
abbrev main_call0_v6 : Ref sig .tc := ⟨.hbm, 180, rfl⟩
abbrev main_call0_v7 : Ref sig .tc := ⟨.hbm, 181, rfl⟩
abbrev main_call0_v8 : Ref sig .tc := ⟨.hbm, 182, rfl⟩
abbrev main_call0_c : Ref sig .tc := ⟨.hbm, 183, rfl⟩
abbrev main_call0_v9 : Ref sig .tc := ⟨.hbm, 184, rfl⟩
abbrev main_call0_v10 : Ref sig .tc := ⟨.hbm, 185, rfl⟩
abbrev main_call0_v11 : Ref sig .tc := ⟨.hbm, 186, rfl⟩
abbrev main_call0_c_0 : Ref sig .tc := ⟨.hbm, 187, rfl⟩
abbrev main_call0_v12 : Ref sig .tc := ⟨.hbm, 188, rfl⟩
abbrev main_call0_v13 : Ref sig .tc := ⟨.hbm, 189, rfl⟩
abbrev main_v147 : Ref sig .tc := ⟨.hbm, 190, rfl⟩
abbrev main_c_19 : Ref sig .tc := ⟨.hbm, 191, rfl⟩
abbrev main_call1_v0 : Ref sig .tc := ⟨.hbm, 192, rfl⟩
abbrev main_call1_c : Ref sig .tc := ⟨.hbm, 193, rfl⟩
abbrev main_call1_v1 : Ref sig .tc := ⟨.hbm, 194, rfl⟩
abbrev main_call1_c_0 : Ref sig .tc := ⟨.hbm, 195, rfl⟩
abbrev main_call1_v2 : Ref sig .tc := ⟨.hbm, 196, rfl⟩
abbrev main_call1_v3 : Ref sig .tc := ⟨.hbm, 197, rfl⟩
abbrev main_call1_v4 : Ref sig .tc := ⟨.hbm, 198, rfl⟩
abbrev main_call1_c_1 : Ref sig .tc := ⟨.hbm, 199, rfl⟩
abbrev main_call1_v5 : Ref sig .tc := ⟨.hbm, 200, rfl⟩
abbrev main_call1_v6 : Ref sig .tc := ⟨.hbm, 201, rfl⟩
abbrev main_call1_c_2 : Ref sig .tc := ⟨.hbm, 202, rfl⟩
abbrev main_call1_v7 : Ref sig .tc := ⟨.hbm, 203, rfl⟩
abbrev main_call1_v8 : Ref sig .tc := ⟨.hbm, 204, rfl⟩
abbrev main_call1_c_3 : Ref sig .tc := ⟨.hbm, 205, rfl⟩
abbrev main_call1_v9 : Ref sig .tc := ⟨.hbm, 206, rfl⟩
abbrev main_call1_v10 : Ref sig .tc := ⟨.hbm, 207, rfl⟩
abbrev main_call1_v11 : Ref sig .tc := ⟨.hbm, 208, rfl⟩
abbrev main_call1_v12 : Ref sig .tc := ⟨.hbm, 209, rfl⟩
abbrev main_call1_v13 : Ref sig .tc := ⟨.hbm, 210, rfl⟩
abbrev main_call1_v14 : Ref sig .tc := ⟨.hbm, 211, rfl⟩
abbrev main_v148 : Ref sig .tc := ⟨.hbm, 212, rfl⟩
abbrev main_c_20 : Ref sig .tc := ⟨.hbm, 213, rfl⟩
abbrev main_v149 : Ref sig .tc := ⟨.hbm, 214, rfl⟩
abbrev main_v150 : Ref sig .tc := ⟨.hbm, 215, rfl⟩
abbrev main_c_21 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_22 : Ref sig .tc := ⟨.hbm, 220, rfl⟩
abbrev main_v154 : Ref sig .tc := ⟨.hbm, 221, rfl⟩
abbrev main_v155 : Ref sig .tc := ⟨.hbm, 222, rfl⟩
abbrev main_c_23 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2x128x4_S2x128x1x4_0_1_3 : S2x128x4.BroadcastsInDim S2x128x1x4 (![0, 1, 3] : Fin 3 → Fin S2x128x1x4.rank)
  bcast_S2x8x4_S2x1x8x4_0_2_3 : S2x8x4.BroadcastsInDim S2x1x8x4 (![0, 2, 3] : Fin 3 → Fin S2x1x8x4.rank)
  slices_S2x128x1x4_S2x128x1x1_0_0_0_2 : S2x128x1x4.Slices ![0, 0, 0, 2] S2x128x1x1
  shapeCasts_S2x128x1x1_S2x128x1 : S2x128x1x1.ShapeCasts S2x128x1
  slices_S2x128x1x4_S2x128x1x1_0_0_0_0 : S2x128x1x4.Slices ![0, 0, 0, 0] S2x128x1x1
  bcast_S_S2x128x1 : S_.BroadcastsInDim S2x128x1 (![] : Fin 0 → Fin S2x128x1.rank)
  slices_S2x128x1x4_S2x128x1x1_0_0_0_3 : S2x128x1x4.Slices ![0, 0, 0, 3] S2x128x1x1
  slices_S2x128x1x4_S2x128x1x1_0_0_0_1 : S2x128x1x4.Slices ![0, 0, 0, 1] S2x128x1x1
  slices_S2x1x8x4_S2x1x8x1_0_0_0_2 : S2x1x8x4.Slices ![0, 0, 0, 2] S2x1x8x1
  shapeCasts_S2x1x8x1_S2x1x8 : S2x1x8x1.ShapeCasts S2x1x8
  slices_S2x1x8x4_S2x1x8x1_0_0_0_0 : S2x1x8x4.Slices ![0, 0, 0, 0] S2x1x8x1
  bcast_S_S2x1x8 : S_.BroadcastsInDim S2x1x8 (![] : Fin 0 → Fin S2x1x8.rank)
  slices_S2x1x8x4_S2x1x8x1_0_0_0_3 : S2x1x8x4.Slices ![0, 0, 0, 3] S2x1x8x1
  slices_S2x1x8x4_S2x1x8x1_0_0_0_1 : S2x1x8x4.Slices ![0, 0, 0, 1] S2x1x8x1
  bcast_S2x128x1_S2x128x8_0_1_2 : S2x128x1.BroadcastsInDim S2x128x8 (![0, 1, 2] : Fin 3 → Fin S2x128x8.rank)
  bcast_S2x1x8_S2x128x8_0_1_2 : S2x1x8.BroadcastsInDim S2x128x8 (![0, 1, 2] : Fin 3 → Fin S2x128x8.rank)
  bcast_S_S2x128x8 : S_.BroadcastsInDim S2x128x8 (![] : Fin 0 → Fin S2x128x8.rank)
  bcast_S2x128x8_S2x128x8x1_0_1_2 : S2x128x8.BroadcastsInDim S2x128x8x1 (![0, 1, 2] : Fin 3 → Fin S2x128x8x1.rank)
  bcast_S_S2x128x8x1 : S_.BroadcastsInDim S2x128x8x1 (![] : Fin 0 → Fin S2x128x8x1.rank)
  bcast_S2x128x1x4_S2x128x8x4_0_1_2_3 : S2x128x1x4.BroadcastsInDim S2x128x8x4 (![0, 1, 2, 3] : Fin 4 → Fin S2x128x8x4.rank)
  bcast_S2x8x81_S2x1x8x81_0_2_3 : S2x8x81.BroadcastsInDim S2x1x8x81 (![0, 2, 3] : Fin 3 → Fin S2x1x8x81.rank)
  bcast_S2x1x8x81_S2x128x8x81_0_1_2_3 : S2x1x8x81.BroadcastsInDim S2x128x8x81 (![0, 1, 2, 3] : Fin 4 → Fin S2x128x8x81.rank)
  bcast_S2x1x8x4_S2x128x8x4_0_1_2_3 : S2x1x8x4.BroadcastsInDim S2x128x8x4 (![0, 1, 2, 3] : Fin 4 → Fin S2x128x8x4.rank)
  bcast_S2x128x8x1_S2x128x8x4_0_1_2_3 : S2x128x8x1.BroadcastsInDim S2x128x8x4 (![0, 1, 2, 3] : Fin 4 → Fin S2x128x8x4.rank)
  shapeCasts_S2x128x8x4_S2x1024x4 : S2x128x8x4.ShapeCasts S2x1024x4
  bcast_S2x128x8x1_S2x128x8x81_0_1_2_3 : S2x128x8x1.BroadcastsInDim S2x128x8x81 (![0, 1, 2, 3] : Fin 4 → Fin S2x128x8x81.rank)
  shapeCasts_S2x128x8x81_S2x1024x81 : S2x128x8x81.ShapeCasts S2x1024x81
  bcast_S_S768 : S_.BroadcastsInDim S768 (![] : Fin 0 → Fin S768.rank)
  bcast_S768_S768x1_0 : S768.BroadcastsInDim S768x1 (![0] : Fin 1 → Fin S768x1.rank)
  bcast_S_S256 : S_.BroadcastsInDim S256 (![] : Fin 0 → Fin S256.rank)
  bcast_S256_S256x1_0 : S256.BroadcastsInDim S256x1 (![0] : Fin 1 → Fin S256x1.rank)
  concatenates_S2x768x4_S2x256x4_S2x1024x4_d1 : Shape.Concatenates [S2x768x4, S2x256x4] S2x1024x4 1
  concatenates_S2x768x81_S2x256x81_S2x1024x81_d1 : Shape.Concatenates [S2x768x81, S2x256x81] S2x1024x81 1
  concatenates_S256x1_S256x1_S256x2_d1 : Shape.Concatenates [S256x1, S256x1] S256x2 1
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  bcast_S256x8_S1x256x8_1_2 : S256x8.BroadcastsInDim S1x256x8 (![1, 2] : Fin 2 → Fin S1x256x8.rank)
  bcast_S2x256_S2x256x1_0_1 : S2x256.BroadcastsInDim S2x256x1 (![0, 1] : Fin 2 → Fin S2x256x1.rank)
  bcast_S1x256x8_S2x256x8_0_1_2 : S1x256x8.BroadcastsInDim S2x256x8 (![0, 1, 2] : Fin 3 → Fin S2x256x8.rank)
  bcast_S2x256x1_S2x256x8_0_1_2 : S2x256x1.BroadcastsInDim S2x256x8 (![0, 1, 2] : Fin 3 → Fin S2x256x8.rank)
  shapeCasts_S2x8x384x384_S2x8x147456 : S2x8x384x384.ShapeCasts S2x8x147456
  inb_S1x256x8_S1x256x8_0_0_0 : ∀ a, (![0, 0, 0] : Fin 3 → Nat) a + S1x256x8.size a ≤ S1x256x8.size a
  h_S1x256x8 : 0 < S1x256x8.numel
  shapeCasts_S1x256x8_S256x8 : S1x256x8.ShapeCasts S256x8
  inb_S1x8x6144_S1x8x6144_0_0_0 : ∀ a, (![0, 0, 0] : Fin 3 → Nat) a + S1x8x6144.size a ≤ S1x8x6144.size a
  h_S1x8x6144 : 0 < S1x8x6144.numel
  shapeCasts_S1x8x6144_S8x6144 : S1x8x6144.ShapeCasts S8x6144
  inb_S1x256x6144_S1x256x6144_0_0_0 : ∀ a, (![0, 0, 0] : Fin 3 → Nat) a + S1x256x6144.size a ≤ S1x256x6144.size a
  h_S1x256x6144 : 0 < S1x256x6144.numel
  shapeCasts_S1x256x6144_S256x6144 : S1x256x6144.ShapeCasts S256x6144
  shapeCasts_S256x6144_S1x256x6144 : S256x6144.ShapeCasts S1x256x6144
  shapeCasts_S2x256x147456_S2x256x384x384 : S2x256x147456.ShapeCasts S2x256x384x384
  gather_S2x1024x4_S768x1_S2x768x4_02_1_n_n_1_1_214_wf : GatherDims.WF S2x1024x4 S768x1 S2x768x4 [0, 2] [1] [] [1] [] 1 ![2, 1, 4]
  gather_S2x1024x4_S256x1_S2x256x4_02_1_n_n_1_1_214_wf : GatherDims.WF S2x1024x4 S256x1 S2x256x4 [0, 2] [1] [] [1] [] 1 ![2, 1, 4]
  gather_S2x1024x81_S768x1_S2x768x81_02_1_n_n_1_1_2181_wf : GatherDims.WF S2x1024x81 S768x1 S2x768x81 [0, 2] [1] [] [1] [] 1 ![2, 1, 81]
  gather_S2x1024x81_S256x1_S2x256x81_02_1_n_n_1_1_2181_wf : GatherDims.WF S2x1024x81 S256x1 S2x256x81 [0, 2] [1] [] [1] [] 1 ![2, 1, 81]
  gather_S2x128x8_S256x2_S2x256_0_12_n_n_12_1_211_wf : GatherDims.WF S2x128x8 S256x2 S2x256 [0] [1, 2] [] [1, 2] [] 1 ![2, 1, 1]
  dot_S256x8_S8x6144_S256x6144_1_0_0_1_n_n_wf : DotDims.WF S256x8 S8x6144 S256x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8.size a ≤ S2x256x8.size a
  hwx0_0 : ∀ i : grid0.Coords, EltTy.bits .f32 = 32 ∨ (Rect.block (s := S2x256x8) S1x256x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x6144.size a ≤ S2x8x147456.size a
  hwx0_1 : ∀ i : grid0.Coords, EltTy.bits .f32 = 32 ∨ (Rect.block (s := S2x8x147456) S1x8x6144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x6144.size a ≤ S2x256x147456.size a
  hwx0_2 : ∀ i : grid0.Coords, EltTy.bits .f32 = 32 ∨ (Rect.block (s := S2x256x147456) S1x256x6144.size (cc0_transform_2 i) (hinb0_2 i)).WholeWords (EltTy.packing .f32)

variable [Facts₀]

def gather_S2x1024x4_S768x1_S2x768x4_02_1_n_n_1_1_214 : GatherDims S2x1024x4 S768x1 S2x768x4 where
  offsetDims := [0, 2]
  collapsedSliceDims := [1]
  operandBatchingDims := []
  startIndicesBatchingDims := []
  startIndexMap := [1]
  indexVectorDim := 1
  sliceSizes := ![2, 1, 4]
  wf := gather_S2x1024x4_S768x1_S2x768x4_02_1_n_n_1_1_214_wf
def gather_S2x1024x4_S256x1_S2x256x4_02_1_n_n_1_1_214 : GatherDims S2x1024x4 S256x1 S2x256x4 where
  offsetDims := [0, 2]
  collapsedSliceDims := [1]
  operandBatchingDims := []
  startIndicesBatchingDims := []
  startIndexMap := [1]
  indexVectorDim := 1
  sliceSizes := ![2, 1, 4]
  wf := gather_S2x1024x4_S256x1_S2x256x4_02_1_n_n_1_1_214_wf
def gather_S2x1024x81_S768x1_S2x768x81_02_1_n_n_1_1_2181 : GatherDims S2x1024x81 S768x1 S2x768x81 where
  offsetDims := [0, 2]
  collapsedSliceDims := [1]
  operandBatchingDims := []
  startIndicesBatchingDims := []
  startIndexMap := [1]
  indexVectorDim := 1
  sliceSizes := ![2, 1, 81]
  wf := gather_S2x1024x81_S768x1_S2x768x81_02_1_n_n_1_1_2181_wf
def gather_S2x1024x81_S256x1_S2x256x81_02_1_n_n_1_1_2181 : GatherDims S2x1024x81 S256x1 S2x256x81 where
  offsetDims := [0, 2]
  collapsedSliceDims := [1]
  operandBatchingDims := []
  startIndicesBatchingDims := []
  startIndexMap := [1]
  indexVectorDim := 1
  sliceSizes := ![2, 1, 81]
  wf := gather_S2x1024x81_S256x1_S2x256x81_02_1_n_n_1_1_2181_wf
def gather_S2x128x8_S256x2_S2x256_0_12_n_n_12_1_211 : GatherDims S2x128x8 S256x2 S2x256 where
  offsetDims := [0]
  collapsedSliceDims := [1, 2]
  operandBatchingDims := []
  startIndicesBatchingDims := []
  startIndexMap := [1, 2]
  indexVectorDim := 1
  sliceSizes := ![2, 1, 1]
  wf := gather_S2x128x8_S256x2_S2x256_0_12_n_n_12_1_211_wf
def dot_S256x8_S8x6144_S256x6144_1_0_0_1_n_n : DotDims S256x8 S8x6144 S256x6144 where
  lhsContracting := [1]
  rhsContracting := [0]
  lhsNonContracting := [0]
  rhsNonContracting := [1]
  lhsBatch := []
  rhsBatch := []
  wf := dot_S256x8_S8x6144_S256x6144_1_0_0_1_n_n_wf

abbrev win0_0 : Pipeline.Window sig grid0 :=
  Pipeline.Window.ofSpec (Memref.whole main_v169) S1x256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v170) S1x8x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v171) S1x256x6144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x128x4 : Shape := ⟨3, ![2, 128, 4]⟩
abbrev S2x8x81 : Shape := ⟨3, ![2, 8, 81]⟩
abbrev S2x8x4 : Shape := ⟨3, ![2, 8, 4]⟩
abbrev S2x8x384x384 : Shape := ⟨4, ![2, 8, 384, 384]⟩
abbrev S768 : Shape := ⟨1, ![768]⟩
abbrev S256 : Shape := ⟨1, ![256]⟩
abbrev S2x128x1x4 : Shape := ⟨4, ![2, 128, 1, 4]⟩
abbrev S2x1x8x4 : Shape := ⟨4, ![2, 1, 8, 4]⟩
abbrev S2x128x1x1 : Shape := ⟨4, ![2, 128, 1, 1]⟩
abbrev S2x128x1 : Shape := ⟨3, ![2, 128, 1]⟩
abbrev S_ : Shape := ⟨0, ![]⟩
abbrev S2x1x8x1 : Shape := ⟨4, ![2, 1, 8, 1]⟩
abbrev S2x1x8 : Shape := ⟨3, ![2, 1, 8]⟩
abbrev S2x128x8 : Shape := ⟨3, ![2, 128, 8]⟩
abbrev S2x128x8x1 : Shape := ⟨4, ![2, 128, 8, 1]⟩
abbrev S2x128x8x4 : Shape := ⟨4, ![2, 128, 8, 4]⟩
abbrev S2x1x8x81 : Shape := ⟨4, ![2, 1, 8, 81]⟩
abbrev S2x128x8x81 : Shape := ⟨4, ![2, 128, 8, 81]⟩
abbrev S2x1024x4 : Shape := ⟨3, ![2, 1024, 4]⟩
abbrev S2x1024x81 : Shape := ⟨3, ![2, 1024, 81]⟩
abbrev S768x1 : Shape := ⟨2, ![768, 1]⟩
abbrev S2x768x4 : Shape := ⟨3, ![2, 768, 4]⟩
abbrev S256x1 : Shape := ⟨2, ![256, 1]⟩
abbrev S2x256x4 : Shape := ⟨3, ![2, 256, 4]⟩
abbrev S2x768x81 : Shape := ⟨3, ![2, 768, 81]⟩
abbrev S2x256x81 : Shape := ⟨3, ![2, 256, 81]⟩
abbrev S256x2 : Shape := ⟨2, ![256, 2]⟩
abbrev S2x256 : Shape := ⟨2, ![2, 256]⟩
abbrev S2x256x384x384 : Shape := ⟨4, ![2, 256, 384, 384]⟩
abbrev S2x256x1x1 : Shape := ⟨4, ![2, 256, 1, 1]⟩

abbrev nBuf : Space → Nat
  | .hbm => 244
  | .vmem => 0
  | .smem => 0
  | _ => 0

abbrev hbmTy0_0 (i : Nat) : BufTy := match i % 128 with
  | 0 => ⟨S2x128x4, .f32⟩
  | 1 => ⟨S2x8x81, .f32⟩
  | 2 => ⟨S2x8x4, .f32⟩
  | 3 => ⟨S2x8x384x384, .f32⟩
  | 4 => ⟨S768, .i32⟩
  | 5 => ⟨S256, .i32⟩
  | 6 => ⟨S2x128x1x4, .f32⟩
  | 7 => ⟨S2x1x8x4, .f32⟩
  | 8 => ⟨S2x128x1x1, .f32⟩
  | 9 => ⟨S2x128x1, .f32⟩
  | 10 => ⟨S2x128x1x1, .f32⟩
  | 11 => ⟨S2x128x1, .f32⟩
  | 12 => ⟨S2x128x1, .f32⟩
  | 13 => ⟨S_, .f32⟩
  | 14 => ⟨S2x128x1, .f32⟩
  | 15 => ⟨S2x128x1, .f32⟩
  | 16 => ⟨S2x128x1x1, .f32⟩
  | 17 => ⟨S2x128x1, .f32⟩
  | 18 => ⟨S2x128x1x1, .f32⟩
  | 19 => ⟨S2x128x1, .f32⟩
  | 20 => ⟨S2x128x1, .f32⟩
  | 21 => ⟨S2x128x1, .f32⟩
  | 22 => ⟨S2x1x8x1, .f32⟩
  | 23 => ⟨S2x1x8, .f32⟩
  | 24 => ⟨S2x1x8x1, .f32⟩
  | 25 => ⟨S2x1x8, .f32⟩
  | 26 => ⟨S2x1x8, .f32⟩
  | 27 => ⟨S_, .f32⟩
  | 28 => ⟨S2x1x8, .f32⟩
  | 29 => ⟨S2x1x8, .f32⟩
  | 30 => ⟨S2x1x8x1, .f32⟩
  | 31 => ⟨S2x1x8, .f32⟩
  | 32 => ⟨S2x1x8x1, .f32⟩
  | 33 => ⟨S2x1x8, .f32⟩
  | 34 => ⟨S2x1x8, .f32⟩
  | 35 => ⟨S2x1x8, .f32⟩
  | 36 => ⟨S2x128x1x1, .f32⟩
  | 37 => ⟨S2x128x1, .f32⟩
  | 38 => ⟨S2x1x8x1, .f32⟩
  | 39 => ⟨S2x1x8, .f32⟩
  | 40 => ⟨S2x128x8, .f32⟩
  | 41 => ⟨S2x128x8, .f32⟩
  | 42 => ⟨S2x128x8, .f32⟩
  | 43 => ⟨S2x128x1x1, .f32⟩
  | 44 => ⟨S2x128x1, .f32⟩
  | 45 => ⟨S2x1x8x1, .f32⟩
  | 46 => ⟨S2x1x8, .f32⟩
  | 47 => ⟨S2x128x8, .f32⟩
  | 48 => ⟨S2x128x8, .f32⟩
  | 49 => ⟨S2x128x8, .f32⟩
  | 50 => ⟨S2x128x1x1, .f32⟩
  | 51 => ⟨S2x128x1, .f32⟩
  | 52 => ⟨S2x1x8x1, .f32⟩
  | 53 => ⟨S2x1x8, .f32⟩
  | 54 => ⟨S2x128x8, .f32⟩
  | 55 => ⟨S2x128x8, .f32⟩
  | 56 => ⟨S2x128x8, .f32⟩
  | 57 => ⟨S2x128x1x1, .f32⟩
  | 58 => ⟨S2x128x1, .f32⟩
  | 59 => ⟨S2x1x8x1, .f32⟩
  | 60 => ⟨S2x1x8, .f32⟩
  | 61 => ⟨S2x128x8, .f32⟩
  | 62 => ⟨S2x128x8, .f32⟩
  | 63 => ⟨S2x128x8, .f32⟩
  | 64 => ⟨S2x128x8, .f32⟩
  | 65 => ⟨S_, .f32⟩
  | 66 => ⟨S2x128x8, .f32⟩
  | 67 => ⟨S2x128x8, .f32⟩
  | 68 => ⟨S_, .f32⟩
  | 69 => ⟨S2x128x8, .f32⟩
  | 70 => ⟨S2x128x8, .f32⟩
  | 71 => ⟨S2x128x8, .f32⟩
  | 72 => ⟨S_, .f32⟩
  | 73 => ⟨S2x128x8, .f32⟩
  | 74 => ⟨S2x128x8, .f32⟩
  | 75 => ⟨S_, .f32⟩
  | 76 => ⟨S2x128x8, .f32⟩
  | 77 => ⟨S2x128x8, .f32⟩
  | 78 => ⟨S2x128x8, .f32⟩
  | 79 => ⟨S2x128x8, .f32⟩
  | 80 => ⟨S2x128x8, .f32⟩
  | 81 => ⟨S2x128x8, .f32⟩
  | 82 => ⟨S2x128x8, .f32⟩
  | 83 => ⟨S2x128x8, .f32⟩
  | 84 => ⟨S_, .f32⟩
  | 85 => ⟨S2x128x8, .f32⟩
  | 86 => ⟨S2x128x8, .i1⟩
  | 87 => ⟨S2x128x8x1, .i1⟩
  | 88 => ⟨S2x128x8x1, .f32⟩
  | 89 => ⟨S_, .f32⟩
  | 90 => ⟨S2x128x8x1, .f32⟩
  | 91 => ⟨S2x128x8x1, .f32⟩
  | 92 => ⟨S2x128x1x4, .f32⟩
  | 93 => ⟨S2x128x8x4, .f32⟩
  | 94 => ⟨S2x1x8x81, .f32⟩
  | 95 => ⟨S2x128x8x81, .f32⟩
  | 96 => ⟨S2x1x8x4, .f32⟩
  | 97 => ⟨S2x128x8x4, .f32⟩
  | 98 => ⟨S2x128x8x4, .f32⟩
  | 99 => ⟨S2x128x8x4, .f32⟩
  | 100 => ⟨S2x1024x4, .f32⟩
  | 101 => ⟨S2x128x8x4, .f32⟩
  | 102 => ⟨S2x128x8x4, .f32⟩
  | 103 => ⟨S2x1024x4, .f32⟩
  | 104 => ⟨S2x128x8x81, .f32⟩
  | 105 => ⟨S2x128x8x81, .f32⟩
  | 106 => ⟨S2x1024x81, .f32⟩
  | 107 => ⟨S2x128x8x81, .f32⟩
  | 108 => ⟨S2x128x8x81, .f32⟩
  | 109 => ⟨S2x1024x81, .f32⟩
  | 110 => ⟨S2x128x8x4, .f32⟩
  | 111 => ⟨S2x128x8x4, .f32⟩
  | 112 => ⟨S2x1024x4, .f32⟩
  | 113 => ⟨S2x128x8x4, .f32⟩
  | 114 => ⟨S2x128x8x4, .f32⟩
  | 115 => ⟨S2x1024x4, .f32⟩
  | 116 => ⟨S_, .i32⟩
  | 117 => ⟨S768, .i32⟩
  | 118 => ⟨S768, .i1⟩
  | 119 => ⟨S_, .i32⟩
  | 120 => ⟨S768, .i32⟩
  | 121 => ⟨S768, .i32⟩
  | 122 => ⟨S768, .i32⟩
  | 123 => ⟨S768x1, .i32⟩
  | 124 => ⟨S2x768x4, .f32⟩
  | 125 => ⟨S_, .i32⟩
  | 126 => ⟨S256, .i32⟩
  | 127 => ⟨S256, .i1⟩
  | _ => ⟨S2x128x4, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S2x256x4, .f32⟩
  | 6 => ⟨S2x1024x4, .f32⟩
  | 7 => ⟨S_, .i32⟩
  | 8 => ⟨S768, .i32⟩
  | 9 => ⟨S768, .i1⟩
  | 10 => ⟨S_, .i32⟩
  | 11 => ⟨S768, .i32⟩
  | 12 => ⟨S768, .i32⟩
  | 13 => ⟨S768, .i32⟩
  | 14 => ⟨S768x1, .i32⟩
  | 15 => ⟨S2x768x81, .f32⟩
  | 16 => ⟨S_, .i32⟩
  | 17 => ⟨S256, .i32⟩
  | 18 => ⟨S256, .i1⟩
  | 19 => ⟨S_, .i32⟩
  | 20 => ⟨S256, .i32⟩
  | 21 => ⟨S256, .i32⟩
  | 22 => ⟨S256, .i32⟩
  | 23 => ⟨S256x1, .i32⟩
  | 24 => ⟨S2x256x81, .f32⟩
  | 25 => ⟨S2x1024x81, .f32⟩
  | 26 => ⟨S_, .i32⟩
  | 27 => ⟨S768, .i32⟩
  | 28 => ⟨S768, .i1⟩
  | 29 => ⟨S_, .i32⟩
  | 30 => ⟨S768, .i32⟩
  | 31 => ⟨S768, .i32⟩
  | 32 => ⟨S768, .i32⟩
  | 33 => ⟨S768x1, .i32⟩
  | 34 => ⟨S2x768x4, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S256x1, .i32⟩
  | 43 => ⟨S2x256x4, .f32⟩
  | 44 => ⟨S2x1024x4, .f32⟩
  | 45 => ⟨S_, .i32⟩
  | 46 => ⟨S_, .i32⟩
  | 47 => ⟨S256, .i32⟩
  | 48 => ⟨S256, .i32⟩
  | 49 => ⟨S256, .i32⟩
  | 50 => ⟨S_, .i32⟩
  | 51 => ⟨S256, .i32⟩
  | 52 => ⟨S256, .i1⟩
  | 53 => ⟨S256, .i32⟩
  | 54 => ⟨S256, .i32⟩
  | 55 => ⟨S_, .i32⟩
  | 56 => ⟨S256, .i32⟩
  | 57 => ⟨S256, .i1⟩
  | 58 => ⟨S256, .i1⟩
  | 59 => ⟨S_, .i32⟩
  | 60 => ⟨S256, .i32⟩
  | 61 => ⟨S256, .i32⟩
  | 62 => ⟨S256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S256, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i1⟩
  | 77 => ⟨S_, .i32⟩
  | 78 => ⟨S_, .i1⟩
  | 79 => ⟨S256, .i1⟩
  | 80 => ⟨S256, .i1⟩
  | 81 => ⟨S256, .i1⟩
  | 82 => ⟨S256, .i32⟩
  | 83 => ⟨S256, .i32⟩
  | 84 => ⟨S256, .i32⟩
  | 85 => ⟨S_, .i32⟩
  | 86 => ⟨S256, .i32⟩
  | 87 => ⟨S256, .i1⟩
  | 88 => ⟨S_, .i32⟩
  | 89 => ⟨S256, .i32⟩
  | 90 => ⟨S256, .i32⟩
  | 91 => ⟨S256, .i32⟩
  | 92 => ⟨S_, .i32⟩
  | 93 => ⟨S256, .i32⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S256x1, .i32⟩
  | 101 => ⟨S256x2, .i32⟩
  | 102 => ⟨S2x256, .i1⟩
  | 103 => ⟨S2x256, .f32⟩
  | 104 => ⟨S_, .i32⟩
  | 105 => ⟨S256, .i32⟩
  | 106 => ⟨S256, .i1⟩
  | 107 => ⟨S_, .i32⟩
  | 108 => ⟨S256, .i32⟩
  | 109 => ⟨S256, .i32⟩
  | 110 => ⟨S256, .i32⟩
  | 111 => ⟨S256x1, .i32⟩
  | 112 => ⟨S2x256x384x384, .f32⟩
  | 113 => ⟨S2x256x1x1, .f32⟩
  | 114 => ⟨S2x256x384x384, .f32⟩
  | 115 => ⟨S2x256x384x384, .f32⟩
  | _ => ⟨S2x128x4, .f32⟩

abbrev hbmTy (i : Nat) : BufTy := match i / 128 with
  | 0 => hbmTy0_0 i
  | 1 => hbmTy0_1 i
  | _ => ⟨S2x128x4, .f32⟩

abbrev bufTy : (tb : Table) → Fin (tcTables nBuf tb) → BufTy
  | .hbm, ⟨i, _⟩ => hbmTy i
  | _, _ => ⟨S2x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_1 : Ref sig .tc := ⟨.hbm, 65, rfl⟩
abbrev main_v57 : Ref sig .tc := ⟨.hbm, 66, rfl⟩
abbrev main_v58 : Ref sig .tc := ⟨.hbm, 67, rfl⟩
abbrev main_cst_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_6 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_c : Ref sig .tc := ⟨.hbm, 116, rfl⟩
abbrev main_v102 : Ref sig .tc := ⟨.hbm, 117, rfl⟩
abbrev main_v103 : Ref sig .tc := ⟨.hbm, 118, rfl⟩
abbrev main_c_7 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_c_8 : Ref sig .tc := ⟨.hbm, 125, rfl⟩
abbrev main_v109 : Ref sig .tc := ⟨.hbm, 126, rfl⟩
abbrev main_v110 : Ref sig .tc := ⟨.hbm, 127, rfl⟩
abbrev main_c_9 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_c_10 : Ref sig .tc := ⟨.hbm, 135, rfl⟩
abbrev main_v117 : Ref sig .tc := ⟨.hbm, 136, rfl⟩
abbrev main_v118 : Ref sig .tc := ⟨.hbm, 137, rfl⟩
abbrev main_c_11 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_c_12 : Ref sig .tc := ⟨.hbm, 144, rfl⟩
abbrev main_v124 : Ref sig .tc := ⟨.hbm, 145, rfl⟩
abbrev main_v125 : Ref sig .tc := ⟨.hbm, 146, rfl⟩
abbrev main_c_13 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_c_14 : Ref sig .tc := ⟨.hbm, 154, rfl⟩
abbrev main_v132 : Ref sig .tc := ⟨.hbm, 155, rfl⟩
abbrev main_v133 : Ref sig .tc := ⟨.hbm, 156, rfl⟩
abbrev main_c_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_c_16 : Ref sig .tc := ⟨.hbm, 163, rfl⟩
abbrev main_v139 : Ref sig .tc := ⟨.hbm, 164, rfl⟩
abbrev main_v140 : Ref sig .tc := ⟨.hbm, 165, rfl⟩
abbrev main_c_17 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_c_18 : Ref sig .tc := ⟨.hbm, 173, rfl⟩
abbrev main_call0_v0 : Ref sig .tc := ⟨.hbm, 174, rfl⟩
abbrev main_call0_v1 : Ref sig .tc := ⟨.hbm, 175, rfl⟩
abbrev main_call0_v2 : Ref sig .tc := ⟨.hbm, 176, rfl⟩
abbrev main_call0_v3 : Ref sig .tc := ⟨.hbm, 177, rfl⟩
abbrev main_call0_v4 : Ref sig .tc := ⟨.hbm, 178, rfl⟩
abbrev main_call0_v5 : Ref sig .tc := ⟨.hbm, 179, rfl⟩
abbrev main_call0_v6 : Ref sig .tc := ⟨.hbm, 180, rfl⟩
abbrev main_call0_v7 : Ref sig .tc := ⟨.hbm, 181, rfl⟩
abbrev main_call0_v8 : Ref sig .tc := ⟨.hbm, 182, rfl⟩
abbrev main_call0_c : Ref sig .tc := ⟨.hbm, 183, rfl⟩
abbrev main_call0_v9 : Ref sig .tc := ⟨.hbm, 184, rfl⟩
abbrev main_call0_v10 : Ref sig .tc := ⟨.hbm, 185, rfl⟩
abbrev main_call0_v11 : Ref sig .tc := ⟨.hbm, 186, rfl⟩
abbrev main_call0_c_0 : Ref sig .tc := ⟨.hbm, 187, rfl⟩
abbrev main_call0_v12 : Ref sig .tc := ⟨.hbm, 188, rfl⟩
abbrev main_call0_v13 : Ref sig .tc := ⟨.hbm, 189, rfl⟩
abbrev main_v147 : Ref sig .tc := ⟨.hbm, 190, rfl⟩
abbrev main_c_19 : Ref sig .tc := ⟨.hbm, 191, rfl⟩
abbrev main_call1_v0 : Ref sig .tc := ⟨.hbm, 192, rfl⟩
abbrev main_call1_c : Ref sig .tc := ⟨.hbm, 193, rfl⟩
abbrev main_call1_v1 : Ref sig .tc := ⟨.hbm, 194, rfl⟩
abbrev main_call1_c_0 : Ref sig .tc := ⟨.hbm, 195, rfl⟩
abbrev main_call1_v2 : Ref sig .tc := ⟨.hbm, 196, rfl⟩
abbrev main_call1_v3 : Ref sig .tc := ⟨.hbm, 197, rfl⟩
abbrev main_call1_v4 : Ref sig .tc := ⟨.hbm, 198, rfl⟩
abbrev main_call1_c_1 : Ref sig .tc := ⟨.hbm, 199, rfl⟩
abbrev main_call1_v5 : Ref sig .tc := ⟨.hbm, 200, rfl⟩
abbrev main_call1_v6 : Ref sig .tc := ⟨.hbm, 201, rfl⟩
abbrev main_call1_c_2 : Ref sig .tc := ⟨.hbm, 202, rfl⟩
abbrev main_call1_v7 : Ref sig .tc := ⟨.hbm, 203, rfl⟩
abbrev main_call1_v8 : Ref sig .tc := ⟨.hbm, 204, rfl⟩
abbrev main_call1_c_3 : Ref sig .tc := ⟨.hbm, 205, rfl⟩
abbrev main_call1_v9 : Ref sig .tc := ⟨.hbm, 206, rfl⟩
abbrev main_call1_v10 : Ref sig .tc := ⟨.hbm, 207, rfl⟩
abbrev main_call1_v11 : Ref sig .tc := ⟨.hbm, 208, rfl⟩
abbrev main_call1_v12 : Ref sig .tc := ⟨.hbm, 209, rfl⟩
abbrev main_call1_v13 : Ref sig .tc := ⟨.hbm, 210, rfl⟩
abbrev main_call1_v14 : Ref sig .tc := ⟨.hbm, 211, rfl⟩
abbrev main_v148 : Ref sig .tc := ⟨.hbm, 212, rfl⟩
abbrev main_c_20 : Ref sig .tc := ⟨.hbm, 213, rfl⟩
abbrev main_v149 : Ref sig .tc := ⟨.hbm, 214, rfl⟩
abbrev main_v150 : Ref sig .tc := ⟨.hbm, 215, rfl⟩
abbrev main_c_21 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_22 : Ref sig .tc := ⟨.hbm, 220, rfl⟩
abbrev main_v154 : Ref sig .tc := ⟨.hbm, 221, rfl⟩
abbrev main_v155 : Ref sig .tc := ⟨.hbm, 222, rfl⟩
abbrev main_c_23 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_c_24 : Ref sig .tc := ⟨.hbm, 232, rfl⟩
abbrev main_v164 : Ref sig .tc := ⟨.hbm, 233, rfl⟩
abbrev main_v165 : Ref sig .tc := ⟨.hbm, 234, rfl⟩
abbrev main_c_25 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩

abbrev nD : Nat := 1
abbrev τ : Topo := Topo.v7x

variable {F : FTy → Type} [FloatOps F]

class Facts₀ : Prop where
  bcast_S2x128x4_S2x128x1x4_0_1_3 : S2x128x4.BroadcastsInDim S2x128x1x4 (![0, 1, 3] : Fin 3 → Fin S2x128x1x4.rank)
  bcast_S2x8x4_S2x1x8x4_0_2_3 : S2x8x4.BroadcastsInDim S2x1x8x4 (![0, 2, 3] : Fin 3 → Fin S2x1x8x4.rank)
  slices_S2x128x1x4_S2x128x1x1_0_0_0_2 : S2x128x1x4.Slices ![0, 0, 0, 2] S2x128x1x1
  shapeCasts_S2x128x1x1_S2x128x1 : S2x128x1x1.ShapeCasts S2x128x1
  slices_S2x128x1x4_S2x128x1x1_0_0_0_0 : S2x128x1x4.Slices ![0, 0, 0, 0] S2x128x1x1
  bcast_S_S2x128x1 : S_.BroadcastsInDim S2x128x1 (![] : Fin 0 → Fin S2x128x1.rank)
  slices_S2x128x1x4_S2x128x1x1_0_0_0_3 : S2x128x1x4.Slices ![0, 0, 0, 3] S2x128x1x1
  slices_S2x128x1x4_S2x128x1x1_0_0_0_1 : S2x128x1x4.Slices ![0, 0, 0, 1] S2x128x1x1
  slices_S2x1x8x4_S2x1x8x1_0_0_0_2 : S2x1x8x4.Slices ![0, 0, 0, 2] S2x1x8x1
  shapeCasts_S2x1x8x1_S2x1x8 : S2x1x8x1.ShapeCasts S2x1x8
  slices_S2x1x8x4_S2x1x8x1_0_0_0_0 : S2x1x8x4.Slices ![0, 0, 0, 0] S2x1x8x1
  bcast_S_S2x1x8 : S_.BroadcastsInDim S2x1x8 (![] : Fin 0 → Fin S2x1x8.rank)
  slices_S2x1x8x4_S2x1x8x1_0_0_0_3 : S2x1x8x4.Slices ![0, 0, 0, 3] S2x1x8x1
  slices_S2x1x8x4_S2x1x8x1_0_0_0_1 : S2x1x8x4.Slices ![0, 0, 0, 1] S2x1x8x1
  bcast_S2x128x1_S2x128x8_0_1_2 : S2x128x1.BroadcastsInDim S2x128x8 (![0, 1, 2] : Fin 3 → Fin S2x128x8.rank)
  bcast_S2x1x8_S2x128x8_0_1_2 : S2x1x8.BroadcastsInDim S2x128x8 (![0, 1, 2] : Fin 3 → Fin S2x128x8.rank)
  bcast_S_S2x128x8 : S_.BroadcastsInDim S2x128x8 (![] : Fin 0 → Fin S2x128x8.rank)
  bcast_S2x128x8_S2x128x8x1_0_1_2 : S2x128x8.BroadcastsInDim S2x128x8x1 (![0, 1, 2] : Fin 3 → Fin S2x128x8x1.rank)
  bcast_S_S2x128x8x1 : S_.BroadcastsInDim S2x128x8x1 (![] : Fin 0 → Fin S2x128x8x1.rank)
  bcast_S2x128x1x4_S2x128x8x4_0_1_2_3 : S2x128x1x4.BroadcastsInDim S2x128x8x4 (![0, 1, 2, 3] : Fin 4 → Fin S2x128x8x4.rank)
  bcast_S2x8x81_S2x1x8x81_0_2_3 : S2x8x81.BroadcastsInDim S2x1x8x81 (![0, 2, 3] : Fin 3 → Fin S2x1x8x81.rank)
  bcast_S2x1x8x81_S2x128x8x81_0_1_2_3 : S2x1x8x81.BroadcastsInDim S2x128x8x81 (![0, 1, 2, 3] : Fin 4 → Fin S2x128x8x81.rank)
  bcast_S2x1x8x4_S2x128x8x4_0_1_2_3 : S2x1x8x4.BroadcastsInDim S2x128x8x4 (![0, 1, 2, 3] : Fin 4 → Fin S2x128x8x4.rank)
  bcast_S2x128x8x1_S2x128x8x4_0_1_2_3 : S2x128x8x1.BroadcastsInDim S2x128x8x4 (![0, 1, 2, 3] : Fin 4 → Fin S2x128x8x4.rank)
  shapeCasts_S2x128x8x4_S2x1024x4 : S2x128x8x4.ShapeCasts S2x1024x4
  bcast_S2x128x8x1_S2x128x8x81_0_1_2_3 : S2x128x8x1.BroadcastsInDim S2x128x8x81 (![0, 1, 2, 3] : Fin 4 → Fin S2x128x8x81.rank)
  shapeCasts_S2x128x8x81_S2x1024x81 : S2x128x8x81.ShapeCasts S2x1024x81
  bcast_S_S768 : S_.BroadcastsInDim S768 (![] : Fin 0 → Fin S768.rank)
  bcast_S768_S768x1_0 : S768.BroadcastsInDim S768x1 (![0] : Fin 1 → Fin S768x1.rank)
  bcast_S_S256 : S_.BroadcastsInDim S256 (![] : Fin 0 → Fin S256.rank)
  bcast_S256_S256x1_0 : S256.BroadcastsInDim S256x1 (![0] : Fin 1 → Fin S256x1.rank)
  concatenates_S2x768x4_S2x256x4_S2x1024x4_d1 : Shape.Concatenates [S2x768x4, S2x256x4] S2x1024x4 1
  concatenates_S2x768x81_S2x256x81_S2x1024x81_d1 : Shape.Concatenates [S2x768x81, S2x256x81] S2x1024x81 1
  concatenates_S256x1_S256x1_S256x2_d1 : Shape.Concatenates [S256x1, S256x1] S256x2 1
  bcast_S2x256_S2x256x1x1_0_1 : S2x256.BroadcastsInDim S2x256x1x1 (![0, 1] : Fin 2 → Fin S2x256x1x1.rank)
  bcast_S2x256x1x1_S2x256x384x384_0_1_2_3 : S2x256x1x1.BroadcastsInDim S2x256x384x384 (![0, 1, 2, 3] : Fin 4 → Fin S2x256x384x384.rank)
  gather_S2x1024x4_S768x1_S2x768x4_02_1_n_n_1_1_214_wf : GatherDims.WF S2x1024x4 S768x1 S2x768x4 [0, 2] [1] [] [1] [] 1 ![2, 1, 4]
  gather_S2x1024x4_S256x1_S2x256x4_02_1_n_n_1_1_214_wf : GatherDims.WF S2x1024x4 S256x1 S2x256x4 [0, 2] [1] [] [1] [] 1 ![2, 1, 4]
  gather_S2x1024x81_S768x1_S2x768x81_02_1_n_n_1_1_2181_wf : GatherDims.WF S2x1024x81 S768x1 S2x768x81 [0, 2] [1] [] [1] [] 1 ![2, 1, 81]
  gather_S2x1024x81_S256x1_S2x256x81_02_1_n_n_1_1_2181_wf : GatherDims.WF S2x1024x81 S256x1 S2x256x81 [0, 2] [1] [] [1] [] 1 ![2, 1, 81]
  gather_S2x128x8_S256x2_S2x256_0_12_n_n_12_1_211_wf : GatherDims.WF S2x128x8 S256x2 S2x256 [0] [1, 2] [] [1, 2] [] 1 ![2, 1, 1]
  gather_S2x8x384x384_S256x1_S2x256x384x384_023_1_n_n_1_1_21384384_wf : GatherDims.WF S2x8x384x384 S256x1 S2x256x384x384 [0, 2, 3] [1] [] [1] [] 1 ![2, 1, 384, 384]

variable [Facts₀]

def gather_S2x1024x4_S768x1_S2x768x4_02_1_n_n_1_1_214 : GatherDims S2x1024x4 S768x1 S2x768x4 where
  offsetDims := [0, 2]
  collapsedSliceDims := [1]
  operandBatchingDims := []
  startIndicesBatchingDims := []
  startIndexMap := [1]
  indexVectorDim := 1
  sliceSizes := ![2, 1, 4]
  wf := gather_S2x1024x4_S768x1_S2x768x4_02_1_n_n_1_1_214_wf
def gather_S2x1024x4_S256x1_S2x256x4_02_1_n_n_1_1_214 : GatherDims S2x1024x4 S256x1 S2x256x4 where
  offsetDims := [0, 2]
  collapsedSliceDims := [1]
  operandBatchingDims := []
  startIndicesBatchingDims := []
  startIndexMap := [1]
  indexVectorDim := 1
  sliceSizes := ![2, 1, 4]
  wf := gather_S2x1024x4_S256x1_S2x256x4_02_1_n_n_1_1_214_wf
def gather_S2x1024x81_S768x1_S2x768x81_02_1_n_n_1_1_2181 : GatherDims S2x1024x81 S768x1 S2x768x81 where
  offsetDims := [0, 2]
  collapsedSliceDims := [1]
  operandBatchingDims := []
  startIndicesBatchingDims := []
  startIndexMap := [1]
  indexVectorDim := 1
  sliceSizes := ![2, 1, 81]
  wf := gather_S2x1024x81_S768x1_S2x768x81_02_1_n_n_1_1_2181_wf
def gather_S2x1024x81_S256x1_S2x256x81_02_1_n_n_1_1_2181 : GatherDims S2x1024x81 S256x1 S2x256x81 where
  offsetDims := [0, 2]
  collapsedSliceDims := [1]
  operandBatchingDims := []
  startIndicesBatchingDims := []
  startIndexMap := [1]
  indexVectorDim := 1
  sliceSizes := ![2, 1, 81]
  wf := gather_S2x1024x81_S256x1_S2x256x81_02_1_n_n_1_1_2181_wf
def gather_S2x128x8_S256x2_S2x256_0_12_n_n_12_1_211 : GatherDims S2x128x8 S256x2 S2x256 where
  offsetDims := [0]
  collapsedSliceDims := [1, 2]
  operandBatchingDims := []
  startIndicesBatchingDims := []
  startIndexMap := [1, 2]
  indexVectorDim := 1
  sliceSizes := ![2, 1, 1]
  wf := gather_S2x128x8_S256x2_S2x256_0_12_n_n_12_1_211_wf
def gather_S2x8x384x384_S256x1_S2x256x384x384_023_1_n_n_1_1_21384384 : GatherDims S2x8x384x384 S256x1 S2x256x384x384 where
  offsetDims := [0, 2, 3]
  collapsedSliceDims := [1]
  operandBatchingDims := []
  startIndicesBatchingDims := []
  startIndexMap := [1]
  indexVectorDim := 1
  sliceSizes := ![2, 1, 384, 384]
  wf := gather_S2x8x384x384_S256x1_S2x256x384x384_023_1_n_n_1_1_21384384_wf

class Facts : Prop extends Facts₀ where

variable [Facts]
-- ==== Proof.RefOps.lean ====
/-
  The reference program's @main as a list of host operations.

  Each printed statement `hlo rfl X (fun _ => .ret ⟨⟩)` contributes the operation `X`; a call of an outlined
  function contributes the callee's operations in order, its formal arguments and its record's fields replaced by
  the typed references the call site passes. The list is cut into consecutive pieces `p0 … p3b` at the statements
  whose results later steps read, and the pieces are grouped into five windows: `wA` (up to the comparison
  `main_v73`), `wB` (up to `main_v101`), `wC` (up to `main_v146`), `wD` (up to `main_v163`) and `wT` (the rest, ending
  in `main_v173`).
  `ops` is their concatenation in program order.
-/
import proofs.«172312_j89326729822373_2_alg».proof.Proof.Gen.ReferenceIdeal
import Idealize.ShloMosaic.Lib.StableHlo.Run

set_option maxRecDepth 2864

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Statements 0 … 59 (the values `%0` … `%57` of @main and the scalar constants among them). -/
abbrev p0 : List (HloOp τ sig (Elt F)) :=
  ( StableHlo.unary main_arg0 main_v0 (broadcastInDim S2x128x1x4 ![0, 1, 3] bcast_S2x128x4_S2x128x1x4_0_1_3 : (⟨S2x128x4, .f32⟩ : BufTy).Contents (Elt F) → (⟨S2x128x1x4, .f32⟩ : BufTy).Contents (Elt F))
  :: StableHlo.unary main_arg2 main_v1 (broadcastInDim S2x1x8x4 ![0, 2, 3] bcast_S2x8x4_S2x1x8x4_0_2_3 : (⟨S2x8x4, .f32⟩ : BufTy).Contents (Elt F) → (⟨S2x1x8x4, .f32⟩ : BufTy).Contents (Elt F))
  :: StableHlo.unary main_v0 main_v2 ((extractStridedSlice S2x128x1x1 ![0, 0, 0, 2] · slices_S2x128x1x4_S2x128x1x1_0_0_0_2) : (⟨S2x128x1x4, .f32⟩ : BufTy).Contents (Elt F) → (⟨S2x128x1x1, .f32⟩ : BufTy).Contents (Elt F))
  :: StableHlo.reshape main_v2 main_v3 rfl shapeCasts_S2x128x1x1_S2x128x1
  :: StableHlo.unary main_v0 main_v4 ((extractStridedSlice S2x128x1x1 ![0, 0, 0, 0] · slices_S2x128x1x4_S2x128x1x1_0_0_0_0) : (⟨S2x128x1x4, .f32⟩ : BufTy).Contents (Elt F) → (⟨S2x128x1x1, .f32⟩ : BufTy).Contents (Elt F))
  :: StableHlo.reshape main_v4 main_v5 rfl shapeCasts_S2x128x1x1_S2x128x1
  :: StableHlo.binary main_v3 main_v5 main_v6 (subf : (⟨S2x128x1, .f32⟩ : BufTy).Contents (Elt F) → (⟨S2x128x1, .f32⟩ : BufTy).Contents (Elt F) → (⟨S2x128x1, .f32⟩ : BufTy).Contents (Elt F))
  :: StableHlo.nullary main_cst (constant S_ .f32 0x3F800000#32)
  :: StableHlo.unary main_cst main_v7 (broadcastInDim S2x128x1 ![] bcast_S_S2x128x1 : (⟨S_, .f32⟩ : BufTy).Contents (Elt F) → (⟨S2x128x1, .f32⟩ : BufTy).Contents (Elt F))
  :: StableHlo.binary main_v6 main_v7 main_v8 (addf : (⟨S2x128x1, .f32⟩ : BufTy).Contents (Elt F) → (⟨S2x128x1, .f32⟩ : BufTy).Contents (Elt F) → (⟨S2x128x1, .f32⟩ : BufTy).Contents (Elt F))
  :: StableHlo.unary main_v0 main_v9 ((extractStridedSlice S2x128x1x1 ![0, 0, 0, 3] · slices_S2x128x1x4_S2x128x1x1_0_0_0_3) : (⟨S2x128x1x4, .f32⟩ : BufTy).Contents (Elt F) → (⟨S2x128x1x1, .f32⟩ : BufTy).Contents (Elt F))
  :: StableHlo.reshape main_v9 main_v10 rfl shapeCasts_S2x128x1x1_S2x128x1
  :: StableHlo.unary main_v0 main_v11 ((extractStridedSlice S2x128x1x1 ![0, 0, 0, 1] · slices_S2x128x1x4_S2x128x1x1_0_0_0_1) : (⟨S2x128x1x4, .f32⟩ : BufTy).Contents (Elt F) → (⟨S2x128x1x1, .f32⟩ : BufTy).Contents (Elt F))
  :: StableHlo.reshape main_v11 main_v12 rfl shapeCasts_S2x128x1x1_S2x128x1
  :: StableHlo.binary main_v10 main_v12 main_v13 (subf : (⟨S2x128x1, .f32⟩ : BufTy).Contents (Elt F) → (⟨S2x128x1, .f32⟩ : BufTy).Contents (Elt F) → (⟨S2x128x1, .f32⟩ : BufTy).Contents (Elt F))
  :: StableHlo.binary main_v8 main_v13 main_v14 (mulf : (⟨S2x128x1, .f32⟩ : BufTy).Contents (Elt F) → (⟨S2x128x1, .f32⟩ : BufTy).Contents (Elt F) → (⟨S2x128x1, .f32⟩ : BufTy).Contents (Elt F))
  :: StableHlo.unary main_v1 main_v15 ((extractStridedSlice S2x1x8x1 ![0, 0, 0, 2] · slices_S2x1x8x4_S2x1x8x1_0_0_0_2) : (⟨S2x1x8x4, .f32⟩ : BufTy).Contents (Elt F) → (⟨S2x1x8x1, .f32⟩ : BufTy).Contents (Elt F))
  :: StableHlo.reshape main_v15 main_v16 rfl shapeCasts_S2x1x8x1_S2x1x8
  :: StableHlo.unary main_v1 main_v17 ((extractStridedSlice S2x1x8x1 ![0, 0, 0, 0] · slices_S2x1x8x4_S2x1x8x1_0_0_0_0) : (⟨S2x1x8x4, .f32⟩ : BufTy).Contents (Elt F) → (⟨S2x1x8x1, .f32⟩ : BufTy).Contents (Elt F))
  :: StableHlo.reshape main_v17 main_v18 rfl shapeCasts_S2x1x8x1_S2x1x8
  :: StableHlo.binary main_v16 main_v18 main_v19 (subf : (⟨S2x1x8, .f32⟩ : BufTy).Contents (Elt F) → (⟨S2x1x8, .f32⟩ : BufTy).Contents (Elt F) → (⟨S2x1x8, .f32⟩ : BufTy).Contents (Elt F))
  :: StableHlo.nullary main_cst_0 (constant S_ .f32 0x3F800000#32)
  :: StableHlo.unary main_cst_0 main_v20 (broadcastInDim S2x1x8 ![] bcast_S_S2x1x8 : (⟨S_, .f32⟩ : BufTy).Contents (Elt F) → (⟨S2x1x8, .f32⟩ : BufTy).Contents (Elt F))
  :: StableHlo.binary main_v19 main_v20 main_v21 (addf : (⟨S2x1x8, .f32⟩ : BufTy).Contents (Elt F) → (⟨S2x1x8, .f32⟩ : BufTy).Contents (Elt F) → (⟨S2x1x8, .f32⟩ : BufTy).Contents (Elt F))
  :: StableHlo.unary main_v1 main_v22 ((extractStridedSlice S2x1x8x1 ![0, 0, 0, 3] · slices_S2x1x8x4_S2x1x8x1_0_0_0_3) : (⟨S2x1x8x4, .f32⟩ : BufTy).Contents (Elt F) → (⟨S2x1x8x1, .f32⟩ : BufTy).Contents (Elt F))
  :: StableHlo.reshape main_v22 main_v23 rfl shapeCasts_S2x1x8x1_S2x1x8
  :: StableHlo.unary main_v1 main_v24 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F))
  :: StableHlo.reshape main_v24 main_v25 rfl shapeCasts_S2x1x8x1_S2x1x8
  :: StableHlo.binary main_v23 main_v25 main_v26 (subf : (⟨S2x1x8, .f32⟩ : BufTy).Contents (Elt F) → (⟨S2x1x8, .f32⟩ : BufTy).Contents (Elt F) → (⟨S2x1x8, .f32⟩ : BufTy).Contents (Elt F))
  :: StableHlo.binary main_v21 main_v26 main_v27 (mulf : (⟨S2x1x8, .f32⟩ : BufTy).Contents (Elt F) → (⟨S2x1x8, .f32⟩ : BufTy).Contents (Elt F) → (⟨S2x1x8, .f32⟩ : BufTy).Contents (Elt F))
  :: StableHlo.unary main_v0 main_v28 ((extractStridedSlice S2x128x1x1 ![0, 0, 0, 0] · slices_S2x128x1x4_S2x128x1x1_0_0_0_0) : (⟨S2x128x1x4, .f32⟩ : BufTy).Contents (Elt F) → (⟨S2x128x1x1, .f32⟩ : BufTy).Contents (Elt F))
  :: StableHlo.reshape main_v28 main_v29 rfl shapeCasts_S2x128x1x1_S2x128x1
  :: StableHlo.unary main_v1 main_v30 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F))
  :: StableHlo.reshape main_v30 main_v31 rfl shapeCasts_S2x1x8x1_S2x1x8
  :: StableHlo.unary main_v29 main_v32 (broadcastInDim S2x128x8 ![0, 1, 2] bcast_S2x128x1_S2x128x8_0_1_2 : (⟨S2x128x1, .f32⟩ : BufTy).Contents (Elt F) → (⟨S2x128x8, .f32⟩ : BufTy).Contents (Elt F))
  :: StableHlo.unary main_v31 main_v33 (broadcastInDim S2x128x8 ![0, 1, 2] bcast_S2x1x8_S2x128x8_0_1_2 : (⟨S2x1x8, .f32⟩ : BufTy).Contents (Elt F) → (⟨S2x128x8, .f32⟩ : BufTy).Contents (Elt F))
  :: StableHlo.binary main_v32 main_v33 main_v34 (maximumf : (⟨S2x128x8, .f32⟩ : BufTy).Contents (Elt F) → (⟨S2x128x8, .f32⟩ : BufTy).Contents (Elt F) → (⟨S2x128x8, .f32⟩ : BufTy).Contents (Elt F))
  :: StableHlo.unary main_v0 main_v35 ((extractStridedSlice S2x128x1x1 ![0, 0, 0, 1] · slices_S2x128x1x4_S2x128x1x1_0_0_0_1) : (⟨S2x128x1x4, .f32⟩ : BufTy).Contents (Elt F) → (⟨S2x128x1x1, .f32⟩ : BufTy).Contents (Elt F))
  :: StableHlo.reshape main_v35 main_v36 rfl shapeCasts_S2x128x1x1_S2x128x1
  :: StableHlo.unary main_v1 main_v37 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F))
  :: StableHlo.reshape main_v37 main_v38 rfl shapeCasts_S2x1x8x1_S2x1x8
  :: StableHlo.unary main_v36 main_v39 (broadcastInDim S2x128x8 ![0, 1, 2] bcast_S2x128x1_S2x128x8_0_1_2 : (⟨S2x128x1, .f32⟩ : BufTy).Contents (Elt F) → (⟨S2x128x8, .f32⟩ : BufTy).Contents (Elt F))
  :: StableHlo.unary main_v38 main_v40 (broadcastInDim S2x128x8 ![0, 1, 2] bcast_S2x1x8_S2x128x8_0_1_2 : (⟨S2x1x8, .f32⟩ : BufTy).Contents (Elt F) → (⟨S2x128x8, .f32⟩ : BufTy).Contents (Elt F))
  :: StableHlo.binary main_v39 main_v40 main_v41 (maximumf : (⟨S2x128x8, .f32⟩ : BufTy).Contents (Elt F) → (⟨S2x128x8, .f32⟩ : BufTy).Contents (Elt F) → (⟨S2x128x8, .f32⟩ : BufTy).Contents (Elt F))
  :: StableHlo.unary main_v0 main_v42 ((extractStridedSlice S2x128x1x1 ![0, 0, 0, 2] · slices_S2x128x1x4_S2x128x1x1_0_0_0_2) : (⟨S2x128x1x4, .f32⟩ : BufTy).Contents (Elt F) → (⟨S2x128x1x1, .f32⟩ : BufTy).Contents (Elt F))
  :: StableHlo.reshape main_v42 main_v43 rfl shapeCasts_S2x128x1x1_S2x128x1
  :: StableHlo.unary main_v1 main_v44 ((extractStridedSlice S2x1x8x1 ![0, 0, 0, 2] · slices_S2x1x8x4_S2x1x8x1_0_0_0_2) : (⟨S2x1x8x4, .f32⟩ : BufTy).Contents (Elt F) → (⟨S2x1x8x1, .f32⟩ : BufTy).Contents (Elt F))
  :: StableHlo.reshape main_v44 main_v45 rfl shapeCasts_S2x1x8x1_S2x1x8
  :: StableHlo.unary main_v43 main_v46 (broadcastInDim S2x128x8 ![0, 1, 2] bcast_S2x128x1_S2x128x8_0_1_2 : (⟨S2x128x1, .f32⟩ : BufTy).Contents (Elt F) → (⟨S2x128x8, .f32⟩ : BufTy).Contents (Elt F))
  :: StableHlo.unary main_v45 main_v47 (broadcastInDim S2x128x8 ![0, 1, 2] bcast_S2x1x8_S2x128x8_0_1_2 : (⟨S2x1x8, .f32⟩ : BufTy).Contents (Elt F) → (⟨S2x128x8, .f32⟩ : BufTy).Contents (Elt F))
  :: StableHlo.binary main_v46 main_v47 main_v48 (minimumf : (⟨S2x128x8, .f32⟩ : BufTy).Contents (Elt F) → (⟨S2x128x8, .f32⟩ : BufTy).Contents (Elt F) → (⟨S2x128x8, .f32⟩ : BufTy).Contents (Elt F))
  :: StableHlo.unary main_v0 main_v49 ((extractStridedSlice S2x128x1x1 ![0, 0, 0, 3] · slices_S2x128x1x4_S2x128x1x1_0_0_0_3) : (⟨S2x128x1x4, .f32⟩ : BufTy).Contents (Elt F) → (⟨S2x128x1x1, .f32⟩ : BufTy).Contents (Elt F))
  :: StableHlo.reshape main_v49 main_v50 rfl shapeCasts_S2x128x1x1_S2x128x1
  :: StableHlo.unary main_v1 main_v51 ((extractStridedSlice S2x1x8x1 ![0, 0, 0, 3] · slices_S2x1x8x4_S2x1x8x1_0_0_0_3) : (⟨S2x1x8x4, .f32⟩ : BufTy).Contents (Elt F) → (⟨S2x1x8x1, .f32⟩ : BufTy).Contents (Elt F))
  :: StableHlo.reshape main_v51 main_v52 rfl shapeCasts_S2x1x8x1_S2x1x8
  :: StableHlo.unary main_v50 main_v53 (broadcastInDim S2x128x8 ![0, 1, 2] bcast_S2x128x1_S2x128x8_0_1_2 : (⟨S2x128x1, .f32⟩ : BufTy).Contents (Elt F) → (⟨S2x128x8, .f32⟩ : BufTy).Contents (Elt F))
  :: StableHlo.unary main_v52 main_v54 (broadcastInDim S2x128x8 ![0, 1, 2] bcast_S2x1x8_S2x128x8_0_1_2 : (⟨S2x1x8, .f32⟩ : BufTy).Contents (Elt F) → (⟨S2x128x8, .f32⟩ : BufTy).Contents (Elt F))
  :: StableHlo.binary main_v53 main_v54 main_v55 (minimumf : (⟨S2x128x8, .f32⟩ : BufTy).Contents (Elt F) → (⟨S2x128x8, .f32⟩ : BufTy).Contents (Elt F) → (⟨S2x128x8, .f32⟩ : BufTy).Contents (Elt F))
  :: StableHlo.binary main_v48 main_v34 main_v56 (subf : (⟨S2x128x8, .f32⟩ : BufTy).Contents (Elt F) → (⟨S2x128x8, .f32⟩ : BufTy).Contents (Elt F) → (⟨S2x128x8, .f32⟩ : BufTy).Contents (Elt F))
  :: StableHlo.nullary main_cst_1 (constant S_ .f32 0x3F800000#32)
  :: [] )

set_option maxHeartbeats 40000000 in
/-- Statements 60 … 80, ending with the comparison `main_v73 = (main_v71 ≥ main_v72)`, where `main_v71 = main_v66 / main_v70` and `main_v72` is the constant one half broadcast. -/
abbrev p1a : List (HloOp τ sig (Elt F)) :=
  ( StableHlo.unary main_cst_1 main_v57 (broadcastInDim S2x128x8 ![] bcast_S_S2x128x8 : (⟨S_, .f32⟩ : BufTy).Contents (Elt F) → (⟨S2x128x8, .f32⟩ : BufTy).Contents (Elt F))
  :: StableHlo.binary main_v56 main_v57 main_v58 (addf : (⟨S2x128x8, .f32⟩ : BufTy).Contents (Elt F) → (⟨S2x128x8, .f32⟩ : BufTy).Contents (Elt F) → (⟨S2x128x8, .f32⟩ : BufTy).Contents (Elt F))
  :: StableHlo.nullary main_cst_2 (constant S_ .f32 0x00000000#32)
  :: StableHlo.unary main_cst_2 main_v59 (broadcastInDim S2x128x8 ![] bcast_S_S2x128x8 : (⟨S_, .f32⟩ : BufTy).Contents (Elt F) → (⟨S2x128x8, .f32⟩ : BufTy).Contents (Elt F))
  :: StableHlo.binary main_v59 main_v58 main_v60 (maximumf : (⟨S2x128x8, .f32⟩ : BufTy).Contents (Elt F) → (⟨S2x128x8, .f32⟩ : BufTy).Contents (Elt F) → (⟨S2x128x8, .f32⟩ : BufTy).Contents (Elt F))
  :: StableHlo.binary main_v55 main_v41 main_v61 (subf : (⟨S2x128x8, .f32⟩ : BufTy).Contents (Elt F) → (⟨S2x128x8, .f32⟩ : BufTy).Contents (Elt F) → (⟨S2x128x8, .f32⟩ : BufTy).Contents (Elt F))
  :: StableHlo.nullary main_cst_3 (constant S_ .f32 0x3F800000#32)
  :: StableHlo.unary main_cst_3 main_v62 (broadcastInDim S2x128x8 ![] bcast_S_S2x128x8 : (⟨S_, .f32⟩ : BufTy).Contents (Elt F) → (⟨S2x128x8, .f32⟩ : BufTy).Contents (Elt F))
  :: StableHlo.binary main_v61 main_v62 main_v63 (addf : (⟨S2x128x8, .f32⟩ : BufTy).Contents (Elt F) → (⟨S2x128x8, .f32⟩ : BufTy).Contents (Elt F) → (⟨S2x128x8, .f32⟩ : BufTy).Contents (Elt F))
  :: StableHlo.nullary main_cst_4 (constant S_ .f32 0x00000000#32)
  :: StableHlo.unary main_cst_4 main_v64 (broadcastInDim S2x128x8 ![] bcast_S_S2x128x8 : (⟨S_, .f32⟩ : BufTy).Contents (Elt F) → (⟨S2x128x8, .f32⟩ : BufTy).Contents (Elt F))
  :: StableHlo.binary main_v64 main_v63 main_v65 (maximumf : (⟨S2x128x8, .f32⟩ : BufTy).Contents (Elt F) → (⟨S2x128x8, .f32⟩ : BufTy).Contents (Elt F) → (⟨S2x128x8, .f32⟩ : BufTy).Contents (Elt F))
  :: StableHlo.binary main_v60 main_v65 main_v66 (mulf : (⟨S2x128x8, .f32⟩ : BufTy).Contents (Elt F) → (⟨S2x128x8, .f32⟩ : BufTy).Contents (Elt F) → (⟨S2x128x8, .f32⟩ : BufTy).Contents (Elt F))
  :: StableHlo.unary main_v14 main_v67 (broadcastInDim S2x128x8 ![0, 1, 2] bcast_S2x128x1_S2x128x8_0_1_2 : (⟨S2x128x1, .f32⟩ : BufTy).Contents (Elt F) → (⟨S2x128x8, .f32⟩ : BufTy).Contents (Elt F))
  :: StableHlo.unary main_v27 main_v68 (broadcastInDim S2x128x8 ![0, 1, 2] bcast_S2x1x8_S2x128x8_0_1_2 : (⟨S2x1x8, .f32⟩ : BufTy).Contents (Elt F) → (⟨S2x128x8, .f32⟩ : BufTy).Contents (Elt F))
  :: StableHlo.binary main_v67 main_v68 main_v69 (addf : (⟨S2x128x8, .f32⟩ : BufTy).Contents (Elt F) → (⟨S2x128x8, .f32⟩ : BufTy).Contents (Elt F) → (⟨S2x128x8, .f32⟩ : BufTy).Contents (Elt F))
  :: StableHlo.binary main_v69 main_v66 main_v70 (addf : (⟨S2x128x8, .f32⟩ : BufTy).Contents (Elt F) → (⟨S2x128x8, .f32⟩ : BufTy).Contents (Elt F) → (⟨S2x128x8, .f32⟩ : BufTy).Contents (Elt F))
  :: StableHlo.binary main_v66 main_v70 main_v71 (Host.divf : (⟨S2x128x8, .f32⟩ : BufTy).Contents (Elt F) → (⟨S2x128x8, .f32⟩ : BufTy).Contents (Elt F) → (⟨S2x128x8, .f32⟩ : BufTy).Contents (Elt F))
  :: StableHlo.nullary main_cst_5 (constant S_ .f32 0x3F000000#32)
  :: StableHlo.unary main_cst_5 main_v72 (broadcastInDim S2x128x8 ![] bcast_S_S2x128x8 : (⟨S_, .f32⟩ : BufTy).Contents (Elt F) → (⟨S2x128x8, .f32⟩ : BufTy).Contents (Elt F))
  :: StableHlo.binary main_v71 main_v72 main_v73 (cmpf .oge : (⟨S2x128x8, .f32⟩ : BufTy).Contents (Elt F) → (⟨S2x128x8, .f32⟩ : BufTy).Contents (Elt F) → (⟨S2x128x8, .i1⟩ : BufTy).Contents (Elt F))
  :: [] )

set_option maxHeartbeats 40000000 in
/-- Statements 81 … 109: `main_v75` is the comparison `main_v73` as a float, `main_v77 = 1 - main_v75`; each of the three float arguments, broadcast over the (128, 8) axes, is multiplied by the broadcast of `main_v77` and of `main_v75` and reshaped to 1024 rows (`main_v86`, `main_v89`; `main_v92`, `main_v95`; `main_v98`, `main_v101`). -/
abbrev p1b : List (HloOp τ sig (Elt F)) :=
  ( StableHlo.unary main_v73 main_v74 (broadcastInDim S2x128x8x1 ![0, 1, 2] bcast_S2x128x8_S2x128x8x1_0_1_2 : (⟨S2x128x8, .i1⟩ : BufTy).Contents (Elt F) → (⟨S2x128x8x1, .i1⟩ : BufTy).Contents (Elt F))
  :: StableHlo.unary main_v74 main_v75 (uitofp .f32 : (⟨S2x128x8x1, .i1⟩ : BufTy).Contents (Elt F) → (⟨S2x128x8x1, .f32⟩ : BufTy).Contents (Elt F))
  :: StableHlo.nullary main_cst_6 (constant S_ .f32 0x3F800000#32)
  :: StableHlo.unary main_cst_6 main_v76 (broadcastInDim S2x128x8x1 ![] bcast_S_S2x128x8x1 : (⟨S_, .f32⟩ : BufTy).Contents (Elt F) → (⟨S2x128x8x1, .f32⟩ : BufTy).Contents (Elt F))
  :: StableHlo.binary main_v76 main_v75 main_v77 (subf : (⟨S2x128x8x1, .f32⟩ : BufTy).Contents (Elt F) → (⟨S2x128x8x1, .f32⟩ : BufTy).Contents (Elt F) → (⟨S2x128x8x1, .f32⟩ : BufTy).Contents (Elt F))
  :: StableHlo.unary main_arg0 main_v78 (broadcastInDim S2x128x1x4 ![0, 1, 3] bcast_S2x128x4_S2x128x1x4_0_1_3 : (⟨S2x128x4, .f32⟩ : BufTy).Contents (Elt F) → (⟨S2x128x1x4, .f32⟩ : BufTy).Contents (Elt F))
  :: StableHlo.unary main_v78 main_v79 (broadcastInDim S2x128x8x4 ![0, 1, 2, 3] bcast_S2x128x1x4_S2x128x8x4_0_1_2_3 : (⟨S2x128x1x4, .f32⟩ : BufTy).Contents (Elt F) → (⟨S2x128x8x4, .f32⟩ : BufTy).Contents (Elt F))
  :: StableHlo.unary main_arg1 main_v80 (broadcastInDim S2x1x8x81 ![0, 2, 3] bcast_S2x8x81_S2x1x8x81_0_2_3 : (⟨S2x8x81, .f32⟩ : BufTy).Contents (Elt F) → (⟨S2x1x8x81, .f32⟩ : BufTy).Contents (Elt F))
  :: StableHlo.unary main_v80 main_v81 (broadcastInDim S2x128x8x81 ![0, 1, 2, 3] bcast_S2x1x8x81_S2x128x8x81_0_1_2_3 : (⟨S2x1x8x81, .f32⟩ : BufTy).Contents (Elt F) → (⟨S2x128x8x81, .f32⟩ : BufTy).Contents (Elt F))
  :: StableHlo.unary main_arg2 main_v82 (broadcastInDim S2x1x8x4 ![0, 2, 3] bcast_S2x8x4_S2x1x8x4_0_2_3 : (⟨S2x8x4, .f32⟩ : BufTy).Contents (Elt F) → (⟨S2x1x8x4, .f32⟩ : BufTy).Contents (Elt F))
  :: StableHlo.unary main_v82 main_v83 (broadcastInDim S2x128x8x4 ![0, 1, 2, 3] bcast_S2x1x8x4_S2x128x8x4_0_1_2_3 : (⟨S2x1x8x4, .f32⟩ : BufTy).Contents (Elt F) → (⟨S2x128x8x4, .f32⟩ : BufTy).Contents (Elt F))
  :: StableHlo.unary main_v77 main_v84 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F))
  :: StableHlo.binary main_v79 main_v84 main_v85 (mulf : (⟨S2x128x8x4, .f32⟩ : BufTy).Contents (Elt F) → (⟨S2x128x8x4, .f32⟩ : BufTy).Contents (Elt F) → (⟨S2x128x8x4, .f32⟩ : BufTy).Contents (Elt F))
  :: StableHlo.reshape main_v85 main_v86 rfl shapeCasts_S2x128x8x4_S2x1024x4
  :: StableHlo.unary main_v75 main_v87 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F))
  :: StableHlo.binary main_v79 main_v87 main_v88 (mulf : (⟨S2x128x8x4, .f32⟩ : BufTy).Contents (Elt F) → (⟨S2x128x8x4, .f32⟩ : BufTy).Contents (Elt F) → (⟨S2x128x8x4, .f32⟩ : BufTy).Contents (Elt F))
  :: StableHlo.reshape main_v88 main_v89 rfl shapeCasts_S2x128x8x4_S2x1024x4
  :: StableHlo.unary main_v77 main_v90 (broadcastInDim S2x128x8x81 ![0, 1, 2, 3] bcast_S2x128x8x1_S2x128x8x81_0_1_2_3 : (⟨S2x128x8x1, .f32⟩ : BufTy).Contents (Elt F) → (⟨S2x128x8x81, .f32⟩ : BufTy).Contents (Elt F))
  :: StableHlo.binary main_v81 main_v90 main_v91 (mulf : (⟨S2x128x8x81, .f32⟩ : BufTy).Contents (Elt F) → (⟨S2x128x8x81, .f32⟩ : BufTy).Contents (Elt F) → (⟨S2x128x8x81, .f32⟩ : BufTy).Contents (Elt F))
  :: StableHlo.reshape main_v91 main_v92 rfl shapeCasts_S2x128x8x81_S2x1024x81
  :: StableHlo.unary main_v75 main_v93 (broadcastInDim S2x128x8x81 ![0, 1, 2, 3] bcast_S2x128x8x1_S2x128x8x81_0_1_2_3 : (⟨S2x128x8x1, .f32⟩ : BufTy).Contents (Elt F) → (⟨S2x128x8x81, .f32⟩ : BufTy).Contents (Elt F))
  :: StableHlo.binary main_v81 main_v93 main_v94 (mulf : (⟨S2x128x8x81, .f32⟩ : BufTy).Contents (Elt F) → (⟨S2x128x8x81, .f32⟩ : BufTy).Contents (Elt F) → (⟨S2x128x8x81, .f32⟩ : BufTy).Contents (Elt F))
  :: StableHlo.reshape main_v94 main_v95 rfl shapeCasts_S2x128x8x81_S2x1024x81
  :: StableHlo.unary main_v77 main_v96 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F))
  :: StableHlo.binary main_v83 main_v96 main_v97 (mulf : (⟨S2x128x8x4, .f32⟩ : BufTy).Contents (Elt F) → (⟨S2x128x8x4, .f32⟩ : BufTy).Contents (Elt F) → (⟨S2x128x8x4, .f32⟩ : BufTy).Contents (Elt F))
  :: StableHlo.reshape main_v97 main_v98 rfl shapeCasts_S2x128x8x4_S2x1024x4
  :: StableHlo.unary main_v75 main_v99 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F))
  :: StableHlo.binary main_v83 main_v99 main_v100 (mulf : (⟨S2x128x8x4, .f32⟩ : BufTy).Contents (Elt F) → (⟨S2x128x8x4, .f32⟩ : BufTy).Contents (Elt F) → (⟨S2x128x8x4, .f32⟩ : BufTy).Contents (Elt F))
  :: StableHlo.reshape main_v100 main_v101 rfl shapeCasts_S2x128x8x4_S2x1024x4
  :: [] )

set_option maxHeartbeats 40000000 in
/-- Statements 110 … 119: `main_arg4` with 1024 added where it is negative, the gather of `main_v86` at it (`main_v108`), and the zero constant the next such step starts from. -/
abbrev p1c : List (HloOp τ sig (Elt F)) :=
  ( StableHlo.nullary main_c (constantI S_ 32 0#32)
  :: StableHlo.unary main_c main_v102 (broadcastInDim S768 ![] bcast_S_S768 : (⟨S_, .i32⟩ : BufTy).Contents (Elt F) → (⟨S768, .i32⟩ : BufTy).Contents (Elt F))
  :: StableHlo.binary main_arg4 main_v102 main_v103 (cmpi .slt : (⟨S768, .i32⟩ : BufTy).Contents (Elt F) → (⟨S768, .i32⟩ : BufTy).Contents (Elt F) → (⟨S768, .i1⟩ : BufTy).Contents (Elt F))
  :: StableHlo.nullary main_c_7 (constantI S_ 32 1024#32)
  :: StableHlo.unary main_c_7 main_v104 (broadcastInDim S768 ![] bcast_S_S768 : (⟨S_, .i32⟩ : BufTy).Contents (Elt F) → (⟨S768, .i32⟩ : BufTy).Contents (Elt F))
  :: StableHlo.binary main_arg4 main_v104 main_v105 (addi : (⟨S768, .i32⟩ : BufTy).Contents (Elt F) → (⟨S768, .i32⟩ : BufTy).Contents (Elt F) → (⟨S768, .i32⟩ : BufTy).Contents (Elt F))
  :: StableHlo.ternary main_v103 main_v105 main_arg4 main_v106 (select : (⟨S768, .i1⟩ : BufTy).Contents (Elt F) → (⟨S768, .i32⟩ : BufTy).Contents (Elt F) → (⟨S768, .i32⟩ : BufTy).Contents (Elt F) → (⟨S768, .i32⟩ : BufTy).Contents (Elt F))
  :: StableHlo.unary main_v106 main_v107 (broadcastInDim S768x1 ![0] bcast_S768_S768x1_0 : (⟨S768, .i32⟩ : BufTy).Contents (Elt F) → (⟨S768x1, .i32⟩ : BufTy).Contents (Elt F))
  :: StableHlo.binary main_v86 main_v107 main_v108 ((fun x i => Host.gather gather_S2x1024x4_S768x1_S2x768x4_02_1_n_n_1_1_214 x i) : (⟨S2x1024x4, .f32⟩ : BufTy).Contents (Elt F) → (⟨S768x1, .i32⟩ : BufTy).Contents (Elt F) → (⟨S2x768x4, .f32⟩ : BufTy).Contents (Elt F))
  :: StableHlo.nullary main_c_8 (constantI S_ 32 0#32)
  :: [] )

set_option maxHeartbeats 40000000 in
/-- Statements 120 … 166: the other five steps of that kind (over `main_arg4` and `main_arg5`, gathering `main_v89`, `main_v92`, `main_v95`, `main_v98`, `main_v101`) and the three concatenations `main_v116`, `main_v131`, `main_v146`. -/
abbrev p2a : List (HloOp τ sig (Elt F)) :=
  ( StableHlo.unary main_c_8 main_v109 (broadcastInDim S256 ![] bcast_S_S256 : (⟨S_, .i32⟩ : BufTy).Contents (Elt F) → (⟨S256, .i32⟩ : BufTy).Contents (Elt F))
  :: StableHlo.binary main_arg5 main_v109 main_v110 (cmpi .slt : (⟨S256, .i32⟩ : BufTy).Contents (Elt F) → (⟨S256, .i32⟩ : BufTy).Contents (Elt F) → (⟨S256, .i1⟩ : BufTy).Contents (Elt F))
  :: StableHlo.nullary main_c_9 (constantI S_ 32 1024#32)
  :: StableHlo.unary main_c_9 main_v111 (broadcastInDim S256 ![] bcast_S_S256 : (⟨S_, .i32⟩ : BufTy).Contents (Elt F) → (⟨S256, .i32⟩ : BufTy).Contents (Elt F))
  :: StableHlo.binary main_arg5 main_v111 main_v112 (addi : (⟨S256, .i32⟩ : BufTy).Contents (Elt F) → (⟨S256, .i32⟩ : BufTy).Contents (Elt F) → (⟨S256, .i32⟩ : BufTy).Contents (Elt F))
  :: StableHlo.ternary main_v110 main_v112 main_arg5 main_v113 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v113 main_v114 (broadcastInDim S256x1 ![0] bcast_S256_S256x1_0 : (⟨S256, .i32⟩ : BufTy).Contents (Elt F) → (⟨S256x1, .i32⟩ : BufTy).Contents (Elt F))
  :: StableHlo.binary main_v89 main_v114 main_v115 ((fun x i => Host.gather gather_S2x1024x4_S256x1_S2x256x4_02_1_n_n_1_1_214 x i) : (⟨S2x1024x4, .f32⟩ : BufTy).Contents (Elt F) → (⟨S256x1, .i32⟩ : BufTy).Contents (Elt F) → (⟨S2x256x4, .f32⟩ : BufTy).Contents (Elt F))
  :: StableHlo.binary main_v108 main_v115 main_v116 ((fun a b => concatenate S2x1024x4 1 [⟨S2x768x4, a⟩, ⟨S2x256x4, b⟩] concatenates_S2x768x4_S2x256x4_S2x1024x4_d1) : (⟨S2x768x4, .f32⟩ : BufTy).Contents (Elt F) → (⟨S2x256x4, .f32⟩ : BufTy).Contents (Elt F) → (⟨S2x1024x4, .f32⟩ : BufTy).Contents (Elt F))
  :: StableHlo.nullary main_c_10 (constantI S_ 32 0#32)
  :: StableHlo.unary main_c_10 main_v117 (broadcastInDim S768 ![] bcast_S_S768 : (⟨S_, .i32⟩ : BufTy).Contents (Elt F) → (⟨S768, .i32⟩ : BufTy).Contents (Elt F))
  :: StableHlo.binary main_arg4 main_v117 main_v118 (cmpi .slt : (⟨S768, .i32⟩ : BufTy).Contents (Elt F) → (⟨S768, .i32⟩ : BufTy).Contents (Elt F) → (⟨S768, .i1⟩ : BufTy).Contents (Elt F))
  :: StableHlo.nullary main_c_11 (constantI S_ 32 1024#32)
  :: StableHlo.unary main_c_11 main_v119 (broadcastInDim S768 ![] bcast_S_S768 : (⟨S_, .i32⟩ : BufTy).Contents (Elt F) → (⟨S768, .i32⟩ : BufTy).Contents (Elt F))
  :: StableHlo.binary main_arg4 main_v119 main_v120 (addi : (⟨S768, .i32⟩ : BufTy).Contents (Elt F) → (⟨S768, .i32⟩ : BufTy).Contents (Elt F) → (⟨S768, .i32⟩ : BufTy).Contents (Elt F))
  :: StableHlo.ternary main_v118 main_v120 main_arg4 main_v121 (select : (⟨S768, .i1⟩ : BufTy).Contents (Elt F) → (⟨S768, .i32⟩ : BufTy).Contents (Elt F) → (⟨S768, .i32⟩ : BufTy).Contents (Elt F) → (⟨S768, .i32⟩ : BufTy).Contents (Elt F))
  :: StableHlo.unary main_v121 main_v122 (broadcastInDim S768x1 ![0] bcast_S768_S768x1_0 : (⟨S768, .i32⟩ : BufTy).Contents (Elt F) → (⟨S768x1, .i32⟩ : BufTy).Contents (Elt F))
  :: StableHlo.binary main_v92 main_v122 main_v123 ((fun x i => Host.gather gather_S2x1024x81_S768x1_S2x768x81_02_1_n_n_1_1_2181 x i) : (⟨S2x1024x81, .f32⟩ : BufTy).Contents (Elt F) → (⟨S768x1, .i32⟩ : BufTy).Contents (Elt F) → (⟨S2x768x81, .f32⟩ : BufTy).Contents (Elt F))
  :: StableHlo.nullary main_c_12 (constantI S_ 32 0#32)
  :: StableHlo.unary main_c_12 main_v124 (broadcastInDim S256 ![] bcast_S_S256 : (⟨S_, .i32⟩ : BufTy).Contents (Elt F) → (⟨S256, .i32⟩ : BufTy).Contents (Elt F))
  :: StableHlo.binary main_arg5 main_v124 main_v125 (cmpi .slt : (⟨S256, .i32⟩ : BufTy).Contents (Elt F) → (⟨S256, .i32⟩ : BufTy).Contents (Elt F) → (⟨S256, .i1⟩ : BufTy).Contents (Elt F))
  :: StableHlo.nullary main_c_13 (constantI S_ 32 1024#32)
  :: StableHlo.unary main_c_13 main_v126 (broadcastInDim S256 ![] bcast_S_S256 : (⟨S_, .i32⟩ : BufTy).Contents (Elt F) → (⟨S256, .i32⟩ : BufTy).Contents (Elt F))
  :: StableHlo.binary main_arg5 main_v126 main_v127 (addi : (⟨S256, .i32⟩ : BufTy).Contents (Elt F) → (⟨S256, .i32⟩ : BufTy).Contents (Elt F) → (⟨S256, .i32⟩ : BufTy).Contents (Elt F))
  :: StableHlo.ternary main_v125 main_v127 main_arg5 main_v128 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v128 main_v129 (broadcastInDim S256x1 ![0] bcast_S256_S256x1_0 : (⟨S256, .i32⟩ : BufTy).Contents (Elt F) → (⟨S256x1, .i32⟩ : BufTy).Contents (Elt F))
  :: StableHlo.binary main_v95 main_v129 main_v130 ((fun x i => Host.gather gather_S2x1024x81_S256x1_S2x256x81_02_1_n_n_1_1_2181 x i) : (⟨S2x1024x81, .f32⟩ : BufTy).Contents (Elt F) → (⟨S256x1, .i32⟩ : BufTy).Contents (Elt F) → (⟨S2x256x81, .f32⟩ : BufTy).Contents (Elt F))
  :: StableHlo.binary main_v123 main_v130 main_v131 ((fun a b => concatenate S2x1024x81 1 [⟨S2x768x81, a⟩, ⟨S2x256x81, b⟩] concatenates_S2x768x81_S2x256x81_S2x1024x81_d1) : (⟨S2x768x81, .f32⟩ : BufTy).Contents (Elt F) → (⟨S2x256x81, .f32⟩ : BufTy).Contents (Elt F) → (⟨S2x1024x81, .f32⟩ : BufTy).Contents (Elt F))
  :: StableHlo.nullary main_c_14 (constantI S_ 32 0#32)
  :: StableHlo.unary main_c_14 main_v132 (broadcastInDim S768 ![] bcast_S_S768 : (⟨S_, .i32⟩ : BufTy).Contents (Elt F) → (⟨S768, .i32⟩ : BufTy).Contents (Elt F))
  :: StableHlo.binary main_arg4 main_v132 main_v133 (cmpi .slt : (⟨S768, .i32⟩ : BufTy).Contents (Elt F) → (⟨S768, .i32⟩ : BufTy).Contents (Elt F) → (⟨S768, .i1⟩ : BufTy).Contents (Elt F))
  :: StableHlo.nullary main_c_15 (constantI S_ 32 1024#32)
  :: StableHlo.unary main_c_15 main_v134 (broadcastInDim S768 ![] bcast_S_S768 : (⟨S_, .i32⟩ : BufTy).Contents (Elt F) → (⟨S768, .i32⟩ : BufTy).Contents (Elt F))
  :: StableHlo.binary main_arg4 main_v134 main_v135 (addi : (⟨S768, .i32⟩ : BufTy).Contents (Elt F) → (⟨S768, .i32⟩ : BufTy).Contents (Elt F) → (⟨S768, .i32⟩ : BufTy).Contents (Elt F))
  :: StableHlo.ternary main_v133 main_v135 main_arg4 main_v136 (select : (⟨S768, .i1⟩ : BufTy).Contents (Elt F) → (⟨S768, .i32⟩ : BufTy).Contents (Elt F) → (⟨S768, .i32⟩ : BufTy).Contents (Elt F) → (⟨S768, .i32⟩ : BufTy).Contents (Elt F))
  :: StableHlo.unary main_v136 main_v137 (broadcastInDim S768x1 ![0] bcast_S768_S768x1_0 : (⟨S768, .i32⟩ : BufTy).Contents (Elt F) → (⟨S768x1, .i32⟩ : BufTy).Contents (Elt F))
  :: StableHlo.binary main_v98 main_v137 main_v138 ((fun x i => Host.gather gather_S2x1024x4_S768x1_S2x768x4_02_1_n_n_1_1_214 x i) : (⟨S2x1024x4, .f32⟩ : BufTy).Contents (Elt F) → (⟨S768x1, .i32⟩ : BufTy).Contents (Elt F) → (⟨S2x768x4, .f32⟩ : BufTy).Contents (Elt F))
  :: StableHlo.nullary main_c_16 (constantI S_ 32 0#32)
  :: StableHlo.unary main_c_16 main_v139 (broadcastInDim S256 ![] bcast_S_S256 : (⟨S_, .i32⟩ : BufTy).Contents (Elt F) → (⟨S256, .i32⟩ : BufTy).Contents (Elt F))
  :: StableHlo.binary main_arg5 main_v139 main_v140 (cmpi .slt : (⟨S256, .i32⟩ : BufTy).Contents (Elt F) → (⟨S256, .i32⟩ : BufTy).Contents (Elt F) → (⟨S256, .i1⟩ : BufTy).Contents (Elt F))
  :: StableHlo.nullary main_c_17 (constantI S_ 32 1024#32)
  :: StableHlo.unary main_c_17 main_v141 (broadcastInDim S256 ![] bcast_S_S256 : (⟨S_, .i32⟩ : BufTy).Contents (Elt F) → (⟨S256, .i32⟩ : BufTy).Contents (Elt F))
  :: StableHlo.binary main_arg5 main_v141 main_v142 (addi : (⟨S256, .i32⟩ : BufTy).Contents (Elt F) → (⟨S256, .i32⟩ : BufTy).Contents (Elt F) → (⟨S256, .i32⟩ : BufTy).Contents (Elt F))
  :: StableHlo.ternary main_v140 main_v142 main_arg5 main_v143 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v143 main_v144 (broadcastInDim S256x1 ![0] bcast_S256_S256x1_0 : (⟨S256, .i32⟩ : BufTy).Contents (Elt F) → (⟨S256x1, .i32⟩ : BufTy).Contents (Elt F))
  :: StableHlo.binary main_v101 main_v144 main_v145 ((fun x i => Host.gather gather_S2x1024x4_S256x1_S2x256x4_02_1_n_n_1_1_214 x i) : (⟨S2x1024x4, .f32⟩ : BufTy).Contents (Elt F) → (⟨S256x1, .i32⟩ : BufTy).Contents (Elt F) → (⟨S2x256x4, .f32⟩ : BufTy).Contents (Elt F))
  :: StableHlo.binary main_v138 main_v145 main_v146 ((fun a b => concatenate S2x1024x4 1 [⟨S2x768x4, a⟩, ⟨S2x256x4, b⟩] concatenates_S2x768x4_S2x256x4_S2x1024x4_d1) : (⟨S2x768x4, .f32⟩ : BufTy).Contents (Elt F) → (⟨S2x256x4, .f32⟩ : BufTy).Contents (Elt F) → (⟨S2x1024x4, .f32⟩ : BufTy).Contents (Elt F))
  :: [] )

set_option maxHeartbeats 40000000 in
/-- Statements 167 … 179 with both outlined calls written out in place: @floor_divide of `main_arg5` and the constant 8 (`main_v147`), @remainder of `main_arg5` and the constant 8 (`main_v148`), then `main_v147` with 128 added where it is negative (`main_v153`) and a zero constant broadcast (`main_v154`). -/
abbrev p2b : List (HloOp τ sig (Elt F)) :=
  ( StableHlo.nullary main_c_18 (constantI S_ 32 8#32)
  :: StableHlo.TRef.unary (.of main_c_18 : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S256, .i32⟩) (broadcastInDim S256 ![] bcast_S_S256)
  :: StableHlo.TRef.binary (.of main_arg5 : StableHlo.TRef sig ⟨S256, .i32⟩) (.of main_call0_v1 : StableHlo.TRef sig ⟨S256, .i32⟩) (.of main_call0_v2 : StableHlo.TRef sig ⟨S256, .i32⟩) Host.divsi
  :: StableHlo.TRef.unary (.of main_arg5 : StableHlo.TRef sig ⟨S256, .i32⟩) (.of main_call0_v3 : StableHlo.TRef sig ⟨S256, .i32⟩) signi
  :: StableHlo.TRef.unary (.of main_call0_v0 : StableHlo.TRef sig ⟨S_, .i32⟩) (.of main_call0_v4 : StableHlo.TRef sig ⟨S_, .i32⟩) signi
  :: StableHlo.TRef.unary (.of main_call0_v4 : StableHlo.TRef sig ⟨S_, .i32⟩) (.of main_call0_v5 : StableHlo.TRef sig ⟨S256, .i32⟩) (broadcastInDim S256 ![] bcast_S_S256)
  :: StableHlo.TRef.binary (.of main_call0_v3 : StableHlo.TRef sig ⟨S256, .i32⟩) (.of main_call0_v5 : StableHlo.TRef sig ⟨S256, .i32⟩) (.of main_call0_v6 : StableHlo.TRef sig ⟨S256, .i1⟩) (cmpi .ne)
  :: StableHlo.TRef.unary (.of main_call0_v0 : StableHlo.TRef sig ⟨S_, .i32⟩) (.of main_call0_v7 : StableHlo.TRef sig ⟨S256, .i32⟩) (broadcastInDim S256 ![] bcast_S_S256)
  :: StableHlo.TRef.binary (.of main_arg5 : StableHlo.TRef sig ⟨S256, .i32⟩) (.of main_call0_v7 : StableHlo.TRef sig ⟨S256, .i32⟩) (.of main_call0_v8 : StableHlo.TRef sig ⟨S256, .i32⟩) Host.remsi
  :: StableHlo.TRef.nullary (.of main_call0_c : StableHlo.TRef sig ⟨S_, .i32⟩) (constantI S_ 32 0#32)
  :: StableHlo.TRef.unary (.of main_call0_c : StableHlo.TRef sig ⟨S_, .i32⟩) (.of main_call0_v9 : StableHlo.TRef sig ⟨S256, .i32⟩) (broadcastInDim S256 ![] bcast_S_S256)
  :: StableHlo.TRef.binary (.of main_call0_v8 : StableHlo.TRef sig ⟨S256, .i32⟩) (.of main_call0_v9 : StableHlo.TRef sig ⟨S256, .i32⟩) (.of main_call0_v10 : StableHlo.TRef sig ⟨S256, .i1⟩) (cmpi .ne)
  :: StableHlo.TRef.binary (.of main_call0_v6 : StableHlo.TRef sig ⟨S256, .i1⟩) (.of main_call0_v10 : StableHlo.TRef sig ⟨S256, .i1⟩) (.of main_call0_v11 : StableHlo.TRef sig ⟨S256, .i1⟩) andi
  :: StableHlo.TRef.nullary (.of main_call0_c_0 : StableHlo.TRef sig ⟨S_, .i32⟩) (constantI S_ 32 1#32)
  :: StableHlo.TRef.unary (.of main_call0_c_0 : StableHlo.TRef sig ⟨S_, .i32⟩) (.of main_call0_v12 : StableHlo.TRef sig ⟨S256, .i32⟩) (broadcastInDim S256 ![] bcast_S_S256)
  :: StableHlo.TRef.binary (.of main_call0_v2 : StableHlo.TRef sig ⟨S256, .i32⟩) (.of main_call0_v12 : StableHlo.TRef sig ⟨S256, .i32⟩) (.of main_call0_v13 : StableHlo.TRef sig ⟨S256, .i32⟩) subi
  :: StableHlo.TRef.ternary (.of main_call0_v11 : StableHlo.TRef sig ⟨S256, .i1⟩) (.of main_call0_v13 : StableHlo.TRef sig ⟨S256, .i32⟩) (.of main_call0_v2 : StableHlo.TRef sig ⟨S256, .i32⟩) (.of main_v147 : StableHlo.TRef sig ⟨S256, .i32⟩) select
  :: StableHlo.nullary main_c_19 (constantI S_ 32 8#32)
  :: StableHlo.TRef.unary (.of main_c_19 : StableHlo.TRef sig ⟨S_, .i32⟩) (.of main_call1_v0 : StableHlo.TRef sig ⟨S_, .i32⟩) id
  :: StableHlo.TRef.nullary (.of main_call1_c : StableHlo.TRef sig ⟨S_, .i32⟩) (constantI S_ 32 0#32)
  :: StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq)
  :: StableHlo.TRef.nullary (.of main_call1_c_0 : StableHlo.TRef sig ⟨S_, .i32⟩) (constantI S_ 32 1#32)
  :: StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select
  :: StableHlo.TRef.unary main_call1_call0.v0 (.of main_call1_v3 : StableHlo.TRef sig ⟨S256, .i32⟩) (broadcastInDim S256 ![] bcast_S_S256)
  :: StableHlo.TRef.binary (.of main_arg5 : StableHlo.TRef sig ⟨S256, .i32⟩) (.of main_call1_v3 : StableHlo.TRef sig ⟨S256, .i32⟩) (.of main_call1_v4 : StableHlo.TRef sig ⟨S256, .i32⟩) Host.remsi
  :: StableHlo.TRef.nullary (.of main_call1_c_1 : StableHlo.TRef sig ⟨S_, .i32⟩) (constantI S_ 32 0#32)
  :: StableHlo.TRef.unary (.of main_call1_c_1 : StableHlo.TRef sig ⟨S_, .i32⟩) (.of main_call1_v5 : StableHlo.TRef sig ⟨S256, .i32⟩) (broadcastInDim S256 ![] bcast_S_S256)
  :: StableHlo.TRef.binary (.of main_call1_v4 : StableHlo.TRef sig ⟨S256, .i32⟩) (.of main_call1_v5 : StableHlo.TRef sig ⟨S256, .i32⟩) (.of main_call1_v6 : StableHlo.TRef sig ⟨S256, .i1⟩) (cmpi .ne)
  :: StableHlo.TRef.nullary (.of main_call1_c_2 : StableHlo.TRef sig ⟨S_, .i32⟩) (constantI S_ 32 0#32)
  :: StableHlo.TRef.unary (.of main_call1_c_2 : StableHlo.TRef sig ⟨S_, .i32⟩) (.of main_call1_v7 : StableHlo.TRef sig ⟨S256, .i32⟩) (broadcastInDim S256 ![] bcast_S_S256)
  :: StableHlo.TRef.binary (.of main_call1_v4 : StableHlo.TRef sig ⟨S256, .i32⟩) (.of main_call1_v7 : StableHlo.TRef sig ⟨S256, .i32⟩) (.of main_call1_v8 : StableHlo.TRef sig ⟨S256, .i1⟩) (cmpi .slt)
  :: StableHlo.TRef.nullary (.of main_call1_c_3 : StableHlo.TRef sig ⟨S_, .i32⟩) (constantI S_ 32 0#32)
  :: StableHlo.TRef.binary main_call1_call0.v0 (.of main_call1_c_3 : StableHlo.TRef sig ⟨S_, .i32⟩) (.of main_call1_v9 : StableHlo.TRef sig ⟨S_, .i1⟩) (cmpi .slt)
  :: StableHlo.TRef.unary (.of main_call1_v9 : StableHlo.TRef sig ⟨S_, .i1⟩) (.of main_call1_v10 : StableHlo.TRef sig ⟨S256, .i1⟩) (broadcastInDim S256 ![] bcast_S_S256)
  :: StableHlo.TRef.binary (.of main_call1_v8 : StableHlo.TRef sig ⟨S256, .i1⟩) (.of main_call1_v10 : StableHlo.TRef sig ⟨S256, .i1⟩) (.of main_call1_v11 : StableHlo.TRef sig ⟨S256, .i1⟩) (cmpi .ne)
  :: StableHlo.TRef.binary (.of main_call1_v11 : StableHlo.TRef sig ⟨S256, .i1⟩) (.of main_call1_v6 : StableHlo.TRef sig ⟨S256, .i1⟩) (.of main_call1_v12 : StableHlo.TRef sig ⟨S256, .i1⟩) andi
  :: StableHlo.TRef.unary main_call1_call0.v0 (.of main_call1_v13 : StableHlo.TRef sig ⟨S256, .i32⟩) (broadcastInDim S256 ![] bcast_S_S256)
  :: StableHlo.TRef.binary (.of main_call1_v4 : StableHlo.TRef sig ⟨S256, .i32⟩) (.of main_call1_v13 : StableHlo.TRef sig ⟨S256, .i32⟩) (.of main_call1_v14 : StableHlo.TRef sig ⟨S256, .i32⟩) addi
  :: StableHlo.TRef.ternary (.of main_call1_v12 : StableHlo.TRef sig ⟨S256, .i1⟩) (.of main_call1_v14 : StableHlo.TRef sig ⟨S256, .i32⟩) (.of main_call1_v4 : StableHlo.TRef sig ⟨S256, .i32⟩) (.of main_v148 : StableHlo.TRef sig ⟨S256, .i32⟩) select
  :: StableHlo.nullary main_c_20 (constantI S_ 32 0#32)
  :: StableHlo.unary main_c_20 main_v149 (broadcastInDim S256 ![] bcast_S_S256 : (⟨S_, .i32⟩ : BufTy).Contents (Elt F) → (⟨S256, .i32⟩ : BufTy).Contents (Elt F))
  :: StableHlo.binary main_v147 main_v149 main_v150 (cmpi .slt : (⟨S256, .i32⟩ : BufTy).Contents (Elt F) → (⟨S256, .i32⟩ : BufTy).Contents (Elt F) → (⟨S256, .i1⟩ : BufTy).Contents (Elt F))
  :: StableHlo.nullary main_c_21 (constantI S_ 32 128#32)
  :: StableHlo.unary main_c_21 main_v151 (broadcastInDim S256 ![] bcast_S_S256 : (⟨S_, .i32⟩ : BufTy).Contents (Elt F) → (⟨S256, .i32⟩ : BufTy).Contents (Elt F))
  :: StableHlo.binary main_v147 main_v151 main_v152 (addi : (⟨S256, .i32⟩ : BufTy).Contents (Elt F) → (⟨S256, .i32⟩ : BufTy).Contents (Elt F) → (⟨S256, .i32⟩ : BufTy).Contents (Elt F))
  :: StableHlo.ternary main_v150 main_v152 main_v147 main_v153 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.nullary main_c_22 (constantI S_ 32 0#32)
  :: StableHlo.unary main_c_22 main_v154 (broadcastInDim S256 ![] bcast_S_S256 : (⟨S_, .i32⟩ : BufTy).Contents (Elt F) → (⟨S256, .i32⟩ : BufTy).Contents (Elt F))
  :: [] )

set_option maxHeartbeats 40000000 in
/-- Statements 180 … 189: `main_v148` with 8 added where it is negative (`main_v158`), the gather of the comparison `main_v73` at the index pairs (`main_v153`, `main_v158`) (`main_v162`), and its conversion to a float (`main_v163`). -/
abbrev p3a : List (HloOp τ sig (Elt F)) :=
  ( StableHlo.binary main_v148 main_v154 main_v155 (cmpi .slt : (⟨S256, .i32⟩ : BufTy).Contents (Elt F) → (⟨S256, .i32⟩ : BufTy).Contents (Elt F) → (⟨S256, .i1⟩ : BufTy).Contents (Elt F))
  :: StableHlo.nullary main_c_23 (constantI S_ 32 8#32)
  :: StableHlo.unary main_c_23 main_v156 (broadcastInDim S256 ![] bcast_S_S256 : (⟨S_, .i32⟩ : BufTy).Contents (Elt F) → (⟨S256, .i32⟩ : BufTy).Contents (Elt F))
  :: StableHlo.binary main_v148 main_v156 main_v157 (addi : (⟨S256, .i32⟩ : BufTy).Contents (Elt F) → (⟨S256, .i32⟩ : BufTy).Contents (Elt F) → (⟨S256, .i32⟩ : BufTy).Contents (Elt F))
  :: StableHlo.ternary main_v155 main_v157 main_v148 main_v158 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v153 main_v159 (broadcastInDim S256x1 ![0] bcast_S256_S256x1_0 : (⟨S256, .i32⟩ : BufTy).Contents (Elt F) → (⟨S256x1, .i32⟩ : BufTy).Contents (Elt F))
  :: StableHlo.unary main_v158 main_v160 (broadcastInDim S256x1 ![0] bcast_S256_S256x1_0 : (⟨S256, .i32⟩ : BufTy).Contents (Elt F) → (⟨S256x1, .i32⟩ : BufTy).Contents (Elt F))
  :: StableHlo.binary main_v159 main_v160 main_v161 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F))
  :: StableHlo.binary main_v73 main_v161 main_v162 ((fun x i => Host.gather gather_S2x128x8_S256x2_S2x256_0_12_n_n_12_1_211 x i) : (⟨S2x128x8, .i1⟩ : BufTy).Contents (Elt F) → (⟨S256x2, .i32⟩ : BufTy).Contents (Elt F) → (⟨S2x256, .i1⟩ : BufTy).Contents (Elt F))
  :: StableHlo.unary main_v162 main_v163 (uitofp .f32 : (⟨S2x256, .i1⟩ : BufTy).Contents (Elt F) → (⟨S2x256, .f32⟩ : BufTy).Contents (Elt F))
  :: [] )

set_option maxHeartbeats 40000000 in
/-- Statements 190 … 201: `main_v148` with 8 added where it is negative (`main_v168`), the gather of `main_arg3` at it (`main_v170`), and its product with the broadcast of `main_v163` (`main_v173`). -/
abbrev p3b : List (HloOp τ sig (Elt F)) :=
  ( StableHlo.nullary main_c_24 (constantI S_ 32 0#32)
  :: StableHlo.unary main_c_24 main_v164 (broadcastInDim S256 ![] bcast_S_S256 : (⟨S_, .i32⟩ : BufTy).Contents (Elt F) → (⟨S256, .i32⟩ : BufTy).Contents (Elt F))
  :: StableHlo.binary main_v148 main_v164 main_v165 (cmpi .slt : (⟨S256, .i32⟩ : BufTy).Contents (Elt F) → (⟨S256, .i32⟩ : BufTy).Contents (Elt F) → (⟨S256, .i1⟩ : BufTy).Contents (Elt F))
  :: StableHlo.nullary main_c_25 (constantI S_ 32 8#32)
  :: StableHlo.unary main_c_25 main_v166 (broadcastInDim S256 ![] bcast_S_S256 : (⟨S_, .i32⟩ : BufTy).Contents (Elt F) → (⟨S256, .i32⟩ : BufTy).Contents (Elt F))
  :: StableHlo.binary main_v148 main_v166 main_v167 (addi : (⟨S256, .i32⟩ : BufTy).Contents (Elt F) → (⟨S256, .i32⟩ : BufTy).Contents (Elt F) → (⟨S256, .i32⟩ : BufTy).Contents (Elt F))
  :: StableHlo.ternary main_v165 main_v167 main_v148 main_v168 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v168 main_v169 (broadcastInDim S256x1 ![0] bcast_S256_S256x1_0 : (⟨S256, .i32⟩ : BufTy).Contents (Elt F) → (⟨S256x1, .i32⟩ : BufTy).Contents (Elt F))
  :: StableHlo.binary main_arg3 main_v169 main_v170 ((fun x i => Host.gather gather_S2x8x384x384_S256x1_S2x256x384x384_023_1_n_n_1_1_21384384 x i) : (⟨S2x8x384x384, .f32⟩ : BufTy).Contents (Elt F) → (⟨S256x1, .i32⟩ : BufTy).Contents (Elt F) → (⟨S2x256x384x384, .f32⟩ : BufTy).Contents (Elt F))
  :: StableHlo.unary main_v163 main_v171 (broadcastInDim S2x256x1x1 ![0, 1] bcast_S2x256_S2x256x1x1_0_1 : (⟨S2x256, .f32⟩ : BufTy).Contents (Elt F) → (⟨S2x256x1x1, .f32⟩ : BufTy).Contents (Elt F))
  :: StableHlo.unary main_v171 main_v172 (broadcastInDim S2x256x384x384 ![0, 1, 2, 3] bcast_S2x256x1x1_S2x256x384x384_0_1_2_3 : (⟨S2x256x1x1, .f32⟩ : BufTy).Contents (Elt F) → (⟨S2x256x384x384, .f32⟩ : BufTy).Contents (Elt F))
  :: StableHlo.binary main_v170 main_v172 main_v173 (mulf : (⟨S2x256x384x384, .f32⟩ : BufTy).Contents (Elt F) → (⟨S2x256x384x384, .f32⟩ : BufTy).Contents (Elt F) → (⟨S2x256x384x384, .f32⟩ : BufTy).Contents (Elt F))
  :: [] )

/-- Up to the comparison `main_v73`. -/
abbrev wA : List (HloOp τ sig (Elt F)) := p0 ++ p1a
/-- Up to `main_v101`: the six products, reshaped. -/
abbrev wB : List (HloOp τ sig (Elt F)) := p1b
/-- Up to `main_v146`: the three concatenations `main_v116`, `main_v131`, `main_v146`. -/
abbrev wC : List (HloOp τ sig (Elt F)) := p1c ++ p2a
/-- Up to `main_v163`: `main_v147`, `main_v148` and the gathered comparison as a float. -/
abbrev wD : List (HloOp τ sig (Elt F)) := p2b ++ p3a
/-- The gather of `main_arg3` and its product with the broadcast of `main_v163`. -/
abbrev wT : List (HloOp τ sig (Elt F)) := p3b

/-- Every host operation of @main, in program order. -/
abbrev ops : List (HloOp τ sig (Elt F)) := wA ++ (wB ++ (wC ++ (wD ++ wT)))

end Cert.ReferenceIdeal.Hand

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The run of the reference program's @main, read back as a fold.

  @main is printed in four windows, each one sequence of host operations (two of them calls of outlined functions,
  whose bodies are again sequences). Each window equals `seq` of its piece of the operation list: both sides are
  the same chain of `hlo` steps once the calls are unfolded and the binds reassociated. `seq` turns concatenation
  into sequencing (`seq_append`), so @main is `seq ops`. Every operation reads and writes TensorCore references
  only and allocates nothing, so `run_seq` applies: from any memory with zero counters every weakly fair execution
  terminates, and each TensorCore buffer ends at `after ops` of the launch contents. No operation writes an
  argument buffer, so `after ops` leaves the six arguments as launched.
-/
import proofs.«172312_j89326729822373_2_alg».proof.Proof.RefOps
import proofs.«172312_j89326729822373_2_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is `seq ops` -/

set_option maxRecDepth 8192 in
set_option maxHeartbeats 4000000 in
/-- The first window is its sixty operations in sequence: both sides are the same chain of `hlo` steps. -/
theorem main_part0_eq (c : Dev nD) : main_part0 (F := F) c = seq p0 := rfl

set_option maxRecDepth 8192 in
set_option maxHeartbeats 4000000 in
theorem main_part1_eq (c : Dev nD) : main_part1 (F := F) c = seq (p1a ++ (p1b ++ p1c)) := rfl

set_option maxRecDepth 8192 in
set_option maxHeartbeats 4000000 in
/-- The third window holds the two calls; a callee's body is itself a sequence of `hlo` steps over the typed
    references the call passes, so unfolding it leaves the chain of `p2a ++ p2b`. -/
theorem main_part2_eq (c : Dev nD) : main_part2 (F := F) c = seq (p2a ++ p2b) := rfl

set_option maxRecDepth 8192 in
set_option maxHeartbeats 4000000 in
theorem main_part3_eq (c : Dev nD) : main_part3 (F := F) c = seq (p3a ++ p3b) := rfl

/-- The operation list regrouped along the printed windows (concatenation is associative). -/
theorem ops_eq_windows : (ops : List (HloOp τ sig (Elt F)))
    = p0 ++ ((p1a ++ (p1b ++ p1c)) ++ ((p2a ++ p2b) ++ (p3a ++ p3b))) := by
  show (p0 ++ p1a) ++ (p1b ++ ((p1c ++ p2a) ++ ((p2b ++ p3a) ++ p3b))) = _
  simp only [List.append_assoc]

/-- @main runs its four windows in order, and `seq` of a concatenation is the sequencing of the `seq`s. -/
theorem main_eq (c : Dev nD) : main (F := F) c = seq ops := by
  rw [ops_eq_windows, seq_append p0, seq_append (p1a ++ (p1b ++ p1c)), seq_append (p2a ++ p2b),
    ← main_part0_eq c, ← main_part1_eq c, ← main_part2_eq c, ← main_part3_eq c]
  rfl

/-! ## The side conditions of `run_seq` -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {P : α → Prop} {l₁ l₂ : List α} (h₁ : l₁.Forall P) (h₂ : l₂.Forall P) :
    (l₁ ++ l₂).Forall P :=
  List.forall_iff_forall_mem.mpr fun a h =>
    (List.mem_append.mp h).elim (List.forall_iff_forall_mem.mp h₁ a) (List.forall_iff_forall_mem.mp h₂ a)

/-! Every operation touches TensorCore references only: each is one of the five builders, whose buffers are
    their operand and result references. -/

theorem p0_sub : (p0 : List (HloOp τ sig (Elt F))).Forall fun op => op.bufs ⊆ tcRefs τ sig :=
  ⟨unary_bufs_sub .., unary_bufs_sub .., unary_bufs_sub .., reshape_bufs_sub .., unary_bufs_sub .., reshape_bufs_sub ..,
    binary_bufs_sub .., nullary_bufs_sub .., unary_bufs_sub .., binary_bufs_sub .., unary_bufs_sub .., reshape_bufs_sub ..,
    unary_bufs_sub .., reshape_bufs_sub .., binary_bufs_sub .., binary_bufs_sub .., unary_bufs_sub .., reshape_bufs_sub ..,
    unary_bufs_sub .., reshape_bufs_sub .., binary_bufs_sub .., nullary_bufs_sub .., unary_bufs_sub .., binary_bufs_sub ..,
    unary_bufs_sub .., reshape_bufs_sub .., unary_bufs_sub .., reshape_bufs_sub .., binary_bufs_sub .., binary_bufs_sub ..,
    unary_bufs_sub .., reshape_bufs_sub .., unary_bufs_sub .., reshape_bufs_sub .., unary_bufs_sub .., unary_bufs_sub ..,
    binary_bufs_sub .., unary_bufs_sub .., reshape_bufs_sub .., unary_bufs_sub .., reshape_bufs_sub .., unary_bufs_sub ..,
    unary_bufs_sub .., binary_bufs_sub .., unary_bufs_sub .., reshape_bufs_sub .., unary_bufs_sub .., reshape_bufs_sub ..,
    unary_bufs_sub .., unary_bufs_sub .., binary_bufs_sub .., unary_bufs_sub .., reshape_bufs_sub .., unary_bufs_sub ..,
    reshape_bufs_sub .., unary_bufs_sub .., unary_bufs_sub .., binary_bufs_sub .., binary_bufs_sub ..,
    nullary_bufs_sub ..⟩
theorem p1a_sub : (p1a : List (HloOp τ sig (Elt F))).Forall fun op => op.bufs ⊆ tcRefs τ sig :=
  ⟨unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., binary_bufs_sub .., binary_bufs_sub ..,
    nullary_bufs_sub .., unary_bufs_sub .., binary_bufs_sub ..⟩
theorem p1b_sub : (p1b : List (HloOp τ sig (Elt F))).Forall fun op => op.bufs ⊆ tcRefs τ sig :=
  ⟨unary_bufs_sub .., unary_bufs_sub .., nullary_bufs_sub .., unary_bufs_sub .., binary_bufs_sub .., unary_bufs_sub ..,
    unary_bufs_sub .., unary_bufs_sub .., unary_bufs_sub .., unary_bufs_sub .., unary_bufs_sub .., unary_bufs_sub ..,
    binary_bufs_sub .., reshape_bufs_sub .., unary_bufs_sub .., binary_bufs_sub .., reshape_bufs_sub .., unary_bufs_sub ..,
    binary_bufs_sub .., reshape_bufs_sub .., unary_bufs_sub .., binary_bufs_sub .., reshape_bufs_sub .., unary_bufs_sub ..,
    binary_bufs_sub .., reshape_bufs_sub .., unary_bufs_sub .., binary_bufs_sub .., reshape_bufs_sub ..⟩
theorem p1c_sub : (p1c : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..⟩
theorem p2a_sub : (p2a : List (HloOp τ sig (Elt F))).Forall fun op => op.bufs ⊆ tcRefs τ sig :=
  ⟨unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩
theorem p2b_sub : (p2b : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub ..,
    ternary_bufs_sub .., nullary_bufs_sub .., unary_bufs_sub .., nullary_bufs_sub .., binary_bufs_sub ..,
    nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub ..,
    unary_bufs_sub .., binary_bufs_sub .., ternary_bufs_sub .., nullary_bufs_sub .., unary_bufs_sub ..⟩
theorem p3a_sub : (p3a : List (HloOp τ sig (Elt F))).Forall fun op => op.bufs ⊆ tcRefs τ sig :=
  ⟨binary_bufs_sub .., nullary_bufs_sub .., unary_bufs_sub .., binary_bufs_sub .., ternary_bufs_sub ..,
    unary_bufs_sub .., unary_bufs_sub .., binary_bufs_sub .., binary_bufs_sub .., unary_bufs_sub ..⟩
theorem p3b_sub : (p3b : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub ..⟩

theorem ops_sub : (ops : List (HloOp τ sig (Elt F))).Forall fun op => op.bufs ⊆ tcRefs τ sig :=
  forall_append (forall_append p0_sub p1a_sub)
    (forall_append p1b_sub (forall_append (forall_append p1c_sub p2a_sub)
      (forall_append (forall_append p2b_sub p3a_sub) p3b_sub)))

/-! No operation allocates: each determines its results from its operands. -/

theorem p0_fresh : (p0 : List (HloOp τ sig (Elt F))).Forall fun op => op.fresh = ∅ := by
  simp only [List.Forall]; repeat' constructor
theorem p1a_fresh : (p1a : List (HloOp τ sig (Elt F))).Forall fun op => op.fresh = ∅ := by
  simp only [List.Forall]; repeat' constructor
theorem p1b_fresh : (p1b : List (HloOp τ sig (Elt F))).Forall fun op => op.fresh = ∅ := by
  simp only [List.Forall]; repeat' constructor
theorem p1c_fresh : (p1c : List (HloOp τ sig (Elt F))).Forall fun op => op.fresh = ∅ := by
  simp only [List.Forall]; repeat' constructor
theorem p2a_fresh : (p2a : List (HloOp τ sig (Elt F))).Forall fun op => op.fresh = ∅ := by
  simp only [List.Forall]; repeat' constructor
theorem p2b_fresh : (p2b : List (HloOp τ sig (Elt F))).Forall fun op => op.fresh = ∅ := by
  simp only [List.Forall]; repeat' constructor
theorem p3a_fresh : (p3a : List (HloOp τ sig (Elt F))).Forall fun op => op.fresh = ∅ := by
  simp only [List.Forall]; repeat' constructor
theorem p3b_fresh : (p3b : List (HloOp τ sig (Elt F))).Forall fun op => op.fresh = ∅ := by
  simp only [List.Forall]; repeat' constructor

theorem ops_fresh : (ops : List (HloOp τ sig (Elt F))).Forall fun op => op.fresh = ∅ :=
  forall_append (forall_append p0_fresh p1a_fresh)
    (forall_append p1b_fresh (forall_append (forall_append p1c_fresh p2a_fresh)
      (forall_append (forall_append p2b_fresh p3a_fresh) p3b_fresh)))

/-! ## The run -/

/-- On every device, for any float values, from any memory with zero counters: every weakly fair execution of @main
    terminates, and each TensorCore buffer ends at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The arguments are kept

Each operation writes exactly its result reference, and no result reference is an argument: the six argument
references are the first six of the table, every result a later one. -/

/-- The six argument references. -/
abbrev args : List (Ref sig .tc) := [main_arg0, main_arg1, main_arg2, main_arg3, main_arg4, main_arg5]

/-- Over the six arguments and a piece's operations: every operation's write set is the singleton of its result
    reference, which differs from the argument by comparing table indices. -/
local macro "keeps_args" : tactic => `(tactic| (
  simp only [List.Forall, nullary_writes, unary_writes, binary_writes, ternary_writes, reshape_writes, Finset.mem_singleton]
  repeat' apply And.intro
  all_goals exact devRef_ne_of_ne (by decide)))

theorem p0_keeps : args.Forall fun r => (p0 : List (HloOp τ sig (Elt F))).Forall fun op => Proc.devRef (τ := τ) .tc r ∉ op.writes := by
  keeps_args
theorem p1a_keeps : args.Forall fun r => (p1a : List (HloOp τ sig (Elt F))).Forall fun op => Proc.devRef (τ := τ) .tc r ∉ op.writes := by
  keeps_args
theorem p1b_keeps : args.Forall fun r => (p1b : List (HloOp τ sig (Elt F))).Forall fun op => Proc.devRef (τ := τ) .tc r ∉ op.writes := by
  keeps_args
theorem p1c_keeps : args.Forall fun r => (p1c : List (HloOp τ sig (Elt F))).Forall fun op => Proc.devRef (τ := τ) .tc r ∉ op.writes := by
  keeps_args
theorem p2a_keeps : args.Forall fun r => (p2a : List (HloOp τ sig (Elt F))).Forall fun op => Proc.devRef (τ := τ) .tc r ∉ op.writes := by
  keeps_args
theorem p2b_keeps : args.Forall fun r => (p2b : List (HloOp τ sig (Elt F))).Forall fun op => Proc.devRef (τ := τ) .tc r ∉ op.writes := by
  keeps_args
theorem p3a_keeps : args.Forall fun r => (p3a : List (HloOp τ sig (Elt F))).Forall fun op => Proc.devRef (τ := τ) .tc r ∉ op.writes := by
  keeps_args
theorem p3b_keeps : args.Forall fun r => (p3b : List (HloOp τ sig (Elt F))).Forall fun op => Proc.devRef (τ := τ) .tc r ∉ op.writes := by
  keeps_args

/-- No operation of @main writes an argument reference. -/
theorem ops_keeps : ∀ r ∈ args, (ops : List (HloOp τ sig (Elt F))).Forall fun op => Proc.devRef (τ := τ) .tc r ∉ op.writes :=
  fun r hr => forall_append (forall_append (List.forall_iff_forall_mem.mp p0_keeps r hr) (List.forall_iff_forall_mem.mp p1a_keeps r hr))
    (forall_append (List.forall_iff_forall_mem.mp p1b_keeps r hr) (forall_append (forall_append (List.forall_iff_forall_mem.mp p1c_keeps r hr) (List.forall_iff_forall_mem.mp p2a_keeps r hr))
      (forall_append (forall_append (List.forall_iff_forall_mem.mp p2b_keeps r hr) (List.forall_iff_forall_mem.mp p3a_keeps r hr)) (List.forall_iff_forall_mem.mp p3b_keeps r hr))))

/-- A reference no operation of @main writes holds after the run what it held before. -/
theorem kept_of_mem_args (V : Valuation τ sig (Elt F)) {r : Ref sig .tc} (hr : r ∈ args) :
    after ops V (Proc.devRef .tc r) = V (Proc.devRef .tc r) :=
  after_of_forall_not_mem ops V (List.forall_iff_forall_mem.mp (ops_keeps r hr))

theorem kept_arg0 (V : Valuation τ sig (Elt F)) : after ops V (Proc.devRef .tc main_arg0) = V (Proc.devRef .tc main_arg0) :=
  kept_of_mem_args V (by decide)
theorem kept_arg1 (V : Valuation τ sig (Elt F)) : after ops V (Proc.devRef .tc main_arg1) = V (Proc.devRef .tc main_arg1) :=
  kept_of_mem_args V (by decide)
theorem kept_arg2 (V : Valuation τ sig (Elt F)) : after ops V (Proc.devRef .tc main_arg2) = V (Proc.devRef .tc main_arg2) :=
  kept_of_mem_args V (by decide)
theorem kept_arg3 (V : Valuation τ sig (Elt F)) : after ops V (Proc.devRef .tc main_arg3) = V (Proc.devRef .tc main_arg3) :=
  kept_of_mem_args V (by decide)
theorem kept_arg4 (V : Valuation τ sig (Elt F)) : after ops V (Proc.devRef .tc main_arg4) = V (Proc.devRef .tc main_arg4) :=
  kept_of_mem_args V (by decide)
theorem kept_arg5 (V : Valuation τ sig (Elt F)) : after ops V (Proc.devRef .tc main_arg5) = V (Proc.devRef .tc main_arg5) :=
  kept_of_mem_args V (by decide)

end Cert.ReferenceIdeal.Hand

end
-- ==== Proof.Frames.lean ====
/-
  The three frame claims and the (empty) idealization ledger. The kernel program, at both instances, runs by its
  generated frame. The reference has no kernel: its run is the fold of its 238 host operations over the launch
  contents, none of which writes an argument array.
-/
import proofs.«172312_j89326729822373_2_alg».proof.Defs
import proofs.«172312_j89326729822373_2_alg».proof.Proof.Gen.Kernel.Frame
import proofs.«172312_j89326729822373_2_alg».proof.Proof.Gen.KernelIdeal.Frame
import proofs.«172312_j89326729822373_2_alg».proof.Proof.Gen.Pre_finite_inputs
import proofs.«172312_j89326729822373_2_alg».proof.Proof.RefRun

noncomputable section

namespace Cert.Hand

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c =>
      ⟨(h c Cert.ReferenceIdeal.main_arg0).trans (Cert.ReferenceIdeal.Hand.kept_arg0 _),
       (h c Cert.ReferenceIdeal.main_arg1).trans (Cert.ReferenceIdeal.Hand.kept_arg1 _),
       (h c Cert.ReferenceIdeal.main_arg2).trans (Cert.ReferenceIdeal.Hand.kept_arg2 _),
       (h c Cert.ReferenceIdeal.main_arg3).trans (Cert.ReferenceIdeal.Hand.kept_arg3 _),
       (h c Cert.ReferenceIdeal.main_arg4).trans (Cert.ReferenceIdeal.Hand.kept_arg4 _),
       (h c Cert.ReferenceIdeal.main_arg5).trans (Cert.ReferenceIdeal.Hand.kept_arg5 _)⟩)
    (Cert.ReferenceIdeal.Hand.run_main (F := Ideal) m ρ)

/-- The ideal pass rewrote nothing: the idealization is the kernel program's own text read at the extended reals. -/
theorem preserves : Cert.preserves_Kernel_KernelIdeal := trivial

end Cert.Hand

end
-- ==== Proof.KerBlock.lean ====
/-
  The kernel body's stored value, read at an index. The body loads a block `x0` of shape [1, 256, 8] (the selector rows
  of one batch) and a block `x1` of shape [1, 8, 6144] (6144 flattened mask positions of the eight rows of that batch),
  drops the unit axes, multiplies the [256, 8] matrix by the [8, 6144] matrix into a zero accumulator and puts the unit
  axis back. At the extended reals the entry at `(0, s, q)` is therefore the sum over the eight rows `r` of
  `x0 (0, s, r) · x1 (0, r, q)`.
-/
import proofs.«172312_j89326729822373_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-- The body's one matrix product: rows × the contracted axis of extent 8 × columns. -/
abbrev D := dot_S256x8_S8x6144_S256x6144_1_0_0_1_n_n

/-- The left operand's row is the output's row. -/
theorem lhs0 (i : S256x6144.Idx) (q : D.contr.Idx) : (D.lhsIdx i q 0).val = (i 0).val := by
  unfold DotDims.lhsIdx
  rw [dif_neg (show ¬(0 : Fin S256x8.rank) ∈ D.lhsBatch by decide), dif_pos (show (0 : Fin S256x8.rank) ∈ D.lhsNonContracting by decide)]
  rfl
/-- The left operand's column is the contraction position. -/
theorem lhs1 (i : S256x6144.Idx) (q : D.contr.Idx) : (D.lhsIdx i q 1).val = (q ⟨0, by decide⟩).val :=
  D.lhsIdx_val_of_single rfl i q
/-- The right operand's row is the contraction position. -/
theorem rhs0 (i : S256x6144.Idx) (q : D.contr.Idx) : (D.rhsIdx i q 0).val = (q ⟨0, by decide⟩).val :=
  D.rhsIdx_val_of_single rfl i q
/-- The right operand's column is the output's column. -/
theorem rhs1 (i : S256x6144.Idx) (q : D.contr.Idx) : (D.rhsIdx i q 1).val = (i 1).val := by
  unfold DotDims.rhsIdx
  rw [dif_neg (show ¬(1 : Fin S8x6144.rank) ∈ D.rhsBatch by decide), dif_pos (show (1 : Fin S8x6144.rank) ∈ D.rhsNonContracting by decide)]
  rfl

/-- The product into the zero accumulator, at `(s, q)`: the sum over the eight rows. -/
theorem matmul_at (a : FVec Ideal S256x8 .f32) (b : FVec Ideal S8x6144 .f32) (s : Fin 256) (q : Fin 6144) :
    matmul D (some .fp32) a b (constant S256x6144 .f32 0x00000000#32) (ix2 s q) = ∑ r : Fin 8, a (ix2 s r) * b (ix2 r q) := by
  refine (Ideal.matmul_constant_zero_apply D (some .fp32) a b (ix2 s q)).trans ?_
  rw [← Equiv.sum_comp (contrEquiv1 D 8 rfl rfl).symm]
  refine Finset.sum_congr rfl fun k _ => ?_
  have hk := contrEquiv1_symm_val D 8 rfl rfl k
  have el : D.lhsIdx (ix2 s q) ((contrEquiv1 D 8 rfl rfl).symm k) = ix2 s k := funext fun c => Fin.ext (by
    match c with
    | ⟨0, _⟩ => exact lhs0 _ _
    | ⟨1, _⟩ => exact (lhs1 _ _).trans hk)
  have er : D.rhsIdx (ix2 s q) ((contrEquiv1 D 8 rfl rfl).symm k) = ix2 k q := funext fun c => Fin.ext (by
    match c with
    | ⟨0, _⟩ => exact (rhs0 _ _).trans hk
    | ⟨1, _⟩ => exact rhs1 _ _)
  rw [el, er]

/-- THE BODY'S STORED VALUE at `(u, s, q)`: the sum over the eight rows of the selector block times the mask block. -/
theorem pay_at (x0 : Vec Ideal S1x256x8 .f32) (x1 : Vec Ideal S1x8x6144 .f32) (u : Fin 1) (s : Fin 256) (q : Fin 6144) :
    k0_pay1 x0 x1 (ix3 u s q) = ∑ r : Fin 8, x0 (ix3 (0 : Fin 1) s r) * x1 (ix3 (0 : Fin 1) r q) := by
  unfold k0_pay1
  refine (shapeCast_ab_1ab_apply _ _ u s q).trans ?_
  refine (matmul_at _ _ s q).trans ?_
  refine Finset.sum_congr rfl fun r _ => ?_
  rw [shapeCast_1ab_ab_apply, shapeCast_1ab_ab_apply]

end Cert.KernelIdeal.HandValue

end
-- ==== Proof.Spec.lean ====
/-
  The value the row-selecting matrix product leaves, as one function of whole arrays: for a selector
  `sel[b, s, r]` and flattened masks `mf[b, r, p]`, the entry at `(b, s, p)` is the sum over the eight rows `r`
  of `sel[b, s, r] · mf[b, r, p]`, in the extended reals. No program is imported.
-/
import Idealize.ShloMosaic.PureOps.Ideal
import Idealize.ShloMosaic.Lib.ValueIdx

noncomputable section

open scoped BigOperators

namespace Cert.Hand.Spec

open Idealize.ShloMosaic Idealize.ShloMosaic.ValueIdx

/-- The selector's shape `[2, 256, 8]`, the flattened masks' `[2, 8, 147456]`, the product's `[2, 256, 147456]`. -/
abbrev Ssel : Shape := ⟨3, ![2, 256, 8]⟩
abbrev Smf : Shape := ⟨3, ![2, 8, 147456]⟩
abbrev Sout : Shape := ⟨3, ![2, 256, 147456]⟩

/-- `rowSelect sel mf (b, s, p) = ∑ r < 8, sel (b, s, r) · mf (b, r, p)`. -/
def rowSelect (sel : FVec Ideal Ssel .f32) (mf : FVec Ideal Smf .f32) : FVec Ideal Sout .f32 :=
  fun i => ∑ r : Fin 8, sel (ix3 (n0 := 2) (n1 := 256) (n2 := 8) (i 0) (i 1) r) * mf (ix3 (n0 := 2) (n1 := 8) (n2 := 147456) (i 0) r (i 2))

/-- The same at explicit coordinates. -/
theorem rowSelect_apply (sel : FVec Ideal Ssel .f32) (mf : FVec Ideal Smf .f32) (b : Fin 2) (s : Fin 256) (p : Fin 147456) :
    rowSelect sel mf (ix3 b s p) = ∑ r : Fin 8, sel (ix3 b s r) * mf (ix3 b r p) := rfl

end Cert.Hand.Spec

end
-- ==== Proof.KerValue.lean ====
/-
  What the region leaves in its output array. The grid has 2 × 24 points; point `(b, t)` loads the selector rows of
  batch `b` (block `(b, 0, 0)` of the [2, 256, 8] array), the mask positions `6144 t … 6144 t + 6143` of that batch's eight
  rows (block `(b, 0, t)` of the [2, 8, 147456] array) and writes block `(b, 0, t)` of the [2, 256, 147456] output.
  Each written block is the corresponding block of ONE whole-array function, the row-selecting product of the two
  arrays, and the 48 blocks tile the output: so after the run the output array is that product.
-/
import proofs.«172312_j89326729822373_2_alg».proof.Proof.Gen.KernelIdeal.Frame
import proofs.«172312_j89326729822373_2_alg».proof.Proof.KerBlock
import proofs.«172312_j89326729822373_2_alg».proof.Proof.Spec

set_option maxRecDepth 16384

noncomputable section

open scoped BigOperators

namespace Cert.KernelIdeal.HandValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0, 0] : Fin 3 → Nat) = fun _ => 0 := funext fun a => by fin_cases a <;> rfl

/-- The three windows' block indices over the grid: all move with the batch on axis 0; the masks and the output move
    together along the flattened positions; nothing moves on the middle axis, nor the selector on its last. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = win0_2.index t (2 : Fin 3)
    ∧ win0_2.index t (1 : Fin 3) = 0
    ∧ win0_2.index t (0 : Fin 3) ≤ 1 ∧ win0_2.index t (2 : Fin 3) ≤ 23 :=
  (by decide +kernel : ∀ t : Fin grid0.N, _)

/-- Every block of the output is some point's. -/
theorem idx_onto : ∀ (q0 : Fin 2) (q2 : Fin 24), ∃ t : Fin cfg0.N, win0_2.index t = ![q0.val, 0, q2.val] :=
  (by decide +kernel : ∀ (q0 : Fin 2) (q2 : Fin 24), ∃ t : Fin grid0.N, win0_2.index t = ![q0.val, 0, q2.val])

/-- The whole-array value: the row-selecting product of the selector and the flattened masks as the region finds them. -/
abbrev G (c : Dev nD) : S2x256x147456.Idx → Elt Ideal .f32 :=
  Cert.Hand.Spec.rowSelect (V m c main_v169) (V m c main_v170)

/-- An input block read at a block index is the array read at the embedded index. -/
theorem read0 (c : Dev nD) (t : Fin cfg0.N) (y : S1x256x8.Idx) :
    iblk m c 0 t y = V m c main_v169 (((cfg0.win 0).blk t).view.emb y) := rfl
theorem read1 (c : Dev nD) (t : Fin cfg0.N) (y : S1x8x6144.Idx) :
    iblk m c 1 t y = V m c main_v170 (((cfg0.win 1).blk t).view.emb y) := rfl

/-- WHAT POINT `t` WRITES BACK is block `t` of the row-selecting product. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S1x256x8) hz, View.ld_unit_zero (S := S1x8x6144) hz]
  obtain ⟨e0, e1, e2, e3, e4, e5, e6, e7, e8⟩ := idx_facts t
  funext j
  obtain ⟨u, s, q, rfl⟩ : ∃ (u : Fin 1) (s : Fin 256) (q : Fin 6144), j = ix3 u s q := ⟨j 0, j 1, j 2, eq_ix3 j⟩
  show k0_pay1 (iblk m c 0 t) (iblk m c 1 t) (ix3 u s q) = G m c (((cfg0.win 2).blk t).view.emb (ix3 u s q))
  refine (pay_at (iblk m c 0 t) (iblk m c 1 t) u s q).trans ?_
  refine Finset.sum_congr rfl fun r _ => ?_
  have hu : u.val = 0 := by omega
  have h0 : ((cfg0.win 0).blk t).view.emb (ix3 (0 : Fin 1) s r)
      = ix3 (n0 := 2) (n1 := 256) (n2 := 8) ((((cfg0.win 2).blk t).view.emb (ix3 u s q)) 0) ((((cfg0.win 2).blk t).view.emb (ix3 u s q)) 1) r := by
    funext a; apply Fin.ext
    match a with
    | ⟨0, _⟩ => show win0_0.index t (0 : Fin 3) * 1 + 1 * 0 = win0_2.index t (0 : Fin 3) * 1 + 1 * u.val; omega
    | ⟨1, _⟩ => show win0_0.index t (1 : Fin 3) * 256 + 1 * s.val = win0_2.index t (1 : Fin 3) * 256 + 1 * s.val; omega
    | ⟨2, _⟩ => show win0_0.index t (2 : Fin 3) * 8 + 1 * r.val = r.val; omega
  have h1 : ((cfg0.win 1).blk t).view.emb (ix3 (0 : Fin 1) r q)
      = ix3 (n0 := 2) (n1 := 8) (n2 := 147456) ((((cfg0.win 2).blk t).view.emb (ix3 u s q)) 0) r ((((cfg0.win 2).blk t).view.emb (ix3 u s q)) 2) := by
    funext a; apply Fin.ext
    match a with
    | ⟨0, _⟩ => show win0_1.index t (0 : Fin 3) * 1 + 1 * 0 = win0_2.index t (0 : Fin 3) * 1 + 1 * u.val; omega
    | ⟨1, _⟩ => show win0_1.index t (1 : Fin 3) * 8 + 1 * r.val = r.val; omega
    | ⟨2, _⟩ => show win0_1.index t (2 : Fin 3) * 6144 + 1 * q.val = win0_2.index t (2 : Fin 3) * 6144 + 1 * q.val; omega
  rw [read0 m c t, read1 m c t, h0, h1]

/-- An index of the output is in point `t`'s block iff each coordinate is in the block's range on its axis. -/
theorem mem_blk (t : Fin cfg0.N) (i : S2x256x147456.Idx) :
    i ∈ ((cfg0.win 2).blk t).view.set ↔ ∀ a : Fin 3, win0_2.index t a * S1x256x6144.size a ≤ (i a).val ∧ (i a).val < win0_2.index t a * S1x256x6144.size a + S1x256x6144.size a := by
  show i ∈ ((View.whole main_v171).slice (win0_2.rect t)).set ↔ _
  rw [View.set_slice_whole, Rect.mem_set_unit]
  exact Iff.rfl

/-- The blocks tile the output: position `(b, s, p)` lies in the block of the point `(b, p / 6144)`. -/
theorem cover (i : S2x256x147456.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 147456 := (i 2).isLt
  obtain ⟨t, ht⟩ := idx_onto ⟨(i 0).val, hi0⟩ ⟨(i 2).val / 6144, by omega⟩
  have q0 : win0_2.index t (0 : Fin 3) = (i 0).val := congrFun ht 0
  have q1 : win0_2.index t (1 : Fin 3) = 0 := congrFun ht 1
  have q2 : win0_2.index t (2 : Fin 3) = (i 2).val / 6144 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 6144 ≤ (i 2).val ∧ (i 2).val < win0_2.index t (2 : Fin 3) * 6144 + 6144; omega

/-- THE OUTPUT ARRAY after the run is the row-selecting product of the two input arrays as the region finds them. -/
theorem final (c : Dev nD) : (dats m 0 c).arrAt 2 cfg0.N = G m c :=
  (dats m 0 c).arrAt_eq_of_cover 2 (G m c) (fun t _ => flushed_eq m c t) cover

end Cert.KernelIdeal.HandValue

end
-- ==== Proof.KerOps.lean ====
/-
  The host operations that the kernel program and the reference program share, cut into four windows.
  Each window is the literal list of the operations of one stretch of the program, in program order, so that the
  contents of a buffer after the window are computed from the contents before it by unfolding the fold `after`.
  Every buffer of the four windows is written exactly once; what a window reads from before it is named in its
  description.
-/
import proofs.«172312_j89326729822373_2_alg».proof.Proof.Gen.KernelIdeal.Launch

set_option maxRecDepth 8192

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- Operations 0 to 80 of the host program, in order: from the arguments `main_arg0` and `main_arg2` to `main_v73`. -/
abbrev wA : List (HloOp τ sig (Elt F)) :=
  [ StableHlo.unary main_arg0 main_v0 (broadcastInDim S2x128x1x4 ![0, 1, 3] bcast_S2x128x4_S2x128x1x4_0_1_3 : (⟨S2x128x4, .f32⟩ : BufTy).Contents (Elt F) → (⟨S2x128x1x4, .f32⟩ : BufTy).Contents (Elt F)),
    StableHlo.unary main_arg2 main_v1 (broadcastInDim S2x1x8x4 ![0, 2, 3] bcast_S2x8x4_S2x1x8x4_0_2_3 : (⟨S2x8x4, .f32⟩ : BufTy).Contents (Elt F) → (⟨S2x1x8x4, .f32⟩ : BufTy).Contents (Elt F)),
    StableHlo.unary main_v0 main_v2 ((extractStridedSlice S2x128x1x1 ![0, 0, 0, 2] · slices_S2x128x1x4_S2x128x1x1_0_0_0_2) : (⟨S2x128x1x4, .f32⟩ : BufTy).Contents (Elt F) → (⟨S2x128x1x1, .f32⟩ : BufTy).Contents (Elt F)),
    StableHlo.reshape main_v2 main_v3 rfl shapeCasts_S2x128x1x1_S2x128x1,
    StableHlo.unary main_v0 main_v4 ((extractStridedSlice S2x128x1x1 ![0, 0, 0, 0] · slices_S2x128x1x4_S2x128x1x1_0_0_0_0) : (⟨S2x128x1x4, .f32⟩ : BufTy).Contents (Elt F) → (⟨S2x128x1x1, .f32⟩ : BufTy).Contents (Elt F)),
    StableHlo.reshape main_v4 main_v5 rfl shapeCasts_S2x128x1x1_S2x128x1,
    StableHlo.binary main_v3 main_v5 main_v6 (subf : (⟨S2x128x1, .f32⟩ : BufTy).Contents (Elt F) → (⟨S2x128x1, .f32⟩ : BufTy).Contents (Elt F) → (⟨S2x128x1, .f32⟩ : BufTy).Contents (Elt F)),
    StableHlo.nullary main_cst (constant S_ .f32 0x3F800000#32),
    StableHlo.unary main_cst main_v7 (broadcastInDim S2x128x1 ![] bcast_S_S2x128x1 : (⟨S_, .f32⟩ : BufTy).Contents (Elt F) → (⟨S2x128x1, .f32⟩ : BufTy).Contents (Elt F)),
    StableHlo.binary main_v6 main_v7 main_v8 (addf : (⟨S2x128x1, .f32⟩ : BufTy).Contents (Elt F) → (⟨S2x128x1, .f32⟩ : BufTy).Contents (Elt F) → (⟨S2x128x1, .f32⟩ : BufTy).Contents (Elt F)),
    StableHlo.unary main_v0 main_v9 ((extractStridedSlice S2x128x1x1 ![0, 0, 0, 3] · slices_S2x128x1x4_S2x128x1x1_0_0_0_3) : (⟨S2x128x1x4, .f32⟩ : BufTy).Contents (Elt F) → (⟨S2x128x1x1, .f32⟩ : BufTy).Contents (Elt F)),
    StableHlo.reshape main_v9 main_v10 rfl shapeCasts_S2x128x1x1_S2x128x1,
    StableHlo.unary main_v0 main_v11 ((extractStridedSlice S2x128x1x1 ![0, 0, 0, 1] · slices_S2x128x1x4_S2x128x1x1_0_0_0_1) : (⟨S2x128x1x4, .f32⟩ : BufTy).Contents (Elt F) → (⟨S2x128x1x1, .f32⟩ : BufTy).Contents (Elt F)),
    StableHlo.reshape main_v11 main_v12 rfl shapeCasts_S2x128x1x1_S2x128x1,
    StableHlo.binary main_v10 main_v12 main_v13 (subf : (⟨S2x128x1, .f32⟩ : BufTy).Contents (Elt F) → (⟨S2x128x1, .f32⟩ : BufTy).Contents (Elt F) → (⟨S2x128x1, .f32⟩ : BufTy).Contents (Elt F)),
    StableHlo.binary main_v8 main_v13 main_v14 (mulf : (⟨S2x128x1, .f32⟩ : BufTy).Contents (Elt F) → (⟨S2x128x1, .f32⟩ : BufTy).Contents (Elt F) → (⟨S2x128x1, .f32⟩ : BufTy).Contents (Elt F)),
    StableHlo.unary main_v1 main_v15 ((extractStridedSlice S2x1x8x1 ![0, 0, 0, 2] · slices_S2x1x8x4_S2x1x8x1_0_0_0_2) : (⟨S2x1x8x4, .f32⟩ : BufTy).Contents (Elt F) → (⟨S2x1x8x1, .f32⟩ : BufTy).Contents (Elt F)),
    StableHlo.reshape main_v15 main_v16 rfl shapeCasts_S2x1x8x1_S2x1x8,
    StableHlo.unary main_v1 main_v17 ((extractStridedSlice S2x1x8x1 ![0, 0, 0, 0] · slices_S2x1x8x4_S2x1x8x1_0_0_0_0) : (⟨S2x1x8x4, .f32⟩ : BufTy).Contents (Elt F) → (⟨S2x1x8x1, .f32⟩ : BufTy).Contents (Elt F)),
    StableHlo.reshape main_v17 main_v18 rfl shapeCasts_S2x1x8x1_S2x1x8,
    StableHlo.binary main_v16 main_v18 main_v19 (subf : (⟨S2x1x8, .f32⟩ : BufTy).Contents (Elt F) → (⟨S2x1x8, .f32⟩ : BufTy).Contents (Elt F) → (⟨S2x1x8, .f32⟩ : BufTy).Contents (Elt F)),
    StableHlo.nullary main_cst_0 (constant S_ .f32 0x3F800000#32),
    StableHlo.unary main_cst_0 main_v20 (broadcastInDim S2x1x8 ![] bcast_S_S2x1x8 : (⟨S_, .f32⟩ : BufTy).Contents (Elt F) → (⟨S2x1x8, .f32⟩ : BufTy).Contents (Elt F)),
    StableHlo.binary main_v19 main_v20 main_v21 (addf : (⟨S2x1x8, .f32⟩ : BufTy).Contents (Elt F) → (⟨S2x1x8, .f32⟩ : BufTy).Contents (Elt F) → (⟨S2x1x8, .f32⟩ : BufTy).Contents (Elt F)),
    StableHlo.unary main_v1 main_v22 ((extractStridedSlice S2x1x8x1 ![0, 0, 0, 3] · slices_S2x1x8x4_S2x1x8x1_0_0_0_3) : (⟨S2x1x8x4, .f32⟩ : BufTy).Contents (Elt F) → (⟨S2x1x8x1, .f32⟩ : BufTy).Contents (Elt F)),
    StableHlo.reshape main_v22 main_v23 rfl shapeCasts_S2x1x8x1_S2x1x8,
    StableHlo.unary main_v1 main_v24 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F)),
    StableHlo.reshape main_v24 main_v25 rfl shapeCasts_S2x1x8x1_S2x1x8,
    StableHlo.binary main_v23 main_v25 main_v26 (subf : (⟨S2x1x8, .f32⟩ : BufTy).Contents (Elt F) → (⟨S2x1x8, .f32⟩ : BufTy).Contents (Elt F) → (⟨S2x1x8, .f32⟩ : BufTy).Contents (Elt F)),
    StableHlo.binary main_v21 main_v26 main_v27 (mulf : (⟨S2x1x8, .f32⟩ : BufTy).Contents (Elt F) → (⟨S2x1x8, .f32⟩ : BufTy).Contents (Elt F) → (⟨S2x1x8, .f32⟩ : BufTy).Contents (Elt F)),
    StableHlo.unary main_v0 main_v28 ((extractStridedSlice S2x128x1x1 ![0, 0, 0, 0] · slices_S2x128x1x4_S2x128x1x1_0_0_0_0) : (⟨S2x128x1x4, .f32⟩ : BufTy).Contents (Elt F) → (⟨S2x128x1x1, .f32⟩ : BufTy).Contents (Elt F)),
    StableHlo.reshape main_v28 main_v29 rfl shapeCasts_S2x128x1x1_S2x128x1,
    StableHlo.unary main_v1 main_v30 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F)),
    StableHlo.reshape main_v30 main_v31 rfl shapeCasts_S2x1x8x1_S2x1x8,
    StableHlo.unary main_v29 main_v32 (broadcastInDim S2x128x8 ![0, 1, 2] bcast_S2x128x1_S2x128x8_0_1_2 : (⟨S2x128x1, .f32⟩ : BufTy).Contents (Elt F) → (⟨S2x128x8, .f32⟩ : BufTy).Contents (Elt F)),
    StableHlo.unary main_v31 main_v33 (broadcastInDim S2x128x8 ![0, 1, 2] bcast_S2x1x8_S2x128x8_0_1_2 : (⟨S2x1x8, .f32⟩ : BufTy).Contents (Elt F) → (⟨S2x128x8, .f32⟩ : BufTy).Contents (Elt F)),
    StableHlo.binary main_v32 main_v33 main_v34 (maximumf : (⟨S2x128x8, .f32⟩ : BufTy).Contents (Elt F) → (⟨S2x128x8, .f32⟩ : BufTy).Contents (Elt F) → (⟨S2x128x8, .f32⟩ : BufTy).Contents (Elt F)),
    StableHlo.unary main_v0 main_v35 ((extractStridedSlice S2x128x1x1 ![0, 0, 0, 1] · slices_S2x128x1x4_S2x128x1x1_0_0_0_1) : (⟨S2x128x1x4, .f32⟩ : BufTy).Contents (Elt F) → (⟨S2x128x1x1, .f32⟩ : BufTy).Contents (Elt F)),
    StableHlo.reshape main_v35 main_v36 rfl shapeCasts_S2x128x1x1_S2x128x1,
    StableHlo.unary main_v1 main_v37 ((extractStridedSlice S2x1x8x1 ![0, 0, 0, 1] · slices_S2x1x8x4_S2x1x8x1_0_0_0_1) : (⟨S2x1x8x4, .f32⟩ : BufTy).Contents (Elt F) → (⟨S2x1x8x1, .f32⟩ : BufTy).Contents (Elt F)),
    StableHlo.reshape main_v37 main_v38 rfl shapeCasts_S2x1x8x1_S2x1x8,
    StableHlo.unary main_v36 main_v39 (broadcastInDim S2x128x8 ![0, 1, 2] bcast_S2x128x1_S2x128x8_0_1_2 : (⟨S2x128x1, .f32⟩ : BufTy).Contents (Elt F) → (⟨S2x128x8, .f32⟩ : BufTy).Contents (Elt F)),
    StableHlo.unary main_v38 main_v40 (broadcastInDim S2x128x8 ![0, 1, 2] bcast_S2x1x8_S2x128x8_0_1_2 : (⟨S2x1x8, .f32⟩ : BufTy).Contents (Elt F) → (⟨S2x128x8, .f32⟩ : BufTy).Contents (Elt F)),
    StableHlo.binary main_v39 main_v40 main_v41 (maximumf : (⟨S2x128x8, .f32⟩ : BufTy).Contents (Elt F) → (⟨S2x128x8, .f32⟩ : BufTy).Contents (Elt F) → (⟨S2x128x8, .f32⟩ : BufTy).Contents (Elt F)),
    StableHlo.unary main_v0 main_v42 ((extractStridedSlice S2x128x1x1 ![0, 0, 0, 2] · slices_S2x128x1x4_S2x128x1x1_0_0_0_2) : (⟨S2x128x1x4, .f32⟩ : BufTy).Contents (Elt F) → (⟨S2x128x1x1, .f32⟩ : BufTy).Contents (Elt F)),
    StableHlo.reshape main_v42 main_v43 rfl shapeCasts_S2x128x1x1_S2x128x1,
    StableHlo.unary main_v1 main_v44 ((extractStridedSlice S2x1x8x1 ![0, 0, 0, 2] · slices_S2x1x8x4_S2x1x8x1_0_0_0_2) : (⟨S2x1x8x4, .f32⟩ : BufTy).Contents (Elt F) → (⟨S2x1x8x1, .f32⟩ : BufTy).Contents (Elt F)),
    StableHlo.reshape main_v44 main_v45 rfl shapeCasts_S2x1x8x1_S2x1x8,
    StableHlo.unary main_v43 main_v46 (broadcastInDim S2x128x8 ![0, 1, 2] bcast_S2x128x1_S2x128x8_0_1_2 : (⟨S2x128x1, .f32⟩ : BufTy).Contents (Elt F) → (⟨S2x128x8, .f32⟩ : BufTy).Contents (Elt F)),
    StableHlo.unary main_v45 main_v47 (broadcastInDim S2x128x8 ![0, 1, 2] bcast_S2x1x8_S2x128x8_0_1_2 : (⟨S2x1x8, .f32⟩ : BufTy).Contents (Elt F) → (⟨S2x128x8, .f32⟩ : BufTy).Contents (Elt F)),
    StableHlo.binary main_v46 main_v47 main_v48 (minimumf : (⟨S2x128x8, .f32⟩ : BufTy).Contents (Elt F) → (⟨S2x128x8, .f32⟩ : BufTy).Contents (Elt F) → (⟨S2x128x8, .f32⟩ : BufTy).Contents (Elt F)),
    StableHlo.unary main_v0 main_v49 ((extractStridedSlice S2x128x1x1 ![0, 0, 0, 3] · slices_S2x128x1x4_S2x128x1x1_0_0_0_3) : (⟨S2x128x1x4, .f32⟩ : BufTy).Contents (Elt F) → (⟨S2x128x1x1, .f32⟩ : BufTy).Contents (Elt F)),
    StableHlo.reshape main_v49 main_v50 rfl shapeCasts_S2x128x1x1_S2x128x1,
    StableHlo.unary main_v1 main_v51 ((extractStridedSlice S2x1x8x1 ![0, 0, 0, 3] · slices_S2x1x8x4_S2x1x8x1_0_0_0_3) : (⟨S2x1x8x4, .f32⟩ : BufTy).Contents (Elt F) → (⟨S2x1x8x1, .f32⟩ : BufTy).Contents (Elt F)),
    StableHlo.reshape main_v51 main_v52 rfl shapeCasts_S2x1x8x1_S2x1x8,
    StableHlo.unary main_v50 main_v53 (broadcastInDim S2x128x8 ![0, 1, 2] bcast_S2x128x1_S2x128x8_0_1_2 : (⟨S2x128x1, .f32⟩ : BufTy).Contents (Elt F) → (⟨S2x128x8, .f32⟩ : BufTy).Contents (Elt F)),
    StableHlo.unary main_v52 main_v54 (broadcastInDim S2x128x8 ![0, 1, 2] bcast_S2x1x8_S2x128x8_0_1_2 : (⟨S2x1x8, .f32⟩ : BufTy).Contents (Elt F) → (⟨S2x128x8, .f32⟩ : BufTy).Contents (Elt F)),
    StableHlo.binary main_v53 main_v54 main_v55 (minimumf : (⟨S2x128x8, .f32⟩ : BufTy).Contents (Elt F) → (⟨S2x128x8, .f32⟩ : BufTy).Contents (Elt F) → (⟨S2x128x8, .f32⟩ : BufTy).Contents (Elt F)),
    StableHlo.binary main_v48 main_v34 main_v56 (subf : (⟨S2x128x8, .f32⟩ : BufTy).Contents (Elt F) → (⟨S2x128x8, .f32⟩ : BufTy).Contents (Elt F) → (⟨S2x128x8, .f32⟩ : BufTy).Contents (Elt F)),
    StableHlo.nullary main_cst_1 (constant S_ .f32 0x3F800000#32),
    StableHlo.unary main_cst_1 main_v57 (broadcastInDim S2x128x8 ![] bcast_S_S2x128x8 : (⟨S_, .f32⟩ : BufTy).Contents (Elt F) → (⟨S2x128x8, .f32⟩ : BufTy).Contents (Elt F)),
    StableHlo.binary main_v56 main_v57 main_v58 (addf : (⟨S2x128x8, .f32⟩ : BufTy).Contents (Elt F) → (⟨S2x128x8, .f32⟩ : BufTy).Contents (Elt F) → (⟨S2x128x8, .f32⟩ : BufTy).Contents (Elt F)),
    StableHlo.nullary main_cst_2 (constant S_ .f32 0x00000000#32),
    StableHlo.unary main_cst_2 main_v59 (broadcastInDim S2x128x8 ![] bcast_S_S2x128x8 : (⟨S_, .f32⟩ : BufTy).Contents (Elt F) → (⟨S2x128x8, .f32⟩ : BufTy).Contents (Elt F)),
    StableHlo.binary main_v59 main_v58 main_v60 (maximumf : (⟨S2x128x8, .f32⟩ : BufTy).Contents (Elt F) → (⟨S2x128x8, .f32⟩ : BufTy).Contents (Elt F) → (⟨S2x128x8, .f32⟩ : BufTy).Contents (Elt F)),
    StableHlo.binary main_v55 main_v41 main_v61 (subf : (⟨S2x128x8, .f32⟩ : BufTy).Contents (Elt F) → (⟨S2x128x8, .f32⟩ : BufTy).Contents (Elt F) → (⟨S2x128x8, .f32⟩ : BufTy).Contents (Elt F)),
    StableHlo.nullary main_cst_3 (constant S_ .f32 0x3F800000#32),
    StableHlo.unary main_cst_3 main_v62 (broadcastInDim S2x128x8 ![] bcast_S_S2x128x8 : (⟨S_, .f32⟩ : BufTy).Contents (Elt F) → (⟨S2x128x8, .f32⟩ : BufTy).Contents (Elt F)),
    StableHlo.binary main_v61 main_v62 main_v63 (addf : (⟨S2x128x8, .f32⟩ : BufTy).Contents (Elt F) → (⟨S2x128x8, .f32⟩ : BufTy).Contents (Elt F) → (⟨S2x128x8, .f32⟩ : BufTy).Contents (Elt F)),
    StableHlo.nullary main_cst_4 (constant S_ .f32 0x00000000#32),
    StableHlo.unary main_cst_4 main_v64 (broadcastInDim S2x128x8 ![] bcast_S_S2x128x8 : (⟨S_, .f32⟩ : BufTy).Contents (Elt F) → (⟨S2x128x8, .f32⟩ : BufTy).Contents (Elt F)),
    StableHlo.binary main_v64 main_v63 main_v65 (maximumf : (⟨S2x128x8, .f32⟩ : BufTy).Contents (Elt F) → (⟨S2x128x8, .f32⟩ : BufTy).Contents (Elt F) → (⟨S2x128x8, .f32⟩ : BufTy).Contents (Elt F)),
    StableHlo.binary main_v60 main_v65 main_v66 (mulf : (⟨S2x128x8, .f32⟩ : BufTy).Contents (Elt F) → (⟨S2x128x8, .f32⟩ : BufTy).Contents (Elt F) → (⟨S2x128x8, .f32⟩ : BufTy).Contents (Elt F)),
    StableHlo.unary main_v14 main_v67 (broadcastInDim S2x128x8 ![0, 1, 2] bcast_S2x128x1_S2x128x8_0_1_2 : (⟨S2x128x1, .f32⟩ : BufTy).Contents (Elt F) → (⟨S2x128x8, .f32⟩ : BufTy).Contents (Elt F)),
    StableHlo.unary main_v27 main_v68 (broadcastInDim S2x128x8 ![0, 1, 2] bcast_S2x1x8_S2x128x8_0_1_2 : (⟨S2x1x8, .f32⟩ : BufTy).Contents (Elt F) → (⟨S2x128x8, .f32⟩ : BufTy).Contents (Elt F)),
    StableHlo.binary main_v67 main_v68 main_v69 (addf : (⟨S2x128x8, .f32⟩ : BufTy).Contents (Elt F) → (⟨S2x128x8, .f32⟩ : BufTy).Contents (Elt F) → (⟨S2x128x8, .f32⟩ : BufTy).Contents (Elt F)),
    StableHlo.binary main_v69 main_v66 main_v70 (addf : (⟨S2x128x8, .f32⟩ : BufTy).Contents (Elt F) → (⟨S2x128x8, .f32⟩ : BufTy).Contents (Elt F) → (⟨S2x128x8, .f32⟩ : BufTy).Contents (Elt F)),
    StableHlo.binary main_v66 main_v70 main_v71 (Host.divf : (⟨S2x128x8, .f32⟩ : BufTy).Contents (Elt F) → (⟨S2x128x8, .f32⟩ : BufTy).Contents (Elt F) → (⟨S2x128x8, .f32⟩ : BufTy).Contents (Elt F)),
    StableHlo.nullary main_cst_5 (constant S_ .f32 0x3F000000#32),
    StableHlo.unary main_cst_5 main_v72 (broadcastInDim S2x128x8 ![] bcast_S_S2x128x8 : (⟨S_, .f32⟩ : BufTy).Contents (Elt F) → (⟨S2x128x8, .f32⟩ : BufTy).Contents (Elt F)),
    StableHlo.binary main_v71 main_v72 main_v73 (cmpf .oge : (⟨S2x128x8, .f32⟩ : BufTy).Contents (Elt F) → (⟨S2x128x8, .f32⟩ : BufTy).Contents (Elt F) → (⟨S2x128x8, .i1⟩ : BufTy).Contents (Elt F)) ]

/-- Operations 81 to 109, in order: from `main_v73` and the arguments `main_arg0`, `main_arg1`, `main_arg2` to the six products
    `main_v86`, `main_v89`, `main_v92`, `main_v95`, `main_v98`, `main_v101`. -/
abbrev wB : List (HloOp τ sig (Elt F)) :=
  [ StableHlo.unary main_v73 main_v74 (broadcastInDim S2x128x8x1 ![0, 1, 2] bcast_S2x128x8_S2x128x8x1_0_1_2 : (⟨S2x128x8, .i1⟩ : BufTy).Contents (Elt F) → (⟨S2x128x8x1, .i1⟩ : BufTy).Contents (Elt F)),
    StableHlo.unary main_v74 main_v75 (uitofp .f32 : (⟨S2x128x8x1, .i1⟩ : BufTy).Contents (Elt F) → (⟨S2x128x8x1, .f32⟩ : BufTy).Contents (Elt F)),
    StableHlo.nullary main_cst_6 (constant S_ .f32 0x3F800000#32),
    StableHlo.unary main_cst_6 main_v76 (broadcastInDim S2x128x8x1 ![] bcast_S_S2x128x8x1 : (⟨S_, .f32⟩ : BufTy).Contents (Elt F) → (⟨S2x128x8x1, .f32⟩ : BufTy).Contents (Elt F)),
    StableHlo.binary main_v76 main_v75 main_v77 (subf : (⟨S2x128x8x1, .f32⟩ : BufTy).Contents (Elt F) → (⟨S2x128x8x1, .f32⟩ : BufTy).Contents (Elt F) → (⟨S2x128x8x1, .f32⟩ : BufTy).Contents (Elt F)),
    StableHlo.unary main_arg0 main_v78 (broadcastInDim S2x128x1x4 ![0, 1, 3] bcast_S2x128x4_S2x128x1x4_0_1_3 : (⟨S2x128x4, .f32⟩ : BufTy).Contents (Elt F) → (⟨S2x128x1x4, .f32⟩ : BufTy).Contents (Elt F)),
    StableHlo.unary main_v78 main_v79 (broadcastInDim S2x128x8x4 ![0, 1, 2, 3] bcast_S2x128x1x4_S2x128x8x4_0_1_2_3 : (⟨S2x128x1x4, .f32⟩ : BufTy).Contents (Elt F) → (⟨S2x128x8x4, .f32⟩ : BufTy).Contents (Elt F)),
    StableHlo.unary main_arg1 main_v80 (broadcastInDim S2x1x8x81 ![0, 2, 3] bcast_S2x8x81_S2x1x8x81_0_2_3 : (⟨S2x8x81, .f32⟩ : BufTy).Contents (Elt F) → (⟨S2x1x8x81, .f32⟩ : BufTy).Contents (Elt F)),
    StableHlo.unary main_v80 main_v81 (broadcastInDim S2x128x8x81 ![0, 1, 2, 3] bcast_S2x1x8x81_S2x128x8x81_0_1_2_3 : (⟨S2x1x8x81, .f32⟩ : BufTy).Contents (Elt F) → (⟨S2x128x8x81, .f32⟩ : BufTy).Contents (Elt F)),
    StableHlo.unary main_arg2 main_v82 (broadcastInDim S2x1x8x4 ![0, 2, 3] bcast_S2x8x4_S2x1x8x4_0_2_3 : (⟨S2x8x4, .f32⟩ : BufTy).Contents (Elt F) → (⟨S2x1x8x4, .f32⟩ : BufTy).Contents (Elt F)),
    StableHlo.unary main_v82 main_v83 (broadcastInDim S2x128x8x4 ![0, 1, 2, 3] bcast_S2x1x8x4_S2x128x8x4_0_1_2_3 : (⟨S2x1x8x4, .f32⟩ : BufTy).Contents (Elt F) → (⟨S2x128x8x4, .f32⟩ : BufTy).Contents (Elt F)),
    StableHlo.unary main_v77 main_v84 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F)),
    StableHlo.binary main_v79 main_v84 main_v85 (mulf : (⟨S2x128x8x4, .f32⟩ : BufTy).Contents (Elt F) → (⟨S2x128x8x4, .f32⟩ : BufTy).Contents (Elt F) → (⟨S2x128x8x4, .f32⟩ : BufTy).Contents (Elt F)),
    StableHlo.reshape main_v85 main_v86 rfl shapeCasts_S2x128x8x4_S2x1024x4,
    StableHlo.unary main_v75 main_v87 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F)),
    StableHlo.binary main_v79 main_v87 main_v88 (mulf : (⟨S2x128x8x4, .f32⟩ : BufTy).Contents (Elt F) → (⟨S2x128x8x4, .f32⟩ : BufTy).Contents (Elt F) → (⟨S2x128x8x4, .f32⟩ : BufTy).Contents (Elt F)),
    StableHlo.reshape main_v88 main_v89 rfl shapeCasts_S2x128x8x4_S2x1024x4,
    StableHlo.unary main_v77 main_v90 (broadcastInDim S2x128x8x81 ![0, 1, 2, 3] bcast_S2x128x8x1_S2x128x8x81_0_1_2_3 : (⟨S2x128x8x1, .f32⟩ : BufTy).Contents (Elt F) → (⟨S2x128x8x81, .f32⟩ : BufTy).Contents (Elt F)),
    StableHlo.binary main_v81 main_v90 main_v91 (mulf : (⟨S2x128x8x81, .f32⟩ : BufTy).Contents (Elt F) → (⟨S2x128x8x81, .f32⟩ : BufTy).Contents (Elt F) → (⟨S2x128x8x81, .f32⟩ : BufTy).Contents (Elt F)),
    StableHlo.reshape main_v91 main_v92 rfl shapeCasts_S2x128x8x81_S2x1024x81,
    StableHlo.unary main_v75 main_v93 (broadcastInDim S2x128x8x81 ![0, 1, 2, 3] bcast_S2x128x8x1_S2x128x8x81_0_1_2_3 : (⟨S2x128x8x1, .f32⟩ : BufTy).Contents (Elt F) → (⟨S2x128x8x81, .f32⟩ : BufTy).Contents (Elt F)),
    StableHlo.binary main_v81 main_v93 main_v94 (mulf : (⟨S2x128x8x81, .f32⟩ : BufTy).Contents (Elt F) → (⟨S2x128x8x81, .f32⟩ : BufTy).Contents (Elt F) → (⟨S2x128x8x81, .f32⟩ : BufTy).Contents (Elt F)),
    StableHlo.reshape main_v94 main_v95 rfl shapeCasts_S2x128x8x81_S2x1024x81,
    StableHlo.unary main_v77 main_v96 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F)),
    StableHlo.binary main_v83 main_v96 main_v97 (mulf : (⟨S2x128x8x4, .f32⟩ : BufTy).Contents (Elt F) → (⟨S2x128x8x4, .f32⟩ : BufTy).Contents (Elt F) → (⟨S2x128x8x4, .f32⟩ : BufTy).Contents (Elt F)),
    StableHlo.reshape main_v97 main_v98 rfl shapeCasts_S2x128x8x4_S2x1024x4,
    StableHlo.unary main_v75 main_v99 (broadcastInDim S2x128x8x4 ![0, 1, 2, 3] bcast_S2x128x8x1_S2x128x8x4_0_1_2_3 : (⟨S2x128x8x1, .f32⟩ : BufTy).Contents (Elt F) → (⟨S2x128x8x4, .f32⟩ : BufTy).Contents (Elt F)),
    StableHlo.binary main_v83 main_v99 main_v100 (mulf : (⟨S2x128x8x4, .f32⟩ : BufTy).Contents (Elt F) → (⟨S2x128x8x4, .f32⟩ : BufTy).Contents (Elt F) → (⟨S2x128x8x4, .f32⟩ : BufTy).Contents (Elt F)),
    StableHlo.reshape main_v100 main_v101 rfl shapeCasts_S2x128x8x4_S2x1024x4 ]

/-- Operations 110 to 166, in order: from the six products and the arguments `main_arg4`, `main_arg5` to the three
    concatenations `main_v116`, `main_v131`, `main_v146`. -/
abbrev wC : List (HloOp τ sig (Elt F)) :=
  [ StableHlo.nullary main_c (constantI S_ 32 0#32),
    StableHlo.unary main_c main_v102 (broadcastInDim S768 ![] bcast_S_S768 : (⟨S_, .i32⟩ : BufTy).Contents (Elt F) → (⟨S768, .i32⟩ : BufTy).Contents (Elt F)),
    StableHlo.binary main_arg4 main_v102 main_v103 (cmpi .slt : (⟨S768, .i32⟩ : BufTy).Contents (Elt F) → (⟨S768, .i32⟩ : BufTy).Contents (Elt F) → (⟨S768, .i1⟩ : BufTy).Contents (Elt F)),
    StableHlo.nullary main_c_7 (constantI S_ 32 1024#32),
    StableHlo.unary main_c_7 main_v104 (broadcastInDim S768 ![] bcast_S_S768 : (⟨S_, .i32⟩ : BufTy).Contents (Elt F) → (⟨S768, .i32⟩ : BufTy).Contents (Elt F)),
    StableHlo.binary main_arg4 main_v104 main_v105 (addi : (⟨S768, .i32⟩ : BufTy).Contents (Elt F) → (⟨S768, .i32⟩ : BufTy).Contents (Elt F) → (⟨S768, .i32⟩ : BufTy).Contents (Elt F)),
    StableHlo.ternary main_v103 main_v105 main_arg4 main_v106 (select : (⟨S768, .i1⟩ : BufTy).Contents (Elt F) → (⟨S768, .i32⟩ : BufTy).Contents (Elt F) → (⟨S768, .i32⟩ : BufTy).Contents (Elt F) → (⟨S768, .i32⟩ : BufTy).Contents (Elt F)),
    StableHlo.unary main_v106 main_v107 (broadcastInDim S768x1 ![0] bcast_S768_S768x1_0 : (⟨S768, .i32⟩ : BufTy).Contents (Elt F) → (⟨S768x1, .i32⟩ : BufTy).Contents (Elt F)),
    StableHlo.binary main_v86 main_v107 main_v108 ((fun x i => Host.gather gather_S2x1024x4_S768x1_S2x768x4_02_1_n_n_1_1_214 x i) : (⟨S2x1024x4, .f32⟩ : BufTy).Contents (Elt F) → (⟨S768x1, .i32⟩ : BufTy).Contents (Elt F) → (⟨S2x768x4, .f32⟩ : BufTy).Contents (Elt F)),
    StableHlo.nullary main_c_8 (constantI S_ 32 0#32),
    StableHlo.unary main_c_8 main_v109 (broadcastInDim S256 ![] bcast_S_S256 : (⟨S_, .i32⟩ : BufTy).Contents (Elt F) → (⟨S256, .i32⟩ : BufTy).Contents (Elt F)),
    StableHlo.binary main_arg5 main_v109 main_v110 (cmpi .slt : (⟨S256, .i32⟩ : BufTy).Contents (Elt F) → (⟨S256, .i32⟩ : BufTy).Contents (Elt F) → (⟨S256, .i1⟩ : BufTy).Contents (Elt F)),
    StableHlo.nullary main_c_9 (constantI S_ 32 1024#32),
    StableHlo.unary main_c_9 main_v111 (broadcastInDim S256 ![] bcast_S_S256 : (⟨S_, .i32⟩ : BufTy).Contents (Elt F) → (⟨S256, .i32⟩ : BufTy).Contents (Elt F)),
    StableHlo.binary main_arg5 main_v111 main_v112 (addi : (⟨S256, .i32⟩ : BufTy).Contents (Elt F) → (⟨S256, .i32⟩ : BufTy).Contents (Elt F) → (⟨S256, .i32⟩ : BufTy).Contents (Elt F)),
    StableHlo.ternary main_v110 main_v112 main_arg5 main_v113 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v113 main_v114 (broadcastInDim S256x1 ![0] bcast_S256_S256x1_0 : (⟨S256, .i32⟩ : BufTy).Contents (Elt F) → (⟨S256x1, .i32⟩ : BufTy).Contents (Elt F)),
    StableHlo.binary main_v89 main_v114 main_v115 ((fun x i => Host.gather gather_S2x1024x4_S256x1_S2x256x4_02_1_n_n_1_1_214 x i) : (⟨S2x1024x4, .f32⟩ : BufTy).Contents (Elt F) → (⟨S256x1, .i32⟩ : BufTy).Contents (Elt F) → (⟨S2x256x4, .f32⟩ : BufTy).Contents (Elt F)),
    StableHlo.binary main_v108 main_v115 main_v116 ((fun a b => concatenate S2x1024x4 1 [⟨S2x768x4, a⟩, ⟨S2x256x4, b⟩] concatenates_S2x768x4_S2x256x4_S2x1024x4_d1) : (⟨S2x768x4, .f32⟩ : BufTy).Contents (Elt F) → (⟨S2x256x4, .f32⟩ : BufTy).Contents (Elt F) → (⟨S2x1024x4, .f32⟩ : BufTy).Contents (Elt F)),
    StableHlo.nullary main_c_10 (constantI S_ 32 0#32),
    StableHlo.unary main_c_10 main_v117 (broadcastInDim S768 ![] bcast_S_S768 : (⟨S_, .i32⟩ : BufTy).Contents (Elt F) → (⟨S768, .i32⟩ : BufTy).Contents (Elt F)),
    StableHlo.binary main_arg4 main_v117 main_v118 (cmpi .slt : (⟨S768, .i32⟩ : BufTy).Contents (Elt F) → (⟨S768, .i32⟩ : BufTy).Contents (Elt F) → (⟨S768, .i1⟩ : BufTy).Contents (Elt F)),
    StableHlo.nullary main_c_11 (constantI S_ 32 1024#32),
    StableHlo.unary main_c_11 main_v119 (broadcastInDim S768 ![] bcast_S_S768 : (⟨S_, .i32⟩ : BufTy).Contents (Elt F) → (⟨S768, .i32⟩ : BufTy).Contents (Elt F)),
    StableHlo.binary main_arg4 main_v119 main_v120 (addi : (⟨S768, .i32⟩ : BufTy).Contents (Elt F) → (⟨S768, .i32⟩ : BufTy).Contents (Elt F) → (⟨S768, .i32⟩ : BufTy).Contents (Elt F)),
    StableHlo.ternary main_v118 main_v120 main_arg4 main_v121 (select : (⟨S768, .i1⟩ : BufTy).Contents (Elt F) → (⟨S768, .i32⟩ : BufTy).Contents (Elt F) → (⟨S768, .i32⟩ : BufTy).Contents (Elt F) → (⟨S768, .i32⟩ : BufTy).Contents (Elt F)),
    StableHlo.unary main_v121 main_v122 (broadcastInDim S768x1 ![0] bcast_S768_S768x1_0 : (⟨S768, .i32⟩ : BufTy).Contents (Elt F) → (⟨S768x1, .i32⟩ : BufTy).Contents (Elt F)),
    StableHlo.binary main_v92 main_v122 main_v123 ((fun x i => Host.gather gather_S2x1024x81_S768x1_S2x768x81_02_1_n_n_1_1_2181 x i) : (⟨S2x1024x81, .f32⟩ : BufTy).Contents (Elt F) → (⟨S768x1, .i32⟩ : BufTy).Contents (Elt F) → (⟨S2x768x81, .f32⟩ : BufTy).Contents (Elt F)),
    StableHlo.nullary main_c_12 (constantI S_ 32 0#32),
    StableHlo.unary main_c_12 main_v124 (broadcastInDim S256 ![] bcast_S_S256 : (⟨S_, .i32⟩ : BufTy).Contents (Elt F) → (⟨S256, .i32⟩ : BufTy).Contents (Elt F)),
    StableHlo.binary main_arg5 main_v124 main_v125 (cmpi .slt : (⟨S256, .i32⟩ : BufTy).Contents (Elt F) → (⟨S256, .i32⟩ : BufTy).Contents (Elt F) → (⟨S256, .i1⟩ : BufTy).Contents (Elt F)),
    StableHlo.nullary main_c_13 (constantI S_ 32 1024#32),
    StableHlo.unary main_c_13 main_v126 (broadcastInDim S256 ![] bcast_S_S256 : (⟨S_, .i32⟩ : BufTy).Contents (Elt F) → (⟨S256, .i32⟩ : BufTy).Contents (Elt F)),
    StableHlo.binary main_arg5 main_v126 main_v127 (addi : (⟨S256, .i32⟩ : BufTy).Contents (Elt F) → (⟨S256, .i32⟩ : BufTy).Contents (Elt F) → (⟨S256, .i32⟩ : BufTy).Contents (Elt F)),
    StableHlo.ternary main_v125 main_v127 main_arg5 main_v128 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v128 main_v129 (broadcastInDim S256x1 ![0] bcast_S256_S256x1_0 : (⟨S256, .i32⟩ : BufTy).Contents (Elt F) → (⟨S256x1, .i32⟩ : BufTy).Contents (Elt F)),
    StableHlo.binary main_v95 main_v129 main_v130 ((fun x i => Host.gather gather_S2x1024x81_S256x1_S2x256x81_02_1_n_n_1_1_2181 x i) : (⟨S2x1024x81, .f32⟩ : BufTy).Contents (Elt F) → (⟨S256x1, .i32⟩ : BufTy).Contents (Elt F) → (⟨S2x256x81, .f32⟩ : BufTy).Contents (Elt F)),
    StableHlo.binary main_v123 main_v130 main_v131 ((fun a b => concatenate S2x1024x81 1 [⟨S2x768x81, a⟩, ⟨S2x256x81, b⟩] concatenates_S2x768x81_S2x256x81_S2x1024x81_d1) : (⟨S2x768x81, .f32⟩ : BufTy).Contents (Elt F) → (⟨S2x256x81, .f32⟩ : BufTy).Contents (Elt F) → (⟨S2x1024x81, .f32⟩ : BufTy).Contents (Elt F)),
    StableHlo.nullary main_c_14 (constantI S_ 32 0#32),
    StableHlo.unary main_c_14 main_v132 (broadcastInDim S768 ![] bcast_S_S768 : (⟨S_, .i32⟩ : BufTy).Contents (Elt F) → (⟨S768, .i32⟩ : BufTy).Contents (Elt F)),
    StableHlo.binary main_arg4 main_v132 main_v133 (cmpi .slt : (⟨S768, .i32⟩ : BufTy).Contents (Elt F) → (⟨S768, .i32⟩ : BufTy).Contents (Elt F) → (⟨S768, .i1⟩ : BufTy).Contents (Elt F)),
    StableHlo.nullary main_c_15 (constantI S_ 32 1024#32),
    StableHlo.unary main_c_15 main_v134 (broadcastInDim S768 ![] bcast_S_S768 : (⟨S_, .i32⟩ : BufTy).Contents (Elt F) → (⟨S768, .i32⟩ : BufTy).Contents (Elt F)),
    StableHlo.binary main_arg4 main_v134 main_v135 (addi : (⟨S768, .i32⟩ : BufTy).Contents (Elt F) → (⟨S768, .i32⟩ : BufTy).Contents (Elt F) → (⟨S768, .i32⟩ : BufTy).Contents (Elt F)),
    StableHlo.ternary main_v133 main_v135 main_arg4 main_v136 (select : (⟨S768, .i1⟩ : BufTy).Contents (Elt F) → (⟨S768, .i32⟩ : BufTy).Contents (Elt F) → (⟨S768, .i32⟩ : BufTy).Contents (Elt F) → (⟨S768, .i32⟩ : BufTy).Contents (Elt F)),
    StableHlo.unary main_v136 main_v137 (broadcastInDim S768x1 ![0] bcast_S768_S768x1_0 : (⟨S768, .i32⟩ : BufTy).Contents (Elt F) → (⟨S768x1, .i32⟩ : BufTy).Contents (Elt F)),
    StableHlo.binary main_v98 main_v137 main_v138 ((fun x i => Host.gather gather_S2x1024x4_S768x1_S2x768x4_02_1_n_n_1_1_214 x i) : (⟨S2x1024x4, .f32⟩ : BufTy).Contents (Elt F) → (⟨S768x1, .i32⟩ : BufTy).Contents (Elt F) → (⟨S2x768x4, .f32⟩ : BufTy).Contents (Elt F)),
    StableHlo.nullary main_c_16 (constantI S_ 32 0#32),
    StableHlo.unary main_c_16 main_v139 (broadcastInDim S256 ![] bcast_S_S256 : (⟨S_, .i32⟩ : BufTy).Contents (Elt F) → (⟨S256, .i32⟩ : BufTy).Contents (Elt F)),
    StableHlo.binary main_arg5 main_v139 main_v140 (cmpi .slt : (⟨S256, .i32⟩ : BufTy).Contents (Elt F) → (⟨S256, .i32⟩ : BufTy).Contents (Elt F) → (⟨S256, .i1⟩ : BufTy).Contents (Elt F)),
    StableHlo.nullary main_c_17 (constantI S_ 32 1024#32),
    StableHlo.unary main_c_17 main_v141 (broadcastInDim S256 ![] bcast_S_S256 : (⟨S_, .i32⟩ : BufTy).Contents (Elt F) → (⟨S256, .i32⟩ : BufTy).Contents (Elt F)),
    StableHlo.binary main_arg5 main_v141 main_v142 (addi : (⟨S256, .i32⟩ : BufTy).Contents (Elt F) → (⟨S256, .i32⟩ : BufTy).Contents (Elt F) → (⟨S256, .i32⟩ : BufTy).Contents (Elt F)),
    StableHlo.ternary main_v140 main_v142 main_arg5 main_v143 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v143 main_v144 (broadcastInDim S256x1 ![0] bcast_S256_S256x1_0 : (⟨S256, .i32⟩ : BufTy).Contents (Elt F) → (⟨S256x1, .i32⟩ : BufTy).Contents (Elt F)),
    StableHlo.binary main_v101 main_v144 main_v145 ((fun x i => Host.gather gather_S2x1024x4_S256x1_S2x256x4_02_1_n_n_1_1_214 x i) : (⟨S2x1024x4, .f32⟩ : BufTy).Contents (Elt F) → (⟨S256x1, .i32⟩ : BufTy).Contents (Elt F) → (⟨S2x256x4, .f32⟩ : BufTy).Contents (Elt F)),
    StableHlo.binary main_v138 main_v145 main_v146 ((fun a b => concatenate S2x1024x4 1 [⟨S2x768x4, a⟩, ⟨S2x256x4, b⟩] concatenates_S2x768x4_S2x256x4_S2x1024x4_d1) : (⟨S2x768x4, .f32⟩ : BufTy).Contents (Elt F) → (⟨S2x256x4, .f32⟩ : BufTy).Contents (Elt F) → (⟨S2x1024x4, .f32⟩ : BufTy).Contents (Elt F)) ]

/-- Operations 167 to 189, in order, the two calls written out as the callee's operations (1 + 17 + 1 + 21 + 19 = 59):
    the floored quotient `main_v147` and the remainder `main_v148` of `main_arg5` by 8, then from `main_v73` and these the gate `main_v163`. -/
abbrev wD : List (HloOp τ sig (Elt F)) :=
  [ StableHlo.nullary main_c_18 (constantI S_ 32 8#32),
    StableHlo.TRef.unary (.of main_c_18 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S256, .i32⟩) (broadcastInDim S256 ![] bcast_S_S256),
    StableHlo.TRef.binary (.of main_arg5 : StableHlo.TRef sig ⟨S256, .i32⟩) (.of main_call0_v1 : StableHlo.TRef sig ⟨S256, .i32⟩) (.of main_call0_v2 : StableHlo.TRef sig ⟨S256, .i32⟩) Host.divsi,
    StableHlo.TRef.unary (.of main_arg5 : StableHlo.TRef sig ⟨S256, .i32⟩) (.of main_call0_v3 : StableHlo.TRef sig ⟨S256, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S256, .i32⟩) (broadcastInDim S256 ![] bcast_S_S256),
    StableHlo.TRef.binary (.of main_call0_v3 : StableHlo.TRef sig ⟨S256, .i32⟩) (.of main_call0_v5 : StableHlo.TRef sig ⟨S256, .i32⟩) (.of main_call0_v6 : StableHlo.TRef sig ⟨S256, .i1⟩) (cmpi .ne),
    StableHlo.TRef.unary (.of main_call0_v0 : StableHlo.TRef sig ⟨S_, .i32⟩) (.of main_call0_v7 : StableHlo.TRef sig ⟨S256, .i32⟩) (broadcastInDim S256 ![] bcast_S_S256),
    StableHlo.TRef.binary (.of main_arg5 : StableHlo.TRef sig ⟨S256, .i32⟩) (.of main_call0_v7 : StableHlo.TRef sig ⟨S256, .i32⟩) (.of main_call0_v8 : StableHlo.TRef sig ⟨S256, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S256, .i32⟩) (broadcastInDim S256 ![] bcast_S_S256),
    StableHlo.TRef.binary (.of main_call0_v8 : StableHlo.TRef sig ⟨S256, .i32⟩) (.of main_call0_v9 : StableHlo.TRef sig ⟨S256, .i32⟩) (.of main_call0_v10 : StableHlo.TRef sig ⟨S256, .i1⟩) (cmpi .ne),
    StableHlo.TRef.binary (.of main_call0_v6 : StableHlo.TRef sig ⟨S256, .i1⟩) (.of main_call0_v10 : StableHlo.TRef sig ⟨S256, .i1⟩) (.of main_call0_v11 : StableHlo.TRef sig ⟨S256, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S256, .i32⟩) (broadcastInDim S256 ![] bcast_S_S256),
    StableHlo.TRef.binary (.of main_call0_v2 : StableHlo.TRef sig ⟨S256, .i32⟩) (.of main_call0_v12 : StableHlo.TRef sig ⟨S256, .i32⟩) (.of main_call0_v13 : StableHlo.TRef sig ⟨S256, .i32⟩) subi,
    StableHlo.TRef.ternary (.of main_call0_v11 : StableHlo.TRef sig ⟨S256, .i1⟩) (.of main_call0_v13 : StableHlo.TRef sig ⟨S256, .i32⟩) (.of main_call0_v2 : StableHlo.TRef sig ⟨S256, .i32⟩) (.of main_v147 : StableHlo.TRef sig ⟨S256, .i32⟩) select,
    StableHlo.nullary main_c_19 (constantI S_ 32 8#32),
    StableHlo.TRef.unary (.of main_c_19 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S256, .i32⟩) (broadcastInDim S256 ![] bcast_S_S256),
    StableHlo.TRef.binary (.of main_arg5 : StableHlo.TRef sig ⟨S256, .i32⟩) (.of main_call1_v3 : StableHlo.TRef sig ⟨S256, .i32⟩) (.of main_call1_v4 : StableHlo.TRef sig ⟨S256, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S256, .i32⟩) (broadcastInDim S256 ![] bcast_S_S256),
    StableHlo.TRef.binary (.of main_call1_v4 : StableHlo.TRef sig ⟨S256, .i32⟩) (.of main_call1_v5 : StableHlo.TRef sig ⟨S256, .i32⟩) (.of main_call1_v6 : StableHlo.TRef sig ⟨S256, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S256, .i32⟩) (broadcastInDim S256 ![] bcast_S_S256),
    StableHlo.TRef.binary (.of main_call1_v4 : StableHlo.TRef sig ⟨S256, .i32⟩) (.of main_call1_v7 : StableHlo.TRef sig ⟨S256, .i32⟩) (.of main_call1_v8 : StableHlo.TRef sig ⟨S256, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S256, .i1⟩) (broadcastInDim S256 ![] bcast_S_S256),
    StableHlo.TRef.binary (.of main_call1_v8 : StableHlo.TRef sig ⟨S256, .i1⟩) (.of main_call1_v10 : StableHlo.TRef sig ⟨S256, .i1⟩) (.of main_call1_v11 : StableHlo.TRef sig ⟨S256, .i1⟩) (cmpi .ne),
    StableHlo.TRef.binary (.of main_call1_v11 : StableHlo.TRef sig ⟨S256, .i1⟩) (.of main_call1_v6 : StableHlo.TRef sig ⟨S256, .i1⟩) (.of main_call1_v12 : StableHlo.TRef sig ⟨S256, .i1⟩) andi,
    StableHlo.TRef.unary main_call1_call0.v0 (.of main_call1_v13 : StableHlo.TRef sig ⟨S256, .i32⟩) (broadcastInDim S256 ![] bcast_S_S256),
    StableHlo.TRef.binary (.of main_call1_v4 : StableHlo.TRef sig ⟨S256, .i32⟩) (.of main_call1_v13 : StableHlo.TRef sig ⟨S256, .i32⟩) (.of main_call1_v14 : StableHlo.TRef sig ⟨S256, .i32⟩) addi,
    StableHlo.TRef.ternary (.of main_call1_v12 : StableHlo.TRef sig ⟨S256, .i1⟩) (.of main_call1_v14 : StableHlo.TRef sig ⟨S256, .i32⟩) (.of main_call1_v4 : StableHlo.TRef sig ⟨S256, .i32⟩) (.of main_v148 : StableHlo.TRef sig ⟨S256, .i32⟩) select,
    StableHlo.nullary main_c_20 (constantI S_ 32 0#32),
    StableHlo.unary main_c_20 main_v149 (broadcastInDim S256 ![] bcast_S_S256 : (⟨S_, .i32⟩ : BufTy).Contents (Elt F) → (⟨S256, .i32⟩ : BufTy).Contents (Elt F)),
    StableHlo.binary main_v147 main_v149 main_v150 (cmpi .slt : (⟨S256, .i32⟩ : BufTy).Contents (Elt F) → (⟨S256, .i32⟩ : BufTy).Contents (Elt F) → (⟨S256, .i1⟩ : BufTy).Contents (Elt F)),
    StableHlo.nullary main_c_21 (constantI S_ 32 128#32),
    StableHlo.unary main_c_21 main_v151 (broadcastInDim S256 ![] bcast_S_S256 : (⟨S_, .i32⟩ : BufTy).Contents (Elt F) → (⟨S256, .i32⟩ : BufTy).Contents (Elt F)),
    StableHlo.binary main_v147 main_v151 main_v152 (addi : (⟨S256, .i32⟩ : BufTy).Contents (Elt F) → (⟨S256, .i32⟩ : BufTy).Contents (Elt F) → (⟨S256, .i32⟩ : BufTy).Contents (Elt F)),
    StableHlo.ternary main_v150 main_v152 main_v147 main_v153 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.nullary main_c_22 (constantI S_ 32 0#32),
    StableHlo.unary main_c_22 main_v154 (broadcastInDim S256 ![] bcast_S_S256 : (⟨S_, .i32⟩ : BufTy).Contents (Elt F) → (⟨S256, .i32⟩ : BufTy).Contents (Elt F)),
    StableHlo.binary main_v148 main_v154 main_v155 (cmpi .slt : (⟨S256, .i32⟩ : BufTy).Contents (Elt F) → (⟨S256, .i32⟩ : BufTy).Contents (Elt F) → (⟨S256, .i1⟩ : BufTy).Contents (Elt F)),
    StableHlo.nullary main_c_23 (constantI S_ 32 8#32),
    StableHlo.unary main_c_23 main_v156 (broadcastInDim S256 ![] bcast_S_S256 : (⟨S_, .i32⟩ : BufTy).Contents (Elt F) → (⟨S256, .i32⟩ : BufTy).Contents (Elt F)),
    StableHlo.binary main_v148 main_v156 main_v157 (addi : (⟨S256, .i32⟩ : BufTy).Contents (Elt F) → (⟨S256, .i32⟩ : BufTy).Contents (Elt F) → (⟨S256, .i32⟩ : BufTy).Contents (Elt F)),
    StableHlo.ternary main_v155 main_v157 main_v148 main_v158 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v153 main_v159 (broadcastInDim S256x1 ![0] bcast_S256_S256x1_0 : (⟨S256, .i32⟩ : BufTy).Contents (Elt F) → (⟨S256x1, .i32⟩ : BufTy).Contents (Elt F)),
    StableHlo.unary main_v158 main_v160 (broadcastInDim S256x1 ![0] bcast_S256_S256x1_0 : (⟨S256, .i32⟩ : BufTy).Contents (Elt F) → (⟨S256x1, .i32⟩ : BufTy).Contents (Elt F)),
    StableHlo.binary main_v159 main_v160 main_v161 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    StableHlo.binary main_v73 main_v161 main_v162 ((fun x i => Host.gather gather_S2x128x8_S256x2_S2x256_0_12_n_n_12_1_211 x i) : (⟨S2x128x8, .i1⟩ : BufTy).Contents (Elt F) → (⟨S256x2, .i32⟩ : BufTy).Contents (Elt F) → (⟨S2x256, .i1⟩ : BufTy).Contents (Elt F)),
    StableHlo.unary main_v162 main_v163 (uitofp .f32 : (⟨S2x256, .i1⟩ : BufTy).Contents (Elt F) → (⟨S2x256, .f32⟩ : BufTy).Contents (Elt F)) ]

end Cert.KernelIdeal.Hand

end
-- ==== Proof.KerRun.lean ====
/-
  The idealized kernel program's run, read at its four results. Three results are computed by host operations before the
  region and are found after the run as the region found them; the fourth is the region's output array — the
  row-selecting product — reshaped from [2, 256, 147456] to [2, 256, 384, 384]. The contents the region finds are those
  left by the operations the two programs share, followed by the kernel program's own twelve (the one-hot table, the
  selector, the flattened masks).
-/
import proofs.«172312_j89326729822373_2_alg».proof.Proof.Gen.KernelIdeal.Frame
import proofs.«172312_j89326729822373_2_alg».proof.Proof.KerValue
import proofs.«172312_j89326729822373_2_alg».proof.Proof.KerOps
import proofs.«172312_j89326729822373_2_alg».proof.Proof.LibAfter

set_option maxRecDepth 16384

noncomputable section

namespace Cert.KernelIdeal.HandValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The operation after the region leaves the earlier results alone and reshapes the output array -/

theorem tail_v116 (c : Dev nD) : Pipeline.afterTail₀ cfgs (dats m) 0 (V0 m) [hostOps1] c main_v116 = V m c main_v116 := by
  unfold Pipeline.afterTail₀
  show StableHlo.after hostOps1 _ (Proc.devRef .tc main_v116) = _
  after_results
  exact Pipeline.withArrays_of_ne spec0 c (V0 m c) _ main_v116 (by decide)

theorem tail_v131 (c : Dev nD) : Pipeline.afterTail₀ cfgs (dats m) 0 (V0 m) [hostOps1] c main_v131 = V m c main_v131 := by
  unfold Pipeline.afterTail₀
  show StableHlo.after hostOps1 _ (Proc.devRef .tc main_v131) = _
  after_results
  exact Pipeline.withArrays_of_ne spec0 c (V0 m c) _ main_v131 (by decide)

theorem tail_v146 (c : Dev nD) : Pipeline.afterTail₀ cfgs (dats m) 0 (V0 m) [hostOps1] c main_v146 = V m c main_v146 := by
  unfold Pipeline.afterTail₀
  show StableHlo.after hostOps1 _ (Proc.devRef .tc main_v146) = _
  after_results
  exact Pipeline.withArrays_of_ne spec0 c (V0 m c) _ main_v146 (by decide)

theorem tail_v172 (c : Dev nD) : Pipeline.afterTail₀ cfgs (dats m) 0 (V0 m) [hostOps1] c main_v172
    = shapeCast S2x256x384x384 (G m c) shapeCasts_S2x256x147456_S2x256x384x384 := by
  unfold Pipeline.afterTail₀
  show StableHlo.after hostOps1 _ (Proc.devRef .tc main_v172) = _
  after_results
  have hw : Pipeline.withArrays (cfgs 0).spec c (V0 m c) (fun w => (dats m 0 c).arrAt w (cfgs 0).N) (Proc.devRef .tc main_v171) = G m c :=
    (Pipeline.withArrays_arr spec0 launch0.win.arr_inj c _ _ 2).trans (final m c)
  rw [hw]
  rfl

/-! ## The run -/

/-- Every weakly fair execution of the idealized kernel program terminates with the three early results as the region
    found them, the fourth the reshaped row-selecting product, and the arguments unchanged. -/
theorem run : θ_run defs (onTc (τ := τ) (main (F := Ideal))) ⟨m, fun _ => 0, ρ⟩ fun r => ∀ c : Dev nD,
      r.2.mem ((c.tc : Thread nD τ).loc main_v116) = V m c main_v116
      ∧ r.2.mem ((c.tc : Thread nD τ).loc main_v131) = V m c main_v131
      ∧ r.2.mem ((c.tc : Thread nD τ).loc main_v146) = V m c main_v146
      ∧ r.2.mem ((c.tc : Thread nD τ).loc main_v172) = shapeCast S2x256x384x384 (G m c) shapeCasts_S2x256x147456_S2x256x384x384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v116 (Pipeline.mem_restRefs_of main_v116 (by decide) (by decide))).trans (tail_v116 m c),
      ((h c).2 main_v131 (Pipeline.mem_restRefs_of main_v131 (by decide) (by decide))).trans (tail_v131 m c),
      ((h c).2 main_v146 (Pipeline.mem_restRefs_of main_v146 (by decide) (by decide))).trans (tail_v146 m c),
      ((h c).2 main_v172 (Pipeline.mem_restRefs_of main_v172 (by decide) (by decide))).trans (tail_v172 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ## The contents the region finds: the shared prefix, then the kernel program's own operations -/

/-- Core `c`'s contents after the operations the two programs share. -/
def PK (c : Dev nD) : Valuation τ sig (Elt Ideal) :=
  after Cert.KernelIdeal.Hand.wD (after Cert.KernelIdeal.Hand.wC (after Cert.KernelIdeal.Hand.wB (after Cert.KernelIdeal.Hand.wA (fun b => m (c, b)))))

/-- The host operations before the region, stretch by stretch as the frame lists them, are the four shared windows
    followed by the kernel program's own twelve operations: the same operations in the same order. -/
theorem hostOps_eq : (List.flatten [hostOps0, hostOps0_1, hostOps0_2, hostOps0_3, hostOps0_4, hostOps0_5, hostOps0_6] : List (HloOp τ sig (Elt Ideal)))
    = Cert.KernelIdeal.Hand.wA ++ (Cert.KernelIdeal.Hand.wB ++ (Cert.KernelIdeal.Hand.wC ++ (Cert.KernelIdeal.Hand.wD ++ (hostOps0_5 ++ hostOps0_6)))) := rfl

theorem V0_eq (c : Dev nD) : V0 m c = after (hostOps0_5 ++ hostOps0_6) (PK m c) := by
  show StableHlo.after (List.flatten [hostOps0, hostOps0_1, hostOps0_2, hostOps0_3, hostOps0_4, hostOps0_5, hostOps0_6]) (fun b => m (c, b)) = _
  rw [hostOps_eq, after_append, after_append, after_append, after_append]
  rfl

end Cert.KernelIdeal.HandValue

end
-- ==== Proof.KerRead.lean ====
/-
  The contents the region finds, read through the kernel program's own twelve operations before it: they write only
  the one-hot table, the selector and the flattened masks, so every value of the shared prefix — the three early
  results, the gate, the row numbers, the mask argument — is found as the shared prefix left it. The row numbers
  themselves are written inside the prefix's last stretch by the remainder's operations, after which nothing of the
  stretch touches them.
-/
import proofs.«172312_j89326729822373_2_alg».proof.Proof.KerRun

set_option maxRecDepth 16384

noncomputable section

namespace Cert.KernelIdeal.HandValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

theorem V_v116 (c : Dev nD) : V m c main_v116 = PK m c (Proc.devRef .tc main_v116) := by
  show V0 m c (Proc.devRef .tc main_v116) = _
  rw [V0_eq]
  simp only [hostOps0_5, hostOps0_6, List.cons_append, List.nil_append]
  after_results

theorem V_v131 (c : Dev nD) : V m c main_v131 = PK m c (Proc.devRef .tc main_v131) := by
  show V0 m c (Proc.devRef .tc main_v131) = _
  rw [V0_eq]
  simp only [hostOps0_5, hostOps0_6, List.cons_append, List.nil_append]
  after_results

theorem V_v146 (c : Dev nD) : V m c main_v146 = PK m c (Proc.devRef .tc main_v146) := by
  show V0 m c (Proc.devRef .tc main_v146) = _
  rw [V0_eq]
  simp only [hostOps0_5, hostOps0_6, List.cons_append, List.nil_append]
  after_results

/-- The mask argument is as launched when the shared prefix ends. -/
theorem PK_arg3 (c : Dev nD) : PK m c (Proc.devRef .tc main_arg3) = m ((c : Thread nD τ).loc main_arg3) := by
  have h2 : V m c main_arg3 = PK m c (Proc.devRef .tc main_arg3) := by
    show V0 m c (Proc.devRef .tc main_arg3) = _
    rw [V0_eq]
    simp only [hostOps0_5, hostOps0_6, List.cons_append, List.nil_append]
    after_results
  exact h2.symm.trans (V_main_arg3 m c)

/-- The prefix's last window as its stretches: the constant 8, the floor division, the remainder (its constant and its
    twenty-one operations), and the nineteen operations after them. -/
theorem wD_eq : (Cert.KernelIdeal.Hand.wD : List (HloOp τ sig (Elt Ideal)))
    = [StableHlo.nullary main_c_18 (constantI S_ 32 8#32)] ++ (hostOps0_1 ++ ((hostOps0_2 ++ hostOps0_3) ++ hostOps0_4)) := rfl

/-- The row numbers the shared prefix leaves are what the remainder's operations computed, from whatever contents they
    started at. -/
theorem PK_v148 (c : Dev nD) : ∃ Z : Valuation τ sig (Elt Ideal),
    PK m c (Proc.devRef .tc main_v148) = after (hostOps0_2 ++ hostOps0_3) Z (Proc.devRef .tc main_v148) := by
  refine ⟨after hostOps0_1 (after [StableHlo.nullary main_c_18 (constantI S_ 32 8#32)] (after Cert.KernelIdeal.Hand.wC (after Cert.KernelIdeal.Hand.wB (after Cert.KernelIdeal.Hand.wA (fun b => m (c, b)))))), ?_⟩
  unfold PK
  rw [wD_eq, after_append, after_append, after_append]
  generalize after (hostOps0_2 ++ hostOps0_3) _ = Y
  simp only [hostOps0_4]
  after_results

end Cert.KernelIdeal.HandValue

end
-- ==== Proof.RefRead.lean ====
/-
  The idealized reference's final contents, read through its own last twelve operations: they write only the
  normalized row numbers, the gathered masks, the broadcast gate and the product, so the three early results — and the
  row numbers, the gate and the mask argument the product is made of — are as the shared prefix left them.
-/
import proofs.«172312_j89326729822373_2_alg».proof.Proof.RefOps
import proofs.«172312_j89326729822373_2_alg».proof.Proof.RefRun
import proofs.«172312_j89326729822373_2_alg».proof.Proof.LibAfter
import Idealize.ShloMosaic.PureOps.Ideal

set_option maxRecDepth 16384

noncomputable section

namespace Cert.ReferenceIdeal.HandValue

open Cert.ReferenceIdeal Cert.ReferenceIdeal.Gen Idealize.ShloMosaic Idealize.ShloMosaic.TcCoe Idealize.SL.Sem
open Idealize.ShloMosaic.StableHlo

variable (m : (ℓ : Loc nD τ sig) → Buf (Elt Ideal) ℓ)

/-- Core `c`'s contents after the operations the two programs share. -/
def PR (c : Dev nD) : Valuation τ sig (Elt Ideal) :=
  after Cert.ReferenceIdeal.Hand.wD (after Cert.ReferenceIdeal.Hand.wC (after Cert.ReferenceIdeal.Hand.wB (after Cert.ReferenceIdeal.Hand.wA (launchContents m c))))

theorem ops_eq (c : Dev nD) : after Cert.ReferenceIdeal.Hand.ops (launchContents m c) = after Cert.ReferenceIdeal.Hand.wT (PR m c) := by
  show after (Cert.ReferenceIdeal.Hand.wA ++ (Cert.ReferenceIdeal.Hand.wB ++ (Cert.ReferenceIdeal.Hand.wC ++ (Cert.ReferenceIdeal.Hand.wD ++ Cert.ReferenceIdeal.Hand.wT)))) _ = _
  rw [after_append, after_append, after_append, after_append]
  rfl

theorem R_v116 (c : Dev nD) : after Cert.ReferenceIdeal.Hand.ops (launchContents m c) (Proc.devRef .tc main_v116) = PR m c (Proc.devRef .tc main_v116) := by
  rw [ops_eq]
  simp only [Cert.ReferenceIdeal.Hand.wT, Cert.ReferenceIdeal.Hand.p3b]
  after_results

theorem R_v131 (c : Dev nD) : after Cert.ReferenceIdeal.Hand.ops (launchContents m c) (Proc.devRef .tc main_v131) = PR m c (Proc.devRef .tc main_v131) := by
  rw [ops_eq]
  simp only [Cert.ReferenceIdeal.Hand.wT, Cert.ReferenceIdeal.Hand.p3b]
  after_results

theorem R_v146 (c : Dev nD) : after Cert.ReferenceIdeal.Hand.ops (launchContents m c) (Proc.devRef .tc main_v146) = PR m c (Proc.devRef .tc main_v146) := by
  rw [ops_eq]
  simp only [Cert.ReferenceIdeal.Hand.wT, Cert.ReferenceIdeal.Hand.p3b]
  after_results

/-- The mask argument is as launched when the shared prefix ends: no operation writes it, and the last twelve
    operations do not either. -/
theorem PR_arg3 (c : Dev nD) : PR m c (Proc.devRef .tc main_arg3) = m ((c.tc : Thread nD τ).loc main_arg3) := by
  have h := Cert.ReferenceIdeal.Hand.kept_arg3 (F := Ideal) (launchContents m c)
  rw [ops_eq] at h
  have h2 : after Cert.ReferenceIdeal.Hand.wT (PR m c) (Proc.devRef .tc main_arg3) = PR m c (Proc.devRef .tc main_arg3) := by
    simp only [Cert.ReferenceIdeal.Hand.wT, Cert.ReferenceIdeal.Hand.p3b]
    after_results
  exact h2.symm.trans h

end Cert.ReferenceIdeal.HandValue

end
-- ==== Proof.PrefixLib.lean ====
/-
  A concatenation of two vectors with its operands as plain arguments.

  `concatenate t a xs h` takes its operands as a list of pairs (a shape, a vector of that shape), and the proof `h`
  that the shapes concatenate to `t` along `a` is stated about that list. Rewriting inside an operand therefore changes
  the list the proof speaks of. For two operands the shapes alone fix that statement, so the same function with the two
  vectors as separate arguments has a proof argument that does not mention them, and an equation between operands
  becomes an equation between concatenations by ordinary congruence. `cat2` is that function; it is `concatenate` by
  definition (`concatenate_pair`).

  `after_results_cat` computes what a buffer holds after a literal line of operations exactly as `after_results_simp`
  does (the same rewriting rules, the references' inequalities decided), and in addition reads every two-operand
  concatenation as `cat2`, so that the contents of the two operands are computed as well.
-/
import Idealize.ShloMosaic.Lib.StableHlo.Run
import proofs.«172312_j89326729822373_2_alg».proof.Proof.LibAfter

namespace Idealize.ShloMosaic

/-- The concatenation of `x₁` (of shape `s₁`) and `x₂` (of shape `s₂`) along axis `a` of the result shape `t`. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of two operands is `cat2` of them. -/
theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

namespace StableHlo

/-- `after_results_simp` with every two-operand concatenation read as `cat2`, so that its operands are computed too. -/
macro "after_results_cat" : tactic =>
  `(tactic| (simp (disch := decide) only [after_cons, after_nil, after_append,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Idealize.ShloMosaic.concatenate_pair]))

end StableHlo

end Idealize.ShloMosaic
-- ==== Proof.PrefixA.lean ====
/-
  The window wA (operations 0 to 80 of the host program) computes the same in the kernel program and in the
  reference program. The two programs' windows are the same operations on buffers of the same names and types; what
  differs is the signature the buffers are looked up in. So for each buffer the window computes, the contents after the
  window are, on either side, one and the same composition of the operations' functions applied to the contents of the
  buffers the window reads from before it; where those agree, so do the results. A buffer the window does not write is
  left as it was on either side.
-/
import proofs.«172312_j89326729822373_2_alg».proof.Proof.KerOps
import proofs.«172312_j89326729822373_2_alg».proof.Proof.RefOps
import proofs.«172312_j89326729822373_2_alg».proof.Proof.PrefixLib

set_option maxRecDepth 8192
set_option maxHeartbeats 40000000

noncomputable section

namespace Cert.Hand

open Idealize.ShloMosaic Idealize.SL.Sem Idealize.ShloMosaic.StableHlo

variable {F : FTy → Type} [FloatOps F]

/-- After the operations 0 to 80, `main_v73` holds the same contents in the two programs when `main_arg0`, `main_arg2` did before
    them: on either side it is the same composition of the same functions applied to those contents. -/
theorem wA_v73 (VK : Valuation Cert.KernelIdeal.τ Cert.KernelIdeal.sig (Elt F))
    (VR : Valuation Cert.ReferenceIdeal.τ Cert.ReferenceIdeal.sig (Elt F))
    (h_arg0 : VK (Proc.devRef .tc Cert.KernelIdeal.main_arg0) = VR (Proc.devRef .tc Cert.ReferenceIdeal.main_arg0))
    (h_arg2 : VK (Proc.devRef .tc Cert.KernelIdeal.main_arg2) = VR (Proc.devRef .tc Cert.ReferenceIdeal.main_arg2)) :
    after Cert.KernelIdeal.Hand.wA VK (Proc.devRef .tc Cert.KernelIdeal.main_v73)
      = after Cert.ReferenceIdeal.Hand.wA VR (Proc.devRef .tc Cert.ReferenceIdeal.main_v73) := by
  after_results_cat
  rw [h_arg0, h_arg2]
  rfl

/-- None of the operations 0 to 80 writes `main_arg0`: it holds after them what it held before, in either program. -/
theorem wA_keep_arg0 (VK : Valuation Cert.KernelIdeal.τ Cert.KernelIdeal.sig (Elt F))
    (VR : Valuation Cert.ReferenceIdeal.τ Cert.ReferenceIdeal.sig (Elt F))
    (h_arg0 : VK (Proc.devRef .tc Cert.KernelIdeal.main_arg0) = VR (Proc.devRef .tc Cert.ReferenceIdeal.main_arg0)) :
    after Cert.KernelIdeal.Hand.wA VK (Proc.devRef .tc Cert.KernelIdeal.main_arg0)
      = after Cert.ReferenceIdeal.Hand.wA VR (Proc.devRef .tc Cert.ReferenceIdeal.main_arg0) := by
  after_results_cat
  exact h_arg0

/-- None of the operations 0 to 80 writes `main_arg1`: it holds after them what it held before, in either program. -/
theorem wA_keep_arg1 (VK : Valuation Cert.KernelIdeal.τ Cert.KernelIdeal.sig (Elt F))
    (VR : Valuation Cert.ReferenceIdeal.τ Cert.ReferenceIdeal.sig (Elt F))
    (h_arg1 : VK (Proc.devRef .tc Cert.KernelIdeal.main_arg1) = VR (Proc.devRef .tc Cert.ReferenceIdeal.main_arg1)) :
    after Cert.KernelIdeal.Hand.wA VK (Proc.devRef .tc Cert.KernelIdeal.main_arg1)
      = after Cert.ReferenceIdeal.Hand.wA VR (Proc.devRef .tc Cert.ReferenceIdeal.main_arg1) := by
  after_results_cat
  exact h_arg1

/-- None of the operations 0 to 80 writes `main_arg2`: it holds after them what it held before, in either program. -/
theorem wA_keep_arg2 (VK : Valuation Cert.KernelIdeal.τ Cert.KernelIdeal.sig (Elt F))
    (VR : Valuation Cert.ReferenceIdeal.τ Cert.ReferenceIdeal.sig (Elt F))
    (h_arg2 : VK (Proc.devRef .tc Cert.KernelIdeal.main_arg2) = VR (Proc.devRef .tc Cert.ReferenceIdeal.main_arg2)) :
    after Cert.KernelIdeal.Hand.wA VK (Proc.devRef .tc Cert.KernelIdeal.main_arg2)
      = after Cert.ReferenceIdeal.Hand.wA VR (Proc.devRef .tc Cert.ReferenceIdeal.main_arg2) := by
  after_results_cat
  exact h_arg2

/-- None of the operations 0 to 80 writes `main_arg4`: it holds after them what it held before, in either program. -/
theorem wA_keep_arg4 (VK : Valuation Cert.KernelIdeal.τ Cert.KernelIdeal.sig (Elt F))
    (VR : Valuation Cert.ReferenceIdeal.τ Cert.ReferenceIdeal.sig (Elt F))
    (h_arg4 : VK (Proc.devRef .tc Cert.KernelIdeal.main_arg4) = VR (Proc.devRef .tc Cert.ReferenceIdeal.main_arg4)) :
    after Cert.KernelIdeal.Hand.wA VK (Proc.devRef .tc Cert.KernelIdeal.main_arg4)
      = after Cert.ReferenceIdeal.Hand.wA VR (Proc.devRef .tc Cert.ReferenceIdeal.main_arg4) := by
  after_results_cat
  exact h_arg4

/-- None of the operations 0 to 80 writes `main_arg5`: it holds after them what it held before, in either program. -/
theorem wA_keep_arg5 (VK : Valuation Cert.KernelIdeal.τ Cert.KernelIdeal.sig (Elt F))
    (VR : Valuation Cert.ReferenceIdeal.τ Cert.ReferenceIdeal.sig (Elt F))
    (h_arg5 : VK (Proc.devRef .tc Cert.KernelIdeal.main_arg5) = VR (Proc.devRef .tc Cert.ReferenceIdeal.main_arg5)) :
    after Cert.KernelIdeal.Hand.wA VK (Proc.devRef .tc Cert.KernelIdeal.main_arg5)
      = after Cert.ReferenceIdeal.Hand.wA VR (Proc.devRef .tc Cert.ReferenceIdeal.main_arg5) := by
  after_results_cat
  exact h_arg5

end Cert.Hand

end
-- ==== Proof.PrefixB.lean ====
/-
  The window wB (operations 81 to 109 of the host program) computes the same in the kernel program and in the
  reference program. The two programs' windows are the same operations on buffers of the same names and types; what
  differs is the signature the buffers are looked up in. So for each buffer the window computes, the contents after the
  window are, on either side, one and the same composition of the operations' functions applied to the contents of the
  buffers the window reads from before it; where those agree, so do the results. A buffer the window does not write is
  left as it was on either side.
-/
import proofs.«172312_j89326729822373_2_alg».proof.Proof.KerOps
import proofs.«172312_j89326729822373_2_alg».proof.Proof.RefOps
import proofs.«172312_j89326729822373_2_alg».proof.Proof.PrefixLib

set_option maxRecDepth 8192
set_option maxHeartbeats 40000000

noncomputable section

namespace Cert.Hand

open Idealize.ShloMosaic Idealize.SL.Sem Idealize.ShloMosaic.StableHlo

variable {F : FTy → Type} [FloatOps F]

/-- After the operations 81 to 109, `main_v86` holds the same contents in the two programs when `main_v73`, `main_arg0` did before
    them: on either side it is the same composition of the same functions applied to those contents. -/
theorem wB_v86 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg0 : VK (Proc.devRef .tc Cert.KernelIdeal.main_arg0) = VR (Proc.devRef .tc Cert.ReferenceIdeal.main_arg0)) :
    after Cert.KernelIdeal.Hand.wB VK (Proc.devRef .tc Cert.KernelIdeal.main_v86)
      = after Cert.ReferenceIdeal.Hand.wB VR (Proc.devRef .tc Cert.ReferenceIdeal.main_v86) := by
  after_results_cat
  rw [h_v73, h_arg0]
  rfl

/-- After the operations 81 to 109, `main_v89` holds the same contents in the two programs when `main_v73`, `main_arg0` did before
    them: on either side it is the same composition of the same functions applied to those contents. -/
theorem wB_v89 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg0 : VK (Proc.devRef .tc Cert.KernelIdeal.main_arg0) = VR (Proc.devRef .tc Cert.ReferenceIdeal.main_arg0)) :
    after Cert.KernelIdeal.Hand.wB VK (Proc.devRef .tc Cert.KernelIdeal.main_v89)
      = after Cert.ReferenceIdeal.Hand.wB VR (Proc.devRef .tc Cert.ReferenceIdeal.main_v89) := by
  after_results_cat
  rw [h_v73, h_arg0]
  rfl

/-- After the operations 81 to 109, `main_v92` holds the same contents in the two programs when `main_v73`, `main_arg1` did before
    them: on either side it is the same composition of the same functions applied to those contents. -/
theorem wB_v92 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg1 : VK (Proc.devRef .tc Cert.KernelIdeal.main_arg1) = VR (Proc.devRef .tc Cert.ReferenceIdeal.main_arg1)) :
    after Cert.KernelIdeal.Hand.wB VK (Proc.devRef .tc Cert.KernelIdeal.main_v92)
      = after Cert.ReferenceIdeal.Hand.wB VR (Proc.devRef .tc Cert.ReferenceIdeal.main_v92) := by
  after_results_cat
  rw [h_v73, h_arg1]
  rfl

/-- After the operations 81 to 109, `main_v95` holds the same contents in the two programs when `main_v73`, `main_arg1` did before
    them: on either side it is the same composition of the same functions applied to those contents. -/
theorem wB_v95 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg1 : VK (Proc.devRef .tc Cert.KernelIdeal.main_arg1) = VR (Proc.devRef .tc Cert.ReferenceIdeal.main_arg1)) :
    after Cert.KernelIdeal.Hand.wB VK (Proc.devRef .tc Cert.KernelIdeal.main_v95)
      = after Cert.ReferenceIdeal.Hand.wB VR (Proc.devRef .tc Cert.ReferenceIdeal.main_v95) := by
  after_results_cat
  rw [h_v73, h_arg1]
  rfl

/-- After the operations 81 to 109, `main_v98` holds the same contents in the two programs when `main_v73`, `main_arg2` did before
    them: on either side it is the same composition of the same functions applied to those contents. -/
theorem wB_v98 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg2 : VK (Proc.devRef .tc Cert.KernelIdeal.main_arg2) = VR (Proc.devRef .tc Cert.ReferenceIdeal.main_arg2)) :
    after Cert.KernelIdeal.Hand.wB VK (Proc.devRef .tc Cert.KernelIdeal.main_v98)
      = after Cert.ReferenceIdeal.Hand.wB VR (Proc.devRef .tc Cert.ReferenceIdeal.main_v98) := by
  after_results_cat
  rw [h_v73, h_arg2]
  rfl

/-- After the operations 81 to 109, `main_v101` holds the same contents in the two programs when `main_v73`, `main_arg2` did before
    them: on either side it is the same composition of the same functions applied to those contents. -/
theorem wB_v101 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg2 : VK (Proc.devRef .tc Cert.KernelIdeal.main_arg2) = VR (Proc.devRef .tc Cert.ReferenceIdeal.main_arg2)) :
    after Cert.KernelIdeal.Hand.wB VK (Proc.devRef .tc Cert.KernelIdeal.main_v101)
      = after Cert.ReferenceIdeal.Hand.wB VR (Proc.devRef .tc Cert.ReferenceIdeal.main_v101) := by
  after_results_cat
  rw [h_v73, h_arg2]
  rfl

/-- None of the operations 81 to 109 writes `main_v73`: it holds after them what it held before, in either program. -/
theorem wB_keep_v73 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73)) :
    after Cert.KernelIdeal.Hand.wB VK (Proc.devRef .tc Cert.KernelIdeal.main_v73)
      = after Cert.ReferenceIdeal.Hand.wB VR (Proc.devRef .tc Cert.ReferenceIdeal.main_v73) := by
  after_results_cat
  exact h_v73

/-- None of the operations 81 to 109 writes `main_arg4`: it holds after them what it held before, in either program. -/
theorem wB_keep_arg4 (VK : Valuation Cert.KernelIdeal.τ Cert.KernelIdeal.sig (Elt F))
    (VR : Valuation Cert.ReferenceIdeal.τ Cert.ReferenceIdeal.sig (Elt F))
    (h_arg4 : VK (Proc.devRef .tc Cert.KernelIdeal.main_arg4) = VR (Proc.devRef .tc Cert.ReferenceIdeal.main_arg4)) :
    after Cert.KernelIdeal.Hand.wB VK (Proc.devRef .tc Cert.KernelIdeal.main_arg4)
      = after Cert.ReferenceIdeal.Hand.wB VR (Proc.devRef .tc Cert.ReferenceIdeal.main_arg4) := by
  after_results_cat
  exact h_arg4

/-- None of the operations 81 to 109 writes `main_arg5`: it holds after them what it held before, in either program. -/
theorem wB_keep_arg5 (VK : Valuation Cert.KernelIdeal.τ Cert.KernelIdeal.sig (Elt F))
    (VR : Valuation Cert.ReferenceIdeal.τ Cert.ReferenceIdeal.sig (Elt F))
    (h_arg5 : VK (Proc.devRef .tc Cert.KernelIdeal.main_arg5) = VR (Proc.devRef .tc Cert.ReferenceIdeal.main_arg5)) :
    after Cert.KernelIdeal.Hand.wB VK (Proc.devRef .tc Cert.KernelIdeal.main_arg5)
      = after Cert.ReferenceIdeal.Hand.wB VR (Proc.devRef .tc Cert.ReferenceIdeal.main_arg5) := by
  after_results_cat
  exact h_arg5

end Cert.Hand

end
-- ==== Proof.PrefixC.lean ====
/-
  The window wC (operations 110 to 166 of the host program) computes the same in the kernel program and in the
  reference program. The two programs' windows are the same operations on buffers of the same names and types; what
  differs is the signature the buffers are looked up in. So for each buffer the window computes, the contents after the
  window are, on either side, one and the same composition of the operations' functions applied to the contents of the
  buffers the window reads from before it; where those agree, so do the results. A buffer the window does not write is
  left as it was on either side.
-/
import proofs.«172312_j89326729822373_2_alg».proof.Proof.KerOps
import proofs.«172312_j89326729822373_2_alg».proof.Proof.RefOps
import proofs.«172312_j89326729822373_2_alg».proof.Proof.PrefixLib

set_option maxRecDepth 8192
set_option maxHeartbeats 40000000

noncomputable section

namespace Cert.Hand

open Idealize.ShloMosaic Idealize.SL.Sem Idealize.ShloMosaic.StableHlo

variable {F : FTy → Type} [FloatOps F]

/-- After the operations 110 to 166, `main_v116` holds the same contents in the two programs when `main_v86`, `main_v89`, `main_arg4`, `main_arg5` did before
    them: on either side it is the same composition of the same functions applied to those contents. -/
theorem wC_v116 (VK : Valuation Cert.KernelIdeal.τ Cert.KernelIdeal.sig (Elt F))
    (VR : Valuation Cert.ReferenceIdeal.τ Cert.ReferenceIdeal.sig (Elt F))
    (h_v86 : VK (Proc.devRef .tc Cert.KernelIdeal.main_v86) = VR (Proc.devRef .tc Cert.ReferenceIdeal.main_v86))
    (h_v89 : VK (Proc.devRef .tc Cert.KernelIdeal.main_v89) = VR (Proc.devRef .tc Cert.ReferenceIdeal.main_v89))
    (h_arg4 : VK (Proc.devRef .tc Cert.KernelIdeal.main_arg4) = VR (Proc.devRef .tc Cert.ReferenceIdeal.main_arg4))
    (h_arg5 : VK (Proc.devRef .tc Cert.KernelIdeal.main_arg5) = VR (Proc.devRef .tc Cert.ReferenceIdeal.main_arg5)) :
    after Cert.KernelIdeal.Hand.wC VK (Proc.devRef .tc Cert.KernelIdeal.main_v116)
      = after Cert.ReferenceIdeal.Hand.wC VR (Proc.devRef .tc Cert.ReferenceIdeal.main_v116) := by
  after_results_cat
  rw [h_v86, h_v89, h_arg4, h_arg5]
  rfl

/-- After the operations 110 to 166, `main_v131` holds the same contents in the two programs when `main_v92`, `main_v95`, `main_arg4`, `main_arg5` did before
    them: on either side it is the same composition of the same functions applied to those contents. -/
theorem wC_v131 (VK : Valuation Cert.KernelIdeal.τ Cert.KernelIdeal.sig (Elt F))
    (VR : Valuation Cert.ReferenceIdeal.τ Cert.ReferenceIdeal.sig (Elt F))
    (h_v92 : VK (Proc.devRef .tc Cert.KernelIdeal.main_v92) = VR (Proc.devRef .tc Cert.ReferenceIdeal.main_v92))
    (h_v95 : VK (Proc.devRef .tc Cert.KernelIdeal.main_v95) = VR (Proc.devRef .tc Cert.ReferenceIdeal.main_v95))
    (h_arg4 : VK (Proc.devRef .tc Cert.KernelIdeal.main_arg4) = VR (Proc.devRef .tc Cert.ReferenceIdeal.main_arg4))
    (h_arg5 : VK (Proc.devRef .tc Cert.KernelIdeal.main_arg5) = VR (Proc.devRef .tc Cert.ReferenceIdeal.main_arg5)) :
    after Cert.KernelIdeal.Hand.wC VK (Proc.devRef .tc Cert.KernelIdeal.main_v131)
      = after Cert.ReferenceIdeal.Hand.wC VR (Proc.devRef .tc Cert.ReferenceIdeal.main_v131) := by
  after_results_cat
  rw [h_v92, h_v95, h_arg4, h_arg5]
  rfl

/-- After the operations 110 to 166, `main_v146` holds the same contents in the two programs when `main_v98`, `main_v101`, `main_arg4`, `main_arg5` did before
    them: on either side it is the same composition of the same functions applied to those contents. -/
theorem wC_v146 (VK : Valuation Cert.KernelIdeal.τ Cert.KernelIdeal.sig (Elt F))
    (VR : Valuation Cert.ReferenceIdeal.τ Cert.ReferenceIdeal.sig (Elt F))
    (h_v98 : VK (Proc.devRef .tc Cert.KernelIdeal.main_v98) = VR (Proc.devRef .tc Cert.ReferenceIdeal.main_v98))
    (h_v101 : VK (Proc.devRef .tc Cert.KernelIdeal.main_v101) = VR (Proc.devRef .tc Cert.ReferenceIdeal.main_v101))
    (h_arg4 : VK (Proc.devRef .tc Cert.KernelIdeal.main_arg4) = VR (Proc.devRef .tc Cert.ReferenceIdeal.main_arg4))
    (h_arg5 : VK (Proc.devRef .tc Cert.KernelIdeal.main_arg5) = VR (Proc.devRef .tc Cert.ReferenceIdeal.main_arg5)) :
    after Cert.KernelIdeal.Hand.wC VK (Proc.devRef .tc Cert.KernelIdeal.main_v146)
      = after Cert.ReferenceIdeal.Hand.wC VR (Proc.devRef .tc Cert.ReferenceIdeal.main_v146) := by
  after_results_cat
  rw [h_v98, h_v101, h_arg4, h_arg5]
  rfl

/-- None of the operations 110 to 166 writes `main_v73`: it holds after them what it held before, in either program. -/
theorem wC_keep_v73 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73)) :
    after Cert.KernelIdeal.Hand.wC VK (Proc.devRef .tc Cert.KernelIdeal.main_v73)
      = after Cert.ReferenceIdeal.Hand.wC VR (Proc.devRef .tc Cert.ReferenceIdeal.main_v73) := by
  after_results_cat
  exact h_v73

/-- None of the operations 110 to 166 writes `main_arg5`: it holds after them what it held before, in either program. -/
theorem wC_keep_arg5 (VK : Valuation Cert.KernelIdeal.τ Cert.KernelIdeal.sig (Elt F))
    (VR : Valuation Cert.ReferenceIdeal.τ Cert.ReferenceIdeal.sig (Elt F))
    (h_arg5 : VK (Proc.devRef .tc Cert.KernelIdeal.main_arg5) = VR (Proc.devRef .tc Cert.ReferenceIdeal.main_arg5)) :
    after Cert.KernelIdeal.Hand.wC VK (Proc.devRef .tc Cert.KernelIdeal.main_arg5)
      = after Cert.ReferenceIdeal.Hand.wC VR (Proc.devRef .tc Cert.ReferenceIdeal.main_arg5) := by
  after_results_cat
  exact h_arg5

end Cert.Hand

end
-- ==== Proof.PrefixD.lean ====
/-
  The window wD (operations 167 to 189 (the two calls written out) of the host program) computes the same in the kernel program and in the
  reference program. The two programs' windows are the same operations on buffers of the same names and types; what
  differs is the signature the buffers are looked up in. So for each buffer the window computes, the contents after the
  window are, on either side, one and the same composition of the operations' functions applied to the contents of the
  buffers the window reads from before it; where those agree, so do the results. A buffer the window does not write is
  left as it was on either side.
-/
import proofs.«172312_j89326729822373_2_alg».proof.Proof.KerOps
import proofs.«172312_j89326729822373_2_alg».proof.Proof.RefOps
import proofs.«172312_j89326729822373_2_alg».proof.Proof.PrefixLib

set_option maxRecDepth 8192
set_option maxHeartbeats 40000000

noncomputable section

namespace Cert.Hand

open Idealize.ShloMosaic Idealize.SL.Sem Idealize.ShloMosaic.StableHlo

variable {F : FTy → Type} [FloatOps F]

/-- After the operations 167 to 189 (the two calls written out), `main_v148` holds the same contents in the two programs when `main_arg5` did before
    them: on either side it is the same composition of the same functions applied to those contents. -/
theorem wD_v148 (VK : Valuation Cert.KernelIdeal.τ Cert.KernelIdeal.sig (Elt F))
    (VR : Valuation Cert.ReferenceIdeal.τ Cert.ReferenceIdeal.sig (Elt F))
    (h_arg5 : VK (Proc.devRef .tc Cert.KernelIdeal.main_arg5) = VR (Proc.devRef .tc Cert.ReferenceIdeal.main_arg5)) :
    after Cert.KernelIdeal.Hand.wD VK (Proc.devRef .tc Cert.KernelIdeal.main_v148)
      = after Cert.ReferenceIdeal.Hand.wD VR (Proc.devRef .tc Cert.ReferenceIdeal.main_v148) := by
  after_results_cat
  rw [h_arg5]

/-- After the operations 167 to 189 (the two calls written out), `main_v163` holds the same contents in the two programs when `main_v73`, `main_arg5` did before
    them: on either side it is the same composition of the same functions applied to those contents. -/
theorem wD_v163 (VK : Valuation Cert.KernelIdeal.τ Cert.KernelIdeal.sig (Elt F))
    (VR : Valuation Cert.ReferenceIdeal.τ Cert.ReferenceIdeal.sig (Elt F))
    (h_v73 : VK (Proc.devRef .tc Cert.KernelIdeal.main_v73) = VR (Proc.devRef .tc Cert.ReferenceIdeal.main_v73))
    (h_arg5 : VK (Proc.devRef .tc Cert.KernelIdeal.main_arg5) = VR (Proc.devRef .tc Cert.ReferenceIdeal.main_arg5)) :
    after Cert.KernelIdeal.Hand.wD VK (Proc.devRef .tc Cert.KernelIdeal.main_v163)
      = after Cert.ReferenceIdeal.Hand.wD VR (Proc.devRef .tc Cert.ReferenceIdeal.main_v163) := by
  after_results_cat
  rw [h_v73, h_arg5]
  rfl

/-- None of the operations 167 to 189 (the two calls written out) writes `main_v116`: it holds after them what it held before, in either program. -/
theorem wD_keep_v116 (VK : Valuation Cert.KernelIdeal.τ Cert.KernelIdeal.sig (Elt F))
    (VR : Valuation Cert.ReferenceIdeal.τ Cert.ReferenceIdeal.sig (Elt F))
    (h_v116 : VK (Proc.devRef .tc Cert.KernelIdeal.main_v116) = VR (Proc.devRef .tc Cert.ReferenceIdeal.main_v116)) :
    after Cert.KernelIdeal.Hand.wD VK (Proc.devRef .tc Cert.KernelIdeal.main_v116)
      = after Cert.ReferenceIdeal.Hand.wD VR (Proc.devRef .tc Cert.ReferenceIdeal.main_v116) := by
  after_results_cat
  exact h_v116

/-- None of the operations 167 to 189 (the two calls written out) writes `main_v131`: it holds after them what it held before, in either program. -/
theorem wD_keep_v131 (VK : Valuation Cert.KernelIdeal.τ Cert.KernelIdeal.sig (Elt F))
    (VR : Valuation Cert.ReferenceIdeal.τ Cert.ReferenceIdeal.sig (Elt F))
    (h_v131 : VK (Proc.devRef .tc Cert.KernelIdeal.main_v131) = VR (Proc.devRef .tc Cert.ReferenceIdeal.main_v131)) :
    after Cert.KernelIdeal.Hand.wD VK (Proc.devRef .tc Cert.KernelIdeal.main_v131)
      = after Cert.ReferenceIdeal.Hand.wD VR (Proc.devRef .tc Cert.ReferenceIdeal.main_v131) := by
  after_results_cat
  exact h_v131

/-- None of the operations 167 to 189 (the two calls written out) writes `main_v146`: it holds after them what it held before, in either program. -/
theorem wD_keep_v146 (VK : Valuation Cert.KernelIdeal.τ Cert.KernelIdeal.sig (Elt F))
    (VR : Valuation Cert.ReferenceIdeal.τ Cert.ReferenceIdeal.sig (Elt F))
    (h_v146 : VK (Proc.devRef .tc Cert.KernelIdeal.main_v146) = VR (Proc.devRef .tc Cert.ReferenceIdeal.main_v146)) :
    after Cert.KernelIdeal.Hand.wD VK (Proc.devRef .tc Cert.KernelIdeal.main_v146)
      = after Cert.ReferenceIdeal.Hand.wD VR (Proc.devRef .tc Cert.ReferenceIdeal.main_v146) := by
  after_results_cat
  exact h_v146

end Cert.Hand

end
-- ==== Proof.Prefix.lean ====
/-
  The kernel program and the reference program agree through the host operations they share.

  Both programs begin with the same operations 0 to 189 (the two outlined calls written out), on buffers of the same names
  and types. Run from contents that agree on the six arguments, they leave the same contents in the three results computed
  there (`main_v116`, `main_v131`, `main_v146`), in the remainder `main_v148` of `main_arg5` by 8, and in the gate
  `main_v163`. The operations are taken window by window (wA, wB, wC, wD): each window's results agree when the buffers
  it reads agree (PrefixA … PrefixD), and those are results of earlier windows or arguments no window writes.
-/
import proofs.«172312_j89326729822373_2_alg».proof.Proof.PrefixA
import proofs.«172312_j89326729822373_2_alg».proof.Proof.PrefixB
import proofs.«172312_j89326729822373_2_alg».proof.Proof.PrefixC
import proofs.«172312_j89326729822373_2_alg».proof.Proof.PrefixD

noncomputable section

namespace Cert.Hand

open Idealize.ShloMosaic Idealize.SL.Sem Idealize.ShloMosaic.StableHlo

/-- From contents agreeing on the six arguments, the four windows run in order leave contents agreeing on
    `main_v116`, `main_v131`, `main_v146`, `main_v148` and `main_v163`. (`main_arg3` is read by none of the four
    windows; its hypothesis is taken for uniformity and not used.) -/
theorem prefix_agree {F : FTy → Type} [FloatOps F]
    (VK : Valuation Cert.KernelIdeal.τ Cert.KernelIdeal.sig (Elt F))
    (VR : Valuation Cert.ReferenceIdeal.τ Cert.ReferenceIdeal.sig (Elt F))
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (h5 : VK (Proc.devRef .tc Cert.KernelIdeal.main_arg5) = VR (Proc.devRef .tc Cert.ReferenceIdeal.main_arg5)) :
    let PK := after Cert.KernelIdeal.Hand.wD (after Cert.KernelIdeal.Hand.wC (after Cert.KernelIdeal.Hand.wB (after Cert.KernelIdeal.Hand.wA VK)))
    let PR := after Cert.ReferenceIdeal.Hand.wD (after Cert.ReferenceIdeal.Hand.wC (after Cert.ReferenceIdeal.Hand.wB (after Cert.ReferenceIdeal.Hand.wA VR)))
    PK (Proc.devRef .tc Cert.KernelIdeal.main_v116) = PR (Proc.devRef .tc Cert.ReferenceIdeal.main_v116)
    ∧ PK (Proc.devRef .tc Cert.KernelIdeal.main_v131) = PR (Proc.devRef .tc Cert.ReferenceIdeal.main_v131)
    ∧ PK (Proc.devRef .tc Cert.KernelIdeal.main_v146) = PR (Proc.devRef .tc Cert.ReferenceIdeal.main_v146)
    ∧ PK (Proc.devRef .tc Cert.KernelIdeal.main_v148) = PR (Proc.devRef .tc Cert.ReferenceIdeal.main_v148)
    ∧ PK (Proc.devRef .tc Cert.KernelIdeal.main_v163) = PR (Proc.devRef .tc Cert.ReferenceIdeal.main_v163) := by
  intro PK PR
  -- after the window wA
  have a_v73 := wA_v73 VK VR h0 h2
  have a_arg0 := wA_keep_arg0 VK VR h0
  have a_arg1 := wA_keep_arg1 VK VR h1
  have a_arg2 := wA_keep_arg2 VK VR h2
  have a_arg4 := wA_keep_arg4 VK VR h4
  have a_arg5 := wA_keep_arg5 VK VR h5
  -- after the window wB
  have b_v86 := wB_v86 (after Cert.KernelIdeal.Hand.wA VK) (after Cert.ReferenceIdeal.Hand.wA VR) a_v73 a_arg0
  have b_v89 := wB_v89 (after Cert.KernelIdeal.Hand.wA VK) (after Cert.ReferenceIdeal.Hand.wA VR) a_v73 a_arg0
  have b_v92 := wB_v92 (after Cert.KernelIdeal.Hand.wA VK) (after Cert.ReferenceIdeal.Hand.wA VR) a_v73 a_arg1
  have b_v95 := wB_v95 (after Cert.KernelIdeal.Hand.wA VK) (after Cert.ReferenceIdeal.Hand.wA VR) a_v73 a_arg1
  have b_v98 := wB_v98 (after Cert.KernelIdeal.Hand.wA VK) (after Cert.ReferenceIdeal.Hand.wA VR) a_v73 a_arg2
  have b_v101 := wB_v101 (after Cert.KernelIdeal.Hand.wA VK) (after Cert.ReferenceIdeal.Hand.wA VR) a_v73 a_arg2
  have b_v73 := wB_keep_v73 (after Cert.KernelIdeal.Hand.wA VK) (after Cert.ReferenceIdeal.Hand.wA VR) a_v73
  have b_arg4 := wB_keep_arg4 (after Cert.KernelIdeal.Hand.wA VK) (after Cert.ReferenceIdeal.Hand.wA VR) a_arg4
  have b_arg5 := wB_keep_arg5 (after Cert.KernelIdeal.Hand.wA VK) (after Cert.ReferenceIdeal.Hand.wA VR) a_arg5
  -- after the window wC
  have c_v116 := wC_v116 (after Cert.KernelIdeal.Hand.wB (after Cert.KernelIdeal.Hand.wA VK)) (after Cert.ReferenceIdeal.Hand.wB (after Cert.ReferenceIdeal.Hand.wA VR)) b_v86 b_v89 b_arg4 b_arg5
  have c_v131 := wC_v131 (after Cert.KernelIdeal.Hand.wB (after Cert.KernelIdeal.Hand.wA VK)) (after Cert.ReferenceIdeal.Hand.wB (after Cert.ReferenceIdeal.Hand.wA VR)) b_v92 b_v95 b_arg4 b_arg5
  have c_v146 := wC_v146 (after Cert.KernelIdeal.Hand.wB (after Cert.KernelIdeal.Hand.wA VK)) (after Cert.ReferenceIdeal.Hand.wB (after Cert.ReferenceIdeal.Hand.wA VR)) b_v98 b_v101 b_arg4 b_arg5
  have c_v73 := wC_keep_v73 (after Cert.KernelIdeal.Hand.wB (after Cert.KernelIdeal.Hand.wA VK)) (after Cert.ReferenceIdeal.Hand.wB (after Cert.ReferenceIdeal.Hand.wA VR)) b_v73
  have c_arg5 := wC_keep_arg5 (after Cert.KernelIdeal.Hand.wB (after Cert.KernelIdeal.Hand.wA VK)) (after Cert.ReferenceIdeal.Hand.wB (after Cert.ReferenceIdeal.Hand.wA VR)) b_arg5
  -- after the window wD
  have d_v148 := wD_v148 (after Cert.KernelIdeal.Hand.wC (after Cert.KernelIdeal.Hand.wB (after Cert.KernelIdeal.Hand.wA VK))) (after Cert.ReferenceIdeal.Hand.wC (after Cert.ReferenceIdeal.Hand.wB (after Cert.ReferenceIdeal.Hand.wA VR))) c_arg5
  have d_v163 := wD_v163 (after Cert.KernelIdeal.Hand.wC (after Cert.KernelIdeal.Hand.wB (after Cert.KernelIdeal.Hand.wA VK))) (after Cert.ReferenceIdeal.Hand.wC (after Cert.ReferenceIdeal.Hand.wB (after Cert.ReferenceIdeal.Hand.wA VR))) c_v73 c_arg5
  have d_v116 := wD_keep_v116 (after Cert.KernelIdeal.Hand.wC (after Cert.KernelIdeal.Hand.wB (after Cert.KernelIdeal.Hand.wA VK))) (after Cert.ReferenceIdeal.Hand.wC (after Cert.ReferenceIdeal.Hand.wB (after Cert.ReferenceIdeal.Hand.wA VR))) c_v116
  have d_v131 := wD_keep_v131 (after Cert.KernelIdeal.Hand.wC (after Cert.KernelIdeal.Hand.wB (after Cert.KernelIdeal.Hand.wA VK))) (after Cert.ReferenceIdeal.Hand.wC (after Cert.ReferenceIdeal.Hand.wB (after Cert.ReferenceIdeal.Hand.wA VR))) c_v131
  have d_v146 := wD_keep_v146 (after Cert.KernelIdeal.Hand.wC (after Cert.KernelIdeal.Hand.wB (after Cert.KernelIdeal.Hand.wA VK))) (after Cert.ReferenceIdeal.Hand.wC (after Cert.ReferenceIdeal.Hand.wB (after Cert.ReferenceIdeal.Hand.wA VR))) c_v146
  exact ⟨d_v116, d_v131, d_v146, d_v148, d_v163⟩

end Cert.Hand

end
-- ==== Proof.LibRem8.lean ====
/-
  The floored remainder by eight of a 32-bit word, computed the way `jnp.remainder(x, 8)` lowers: the divisor
  `d = select (8 == 0) 1 8`, the truncated remainder `q = remsi x d`, and the correction
  `select (((q <ₛ 0) ≠ (d <ₛ 0)) ∧ (q ≠ 0)) (q + d) q`. The truncated remainder of a signed word by eight lies
  strictly between −8 and 8; the correction adds eight exactly when it is negative, so the result, read unsigned,
  is below eight. For a word below eight: it equals the word of a number `r < 8` exactly when `r` is its value;
  the negative-index wrap `select (x <ₛ 0) (x + 8) x` leaves it; and read signed and clamped into `0 … 7` it is
  its value. General; no program is imported.
-/
import Idealize.ShloMosaic.PureOps.Ideal
import Idealize.ShloMosaic.Lib.ValueIdx

namespace Idealize.ShloMosaic.WordRem8

open Idealize.ShloMosaic

/-- The divisor the chain computes from the literal eight: eight is not zero, so it stays eight. -/
theorem divisor8 : Scalar.select (IntOp.cmpi .eq 8#32 0#32) 1#32 8#32 = 8#32 := by decide

/-- `jnp.remainder(x, 8)` at one word, operation by operation. -/
def rem8 (x : BitVec 32) : BitVec 32 :=
  Scalar.select
    (IntOp.andi
      (IntOp.cmpi .ne
        (IntOp.cmpi .slt (IntOp.remsi .host x (Scalar.select (IntOp.cmpi .eq 8#32 0#32) 1#32 8#32)) 0#32)
        (IntOp.cmpi .slt (Scalar.select (IntOp.cmpi .eq 8#32 0#32) 1#32 8#32) 0#32))
      (IntOp.cmpi .ne (IntOp.remsi .host x (Scalar.select (IntOp.cmpi .eq 8#32 0#32) 1#32 8#32)) 0#32))
    (IntOp.addi (IntOp.remsi .host x (Scalar.select (IntOp.cmpi .eq 8#32 0#32) 1#32 8#32))
      (Scalar.select (IntOp.cmpi .eq 8#32 0#32) 1#32 8#32))
    (IntOp.remsi .host x (Scalar.select (IntOp.cmpi .eq 8#32 0#32) 1#32 8#32))

/-- Division by eight is at no corner (eight is neither zero nor minus one): the host's signed remainder by eight is
    the truncated one. -/
theorem remsi8 (x : BitVec 32) : IntOp.remsi .host x 8#32 = x.srem 8#32 := by
  unfold IntOp.remsi
  rw [if_neg]
  unfold IntOp.SDivCorner
  intro h
  rcases h with h | ⟨_, h⟩ <;> exact absurd h (by decide)

/-- The truncated remainder by eight, read signed, lies strictly between −8 and 8. -/
theorem srem8_bounds (x : BitVec 32) : -8 < (x.srem 8#32).toInt ∧ (x.srem 8#32).toInt < 8 := by
  rw [BitVec.toInt_srem]
  have h8 : (8#32 : BitVec 32).toInt = 8 := by decide
  rw [h8]
  constructor
  · exact Int.lt_tmod_of_pos x.toInt (by omega)
  · exact Int.tmod_lt_of_pos x.toInt (by omega)

/-- The correction step on any word strictly between −8 and 8: eight is added exactly when the word is negative, and
    the result read unsigned is below eight. -/
theorem fix_range (q : BitVec 32) (h1 : -8 < q.toInt) (h2 : q.toInt < 8) :
    (Scalar.select (IntOp.andi (IntOp.cmpi .ne (IntOp.cmpi .slt q 0#32) (IntOp.cmpi .slt 8#32 0#32)) (IntOp.cmpi .ne q 0#32))
      (IntOp.addi q 8#32) q).toNat < 8 := by
  have hI := BitVec.toInt_eq_toNat_cond q
  have h80 : IntOp.cmpi .slt 8#32 0#32 = 0#1 := by decide
  rw [h80]
  by_cases hneg : q.toInt < 0
  · have hs : IntOp.cmpi .slt q 0#32 = 1#1 := by
      simp [IntOp.cmpi, BitVec.slt, hneg]
    have hne : IntOp.cmpi .ne q 0#32 = 1#1 := by
      have hq : q ≠ 0#32 := by
        intro h; rw [h] at hneg; simp at hneg
      have hb : (q != 0#32) = true := by simpa using hq
      unfold IntOp.cmpi
      simp only [hb]
      rfl
    rw [hs, hne]
    have : IntOp.andi (IntOp.cmpi .ne 1#1 0#1) 1#1 = 1#1 := by decide
    rw [this, ValueIdx.select_one]
    unfold IntOp.addi
    rw [BitVec.toNat_add]
    simp only [BitVec.toNat_ofNat]
    split at hI <;> omega
  · have hs : IntOp.cmpi .slt q 0#32 = 0#1 := by
      simp [IntOp.cmpi, BitVec.slt, hneg]
    rw [hs]
    have : ∀ b : BitVec 1, IntOp.andi (IntOp.cmpi .ne 0#1 0#1) b = 0#1 := by decide
    rw [this, ValueIdx.select_zero]
    split at hI <;> omega

/-- THE WORD FACT: the floored remainder by eight, read unsigned, is below eight. -/
theorem rem8_lt (x : BitVec 32) : (rem8 x).toNat < 8 := by
  unfold rem8
  rw [divisor8, remsi8]
  exact fix_range _ (srem8_bounds x).1 (srem8_bounds x).2

/-- A word below eight equals the word of a number `r < 8` exactly when `r` is its value. -/
theorem cmpi_eq_ofNat (x : BitVec 32) (hx : x.toNat < 8) (r : Nat) (hr : r < 8) :
    IntOp.cmpi .eq x (BitVec.ofNat 32 r) = if r = x.toNat then 1#1 else 0#1 := by
  unfold IntOp.cmpi
  by_cases h : r = x.toNat
  · have hxr : x = BitVec.ofNat 32 r := by
      apply BitVec.eq_of_toNat_eq
      rw [BitVec.toNat_ofNat]; omega
    rw [if_pos h, ← hxr]
    simp
  · have hxr : x ≠ BitVec.ofNat 32 r := by
      intro e
      have := congrArg BitVec.toNat e
      rw [BitVec.toNat_ofNat] at this
      omega
    have hb : (x == BitVec.ofNat 32 r) = false := by simpa using hxr
    rw [if_neg h]
    simp only [hb]
    rfl

/-- The negative-index wrap `select (x <ₛ 0) (x + 8) x` leaves a word below eight. -/
theorem wrap_of_lt (x : BitVec 32) (hx : x.toNat < 8) :
    Scalar.select (IntOp.cmpi .slt x 0#32) (IntOp.addi x 8#32) x = x := by
  have hI := BitVec.toInt_eq_toNat_cond x
  have hs : IntOp.cmpi .slt x 0#32 = 0#1 := by
    have : ¬ x.toInt < 0 := by split at hI <;> omega
    simp [IntOp.cmpi, BitVec.slt, this]
  rw [hs, ValueIdx.select_zero]

/-- A word below eight, read signed and clamped into `0 … 7`, is its value. -/
theorem clamp_of_lt (x : BitVec 32) (hx : x.toNat < 8) : min x.toInt.toNat 7 = x.toNat := by
  have hI := BitVec.toInt_eq_toNat_cond x
  split at hI <;> omega

end Idealize.ShloMosaic.WordRem8
-- ==== Proof.TailLaw.lean ====
/-
  The two programs' different tails, pointwise, at the ideal instance (a float an extended real), the values both
  programs share kept opaque.

  The kernel program computes the row numbers `k = jnp.remainder(arg5, 8)` (`remOf`; entry by entry the one-word
  floored remainder, so every entry read unsigned is below eight: `remOf_range`), builds the selector
  `sel[b, s, r] = 1[k s = r] · gate[b, s]` (`selOf`) and the masks with their two image axes flattened (`mfOf`), and
  its matrix product leaves `∑ r < 8, sel[b, s, r] · masks[b, r, p]`, which the last reshape unflattens. The reference
  program gathers `masks[b, k s, :, :]` (after the negative-index wrap `select (k <ₛ 0) (k + 8) k`, which leaves a row
  number in range, and the gather's clamp into `0 … 7`, which does too) and multiplies by `gate[b, s]` (`refTail`).
  `tail_law`: for row numbers in `0 … 7` the two agree — in the sum every term but `r = k s` is `0 · gate · masks = 0`
  (zero times ANY extended real is zero, so nothing is assumed finite), and the remaining term is
  `(1 · gate) · masks[b, k s, p] = masks[b, k s, p] · gate`.

  `read_v148`, `read_v169`, `read_v170` identify `remOf`, `selOf`, `mfOf` with what the kernel program's generated
  operation lists leave in the corresponding buffers.
-/
import proofs.«172312_j89326729822373_2_alg».proof.Proof.Gen.KernelIdeal.Launch
import proofs.«172312_j89326729822373_2_alg».proof.Proof.Gen.ReferenceIdeal
import proofs.«172312_j89326729822373_2_alg».proof.Proof.Spec
import proofs.«172312_j89326729822373_2_alg».proof.Proof.LibAfter
import proofs.«172312_j89326729822373_2_alg».proof.Proof.LibRem8
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 2864

noncomputable section

open scoped BigOperators

namespace Cert.Hand

open Idealize.ShloMosaic Idealize.ShloMosaic.StableHlo Idealize.ShloMosaic.ValueIdx Idealize.ShloMosaic.WordRem8

/-- The divisor of the remainder chain, a rank-0 array: `select (8 == 0) 1 8`. -/
def divisorOf : IVec Cert.KernelIdeal.S_ 32 :=
  select (cmpi .eq (constantI Cert.KernelIdeal.S_ 32 8#32) (constantI Cert.KernelIdeal.S_ 32 0#32))
    (constantI Cert.KernelIdeal.S_ 32 1#32) (constantI Cert.KernelIdeal.S_ 32 8#32)

/-- The truncated remainder of each entry by the broadcast divisor. -/
def quotOf (a5 : (⟨Cert.KernelIdeal.S256, .i32⟩ : BufTy).Contents (Elt Ideal)) : IVec Cert.KernelIdeal.S256 32 :=
  Host.remsi a5 (broadcastInDim Cert.KernelIdeal.S256 ![] Cert.KernelIdeal.Gen.bcast_S_S256 divisorOf)

/-- `jnp.remainder(a5, 8)` as the kernel program's inlined chain computes it, whole arrays at a time. -/
def remOf (a5 : (⟨Cert.KernelIdeal.S256, .i32⟩ : BufTy).Contents (Elt Ideal)) :
    (⟨Cert.KernelIdeal.S256, .i32⟩ : BufTy).Contents (Elt Ideal) :=
  select
    (andi
      (cmpi .ne
        (cmpi .slt (quotOf a5) (broadcastInDim Cert.KernelIdeal.S256 ![] Cert.KernelIdeal.Gen.bcast_S_S256 (constantI Cert.KernelIdeal.S_ 32 0#32)))
        (broadcastInDim Cert.KernelIdeal.S256 ![] Cert.KernelIdeal.Gen.bcast_S_S256
          (cmpi .slt divisorOf (constantI Cert.KernelIdeal.S_ 32 0#32))))
      (cmpi .ne (quotOf a5) (broadcastInDim Cert.KernelIdeal.S256 ![] Cert.KernelIdeal.Gen.bcast_S_S256 (constantI Cert.KernelIdeal.S_ 32 0#32))))
    (addi (quotOf a5) (broadcastInDim Cert.KernelIdeal.S256 ![] Cert.KernelIdeal.Gen.bcast_S_S256 divisorOf))
    (quotOf a5)

/-- What the remainder chain leaves in its result buffer: `remOf` of the sixth argument's contents. -/
theorem read_v148 (V : Valuation Cert.KernelIdeal.τ Cert.KernelIdeal.sig (Elt Ideal)) :
    after (Cert.KernelIdeal.Gen.hostOps0_2 ++ Cert.KernelIdeal.Gen.hostOps0_3) V (Proc.devRef .tc Cert.KernelIdeal.main_v148)
      = remOf (V (Proc.devRef .tc Cert.KernelIdeal.main_arg5)) := by
  rw [after_append]
  after_results_simp
  rfl

/-- Entry by entry the chain is the one-word floored remainder. -/
theorem remOf_apply (a5 : (⟨Cert.KernelIdeal.S256, .i32⟩ : BufTy).Contents (Elt Ideal)) (s : Cert.KernelIdeal.S256.Idx) :
    remOf a5 s = rem8 (a5 s) := rfl

/-- A word is a row number: read unsigned it is below eight. -/
def InRange8 (x : BitVec 32) : Prop := x.toNat < 8

/-- Every entry of the remainder is a row number. -/
theorem remOf_range (a5 : (⟨Cert.KernelIdeal.S256, .i32⟩ : BufTy).Contents (Elt Ideal)) (s : Cert.KernelIdeal.S256.Idx) :
    InRange8 (remOf a5 s) := by
  rw [remOf_apply]
  exact rem8_lt _

/-- The selector the kernel program builds: the one-hot of the row numbers against `0 … 7`, times the gate. -/
def selOf (k : (⟨Cert.KernelIdeal.S256, .i32⟩ : BufTy).Contents (Elt Ideal))
    (g : (⟨Cert.KernelIdeal.S2x256, .f32⟩ : BufTy).Contents (Elt Ideal)) :
    (⟨Cert.KernelIdeal.S2x256x8, .f32⟩ : BufTy).Contents (Elt Ideal) :=
  mulf (F := Ideal) (φ := .f32)
    (broadcastInDim Cert.KernelIdeal.S2x256x8 ![0, 1, 2] Cert.KernelIdeal.Gen.bcast_S1x256x8_S2x256x8_0_1_2
      (broadcastInDim Cert.KernelIdeal.S1x256x8 ![1, 2] Cert.KernelIdeal.Gen.bcast_S256x8_S1x256x8_1_2
        (uitofp (F := Ideal) .f32
          (cmpi .eq
            (broadcastInDim Cert.KernelIdeal.S256x8 ![0, 1] Cert.KernelIdeal.Gen.bcast_S256x1_S256x8_0_1
              (broadcastInDim Cert.KernelIdeal.S256x1 ![0] Cert.KernelIdeal.Gen.bcast_S256_S256x1_0 k))
            (broadcastInDim Cert.KernelIdeal.S256x8 ![0, 1] Cert.KernelIdeal.Gen.bcast_S1x8_S256x8_0_1
              (iotaInDim Cert.KernelIdeal.S1x8 32 1))))))
    (broadcastInDim Cert.KernelIdeal.S2x256x8 ![0, 1, 2] Cert.KernelIdeal.Gen.bcast_S2x256x1_S2x256x8_0_1_2
      (broadcastInDim Cert.KernelIdeal.S2x256x1 ![0, 1] Cert.KernelIdeal.Gen.bcast_S2x256_S2x256x1_0_1 g))

/-- The masks with their two image axes flattened into one. -/
def mfOf (M : (⟨Cert.KernelIdeal.S2x8x384x384, .f32⟩ : BufTy).Contents (Elt Ideal)) :
    (⟨Cert.KernelIdeal.S2x8x147456, .f32⟩ : BufTy).Contents (Elt Ideal) :=
  shapeCast Cert.KernelIdeal.S2x8x147456 M Cert.KernelIdeal.Gen.shapeCasts_S2x8x384x384_S2x8x147456

/-- The reference program's start indices: the row numbers after the negative-index wrap `select (k <ₛ 0) (k + 8) k`, as a
    column. -/
def wrapIdx (k : (⟨Cert.ReferenceIdeal.S256, .i32⟩ : BufTy).Contents (Elt Ideal)) : IVec Cert.ReferenceIdeal.S256x1 32 :=
  broadcastInDim Cert.ReferenceIdeal.S256x1 ![0] Cert.ReferenceIdeal.Gen.bcast_S256_S256x1_0
    (select
      (cmpi .slt k (broadcastInDim Cert.ReferenceIdeal.S256 ![] Cert.ReferenceIdeal.Gen.bcast_S_S256
        (constantI Cert.ReferenceIdeal.S_ 32 0#32)))
      (addi k (broadcastInDim Cert.ReferenceIdeal.S256 ![] Cert.ReferenceIdeal.Gen.bcast_S_S256
        (constantI Cert.ReferenceIdeal.S_ 32 8#32)))
      k)

/-- The reference program's last result: the masks gathered at the (wrapped) row numbers, times the gate. -/
def refTail (k : (⟨Cert.ReferenceIdeal.S256, .i32⟩ : BufTy).Contents (Elt Ideal))
    (g : (⟨Cert.ReferenceIdeal.S2x256, .f32⟩ : BufTy).Contents (Elt Ideal))
    (M : (⟨Cert.ReferenceIdeal.S2x8x384x384, .f32⟩ : BufTy).Contents (Elt Ideal)) :
    (⟨Cert.ReferenceIdeal.S2x256x384x384, .f32⟩ : BufTy).Contents (Elt Ideal) :=
  mulf (F := Ideal) (φ := .f32)
    (Host.gather Cert.ReferenceIdeal.gather_S2x8x384x384_S256x1_S2x256x384x384_023_1_n_n_1_1_21384384 M
      (wrapIdx k))
    (broadcastInDim Cert.ReferenceIdeal.S2x256x384x384 ![0, 1, 2, 3] Cert.ReferenceIdeal.Gen.bcast_S2x256x1x1_S2x256x384x384_0_1_2_3
      (broadcastInDim Cert.ReferenceIdeal.S2x256x1x1 ![0, 1] Cert.ReferenceIdeal.Gen.bcast_S2x256_S2x256x1x1_0_1 g))

/-- What the one-hot and the selector's lines leave in the selector's buffer: `selOf` of the row numbers and the gate. -/
theorem read_v169 (V : Valuation Cert.KernelIdeal.τ Cert.KernelIdeal.sig (Elt Ideal)) :
    after (Cert.KernelIdeal.Gen.hostOps0_5 ++ Cert.KernelIdeal.Gen.hostOps0_6) V (Proc.devRef .tc Cert.KernelIdeal.main_v169)
      = selOf (V (Proc.devRef .tc Cert.KernelIdeal.main_v148)) (V (Proc.devRef .tc Cert.KernelIdeal.main_v163)) := by
  rw [after_append]
  after_results_simp
  rfl

/-- … and in the flattened masks' buffer: `mfOf` of the fourth argument's contents. -/
theorem read_v170 (V : Valuation Cert.KernelIdeal.τ Cert.KernelIdeal.sig (Elt Ideal)) :
    after (Cert.KernelIdeal.Gen.hostOps0_5 ++ Cert.KernelIdeal.Gen.hostOps0_6) V (Proc.devRef .tc Cert.KernelIdeal.main_v170)
      = mfOf (V (Proc.devRef .tc Cert.KernelIdeal.main_arg3)) := by
  rw [after_append]
  after_results_simp
  rfl

/-- The selector at `(b, s, r)`: the indicator that row number `k s` is `r`, times the gate at `(b, s)`. -/
theorem selOf_apply (k : (⟨Cert.KernelIdeal.S256, .i32⟩ : BufTy).Contents (Elt Ideal))
    (g : (⟨Cert.KernelIdeal.S2x256, .f32⟩ : BufTy).Contents (Elt Ideal)) (b : Fin 2) (s : Fin 256) (r : Fin 8) :
    selOf k g (ix3 b s r)
      = FloatOps.uitofp (F := Ideal) .f32 (IntOp.cmpi .eq (k (ix1 s)) (BitVec.ofNat 32 r.val)) * g (ix2 b s) := by
  unfold selOf
  rw [mulf_apply]
  congr 1
  · rw [broadcastInDim_apply _ _ _ (ix3 b s r) (ix3 (0 : Fin 1) s r) (by intro a; fin_cases a <;> rfl)]
    rw [broadcastInDim_apply _ _ _ (ix3 (0 : Fin 1) s r) (ix2 s r) (by intro a; fin_cases a <;> rfl)]
    show FloatOps.uitofp (F := Ideal) .f32 (IntOp.cmpi .eq (broadcastInDim _ _ _ _ (ix2 s r)) (broadcastInDim _ _ _ _ (ix2 s r))) = _
    rw [broadcastInDim_apply _ _ _ (ix2 s r) (ix2 s (0 : Fin 1)) (by intro a; fin_cases a <;> rfl)]
    rw [broadcastInDim_apply _ _ _ (ix2 s (0 : Fin 1)) (ix1 s) (by intro a; fin_cases a <;> rfl)]
    rw [broadcastInDim_apply _ _ _ (ix2 s r) (ix2 (0 : Fin 1) r) (by intro a; fin_cases a <;> rfl)]
    rfl
  · rw [broadcastInDim_apply _ _ _ (ix3 b s r) (ix3 b s (0 : Fin 1)) (by intro a; fin_cases a <;> rfl)]
    rw [broadcastInDim_apply _ _ _ (ix3 b s (0 : Fin 1)) (ix2 b s) (by intro a; fin_cases a <;> rfl)]

/-- The flattened position of the image coordinates `(h, w)`: `h · 384 + w`. -/
def flat (h w : Fin 384) : Fin 147456 := ⟨h.val * 384 + w.val, by have := h.isLt; have := w.isLt; omega⟩

/-- The flattened masks at `(b, r, h · 384 + w)` are the masks at `(b, r, h, w)`. -/
theorem mfOf_apply (M : (⟨Cert.KernelIdeal.S2x8x384x384, .f32⟩ : BufTy).Contents (Elt Ideal))
    (b : Fin 2) (r : Fin 8) (h w : Fin 384) : mfOf M (ix3 b r (flat h w)) = M (ix4 b r h w) := by
  unfold mfOf
  refine shapeCast_apply M _ (ix3 b r (flat h w)) (ix4 b r h w) ?_
  rw [Shape.rowMajor_val_four, Shape.rowMajor_val_three]
  show ((b.val * 8 + r.val) * 384 + h.val) * 384 + w.val = (b.val * 8 + r.val) * 147456 + (h.val * 384 + w.val)
  omega

/-- The product's image axis unflattened: the entry at `(b, s, h, w)` is the flat one at `(b, s, h · 384 + w)`. -/
theorem outCast_apply (X : (⟨Cert.KernelIdeal.S2x256x147456, .f32⟩ : BufTy).Contents (Elt Ideal))
    (b : Fin 2) (s : Fin 256) (h w : Fin 384) :
    shapeCast Cert.KernelIdeal.S2x256x384x384 X Cert.KernelIdeal.Gen.shapeCasts_S2x256x147456_S2x256x384x384 (ix4 b s h w)
      = X (ix3 b s (flat h w)) := by
  refine shapeCast_apply X _ (ix4 b s h w) (ix3 b s (flat h w)) ?_
  rw [Shape.rowMajor_val_four, Shape.rowMajor_val_three]
  show (b.val * 256 + s.val) * 147456 + (h.val * 384 + w.val) = ((b.val * 256 + s.val) * 384 + h.val) * 384 + w.val
  omega

/-- THE GATHER READ AT `(b, s, h, w)`: the masks at `(b, row, h, w)`, the row the start index at `(s, 0)` read signed and
    clamped into `0 … 7` (axis 1 is collapsed and is the one axis the start index names; axes 0, 2, 3 are offset axes). -/
theorem gather_apply {α : Type} (x : Cert.ReferenceIdeal.S2x8x384x384.Idx → α) (idx : IVec Cert.ReferenceIdeal.S256x1 32)
    (b : Fin 2) (s : Fin 256) (h w : Fin 384) :
    Host.gather Cert.ReferenceIdeal.gather_S2x8x384x384_S256x1_S2x256x384x384_023_1_n_n_1_1_21384384 x idx (ix4 b s h w)
      = x (ix4 b ⟨min (idx (ix2 s (0 : Fin 1))).toInt.toNat 7, by omega⟩ h w) := by
  unfold Host.gather
  congr 1
  funext a
  apply Fin.ext
  fin_cases a <;>
    simp [GatherDims.operandIdx, GatherDims.start, GatherDims.offCoord, GatherDims.batchCoord,
      Cert.ReferenceIdeal.gather_S2x8x384x384_S256x1_S2x256x384x384_023_1_n_n_1_1_21384384, GatherDims.sKept, Shape.kept]
  · rfl
  · refine congrArg (fun i => min (idx i).toInt.toNat 7) ?_
    funext k
    fin_cases k <;> rfl
  · rfl
  · rfl

/-- A start index whose row number is in range is that row number: the wrap leaves it. -/
theorem wrapIdx_apply (k : (⟨Cert.ReferenceIdeal.S256, .i32⟩ : BufTy).Contents (Elt Ideal)) (s : Fin 256)
    (hk : InRange8 (k (ix1 s))) : wrapIdx k (ix2 s (0 : Fin 1)) = k (ix1 s) := by
  unfold wrapIdx
  rw [broadcastInDim_apply _ _ _ (ix2 s (0 : Fin 1)) (ix1 s) (by intro a; fin_cases a <;> rfl)]
  show Scalar.select (IntOp.cmpi .slt (k (ix1 s)) 0#32) (IntOp.addi (k (ix1 s)) 8#32) (k (ix1 s)) = _
  exact wrap_of_lt _ hk

/-- The reference's result at `(b, s, h, w)`, the row numbers in range: the masks' row `k s` at `(h, w)`, times the gate
    at `(b, s)`. -/
theorem refTail_apply (k : (⟨Cert.ReferenceIdeal.S256, .i32⟩ : BufTy).Contents (Elt Ideal))
    (g : (⟨Cert.ReferenceIdeal.S2x256, .f32⟩ : BufTy).Contents (Elt Ideal))
    (M : (⟨Cert.ReferenceIdeal.S2x8x384x384, .f32⟩ : BufTy).Contents (Elt Ideal))
    (hk : ∀ s, InRange8 (k s)) (b : Fin 2) (s : Fin 256) (h w : Fin 384) :
    refTail k g M (ix4 b s h w) = M (ix4 b ⟨(k (ix1 s)).toNat, hk (ix1 s)⟩ h w) * g (ix2 b s) := by
  unfold refTail
  rw [mulf_apply]
  congr 1
  · rw [gather_apply]
    refine congrArg M (congrArg (fun r => ix4 b r h w) (Fin.ext ?_))
    show min (wrapIdx k (ix2 s (0 : Fin 1))).toInt.toNat 7 = (k (ix1 s)).toNat
    rw [wrapIdx_apply k s (hk _)]
    exact clamp_of_lt _ (hk _)
  · rw [broadcastInDim_apply _ _ _ (ix4 b s h w) (ix4 b s (0 : Fin 1) (0 : Fin 1)) (by intro a; fin_cases a <;> rfl)]
    rw [broadcastInDim_apply _ _ _ (ix4 b s (0 : Fin 1) (0 : Fin 1)) (ix2 b s) (by intro a; fin_cases a <;> rfl)]

/-- At the ideal instance the set bit converts to one … -/
theorem uitofp_one : FloatOps.uitofp (F := Ideal) .f32 (1#1) = (1 : EReal) := by
  show (((1#1 : BitVec 1).toNat : ℝ) : EReal) = 1
  simp

/-- … and the clear bit to zero. -/
theorem uitofp_zero : FloatOps.uitofp (F := Ideal) .f32 (0#1) = (0 : EReal) := by
  show (((0#1 : BitVec 1).toNat : ℝ) : EReal) = 0
  simp

/-- THE TAIL LAW. With every row number in `0 … 7`, the row-selecting product of the one-hot selector and the flattened
    masks, unflattened, is the gathered masks times the gate: in `∑ r, (1[k s = r] · g) · M r` every term but `r = k s`
    is `0 · g · M r = 0` (zero times any extended real is zero), and the remaining one is `(1 · g) · M (k s) = M (k s) · g`. -/
theorem tail_law (k : (⟨Cert.KernelIdeal.S256, .i32⟩ : BufTy).Contents (Elt Ideal))
    (g : (⟨Cert.KernelIdeal.S2x256, .f32⟩ : BufTy).Contents (Elt Ideal))
    (M : (⟨Cert.KernelIdeal.S2x8x384x384, .f32⟩ : BufTy).Contents (Elt Ideal))
    (hk : ∀ s, InRange8 (k s)) :
    shapeCast Cert.KernelIdeal.S2x256x384x384 (Spec.rowSelect (selOf k g) (mfOf M))
        Cert.KernelIdeal.Gen.shapeCasts_S2x256x147456_S2x256x384x384
      = refTail k g M := by
  funext i
  obtain ⟨b, s, h, w, rfl⟩ : ∃ (b : Fin 2) (s : Fin 256) (h w : Fin 384), i = ix4 b s h w :=
    ⟨i 0, i 1, i 2, i 3, eq_ix4 i⟩
  rw [outCast_apply, Spec.rowSelect_apply, refTail_apply k g M hk]
  rw [Finset.sum_eq_single (⟨(k (ix1 s)).toNat, hk (ix1 s)⟩ : Fin 8)]
  · rw [selOf_apply, mfOf_apply, cmpi_eq_ofNat _ (hk _) _ (hk _), if_pos rfl, uitofp_one, one_mul, mul_comm]
  · intro r _ hr
    rw [selOf_apply, cmpi_eq_ofNat _ (hk _) _ r.isLt, if_neg (fun e => hr (Fin.ext e)), uitofp_zero, zero_mul, zero_mul]
  · intro hn
    exact absurd (Finset.mem_univ _) hn

end Cert.Hand

end
-- ==== Proof.TailRead.lean ====
/-
  What the reference program's last twelve operations leave in its fourth result's buffer: `refTail` of the row
  numbers, the gate and the masks they find in the buffers of `main_v148`, `main_v163` and the fourth argument.
-/
import proofs.«172312_j89326729822373_2_alg».proof.Proof.RefOps
import proofs.«172312_j89326729822373_2_alg».proof.Proof.TailLaw

set_option maxRecDepth 2864

noncomputable section

namespace Cert.Hand

open Idealize.ShloMosaic Idealize.ShloMosaic.StableHlo

/-- The fold of the twelve operations at the last result's buffer is `refTail` of the three buffers they read. -/
theorem read_v173 (V : Valuation Cert.ReferenceIdeal.τ Cert.ReferenceIdeal.sig (Elt Ideal)) :
    after Cert.ReferenceIdeal.Hand.wT V (Proc.devRef .tc Cert.ReferenceIdeal.main_v173)
      = refTail (V (Proc.devRef .tc Cert.ReferenceIdeal.main_v148)) (V (Proc.devRef .tc Cert.ReferenceIdeal.main_v163))
          (V (Proc.devRef .tc Cert.ReferenceIdeal.main_arg3)) := by
  after_results_simp
  rfl

end Cert.Hand

end
-- ==== Proof.Bridge.lean ====
/-
  The algebraic claim. Both idealized programs are run from memories that agree on the six arguments.

  * The three early results are values of the shared prefix: the two programs compute them by the same operations from
    equal arguments.
  * The fourth result. The kernel program's is the reshape of the row-selecting product
    `∑ r < 8, sel (b, s, r) · masks (b, r, p)` with `sel (b, s, r) = [k s = r] · gate (b, s)`; the reference's is
    `masks (b, k' s, p) · gate (b, s)` with `k'` the row number after negative-index normalization. The row numbers `k`
    are remainders modulo 8, hence in `[0, 8)`: the normalization does nothing, exactly one term of the sum survives, and
    the two are equal at every extended real (zero times anything is zero there, so no finiteness is used).
-/
import proofs.«172312_j89326729822373_2_alg».proof.Defs
import proofs.«172312_j89326729822373_2_alg».proof.Proof.Gen.Pre_finite_inputs
import proofs.«172312_j89326729822373_2_alg».proof.Proof.KerRead
import proofs.«172312_j89326729822373_2_alg».proof.Proof.RefRead
import proofs.«172312_j89326729822373_2_alg».proof.Proof.RefRun
import proofs.«172312_j89326729822373_2_alg».proof.Proof.Prefix
import proofs.«172312_j89326729822373_2_alg».proof.Proof.TailLaw
import proofs.«172312_j89326729822373_2_alg».proof.Proof.TailRead

set_option maxRecDepth 16384

noncomputable section

namespace Cert.Hand

open Idealize.ShloMosaic Idealize.ShloMosaic.TcCoe Idealize.SL.Sem Idealize.ShloMosaic.StableHlo

/-- The selector the region finds is the one-hot table of the prefix's row numbers times its gate. -/
theorem K_v169 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v169
      = selOf (Cert.KernelIdeal.HandValue.PK m c (Proc.devRef .tc Cert.KernelIdeal.main_v148)) (Cert.KernelIdeal.HandValue.PK m c (Proc.devRef .tc Cert.KernelIdeal.main_v163)) := by
  show Cert.KernelIdeal.Gen.V0 m c (Proc.devRef .tc Cert.KernelIdeal.main_v169) = _
  rw [Cert.KernelIdeal.HandValue.V0_eq]
  exact read_v169 _

/-- The flattened masks the region finds are the reshape of the mask argument as launched. -/
theorem K_v170 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v170 = mfOf (m ((c : Thread Cert.KernelIdeal.nD Cert.KernelIdeal.τ).loc Cert.KernelIdeal.main_arg3)) := by
  show Cert.KernelIdeal.Gen.V0 m c (Proc.devRef .tc Cert.KernelIdeal.main_v170) = _
  rw [Cert.KernelIdeal.HandValue.V0_eq, read_v170, Cert.KernelIdeal.HandValue.PK_arg3]

/-- The prefix's row numbers lie in `[0, 8)`: they are remainders modulo 8. -/
theorem K_rows (m : (ℓ : Loc Cert.KernelIdeal.nD Cert.KernelIdeal.τ Cert.KernelIdeal.sig) → Buf (Elt Ideal) ℓ) (c : Dev Cert.KernelIdeal.nD)
    (s : Cert.KernelIdeal.S256.Idx) : InRange8 (Cert.KernelIdeal.HandValue.PK m c (Proc.devRef .tc Cert.KernelIdeal.main_v148) s) := by
  obtain ⟨Z, hZ⟩ := Cert.KernelIdeal.HandValue.PK_v148 m c
  rw [hZ, read_v148]
  exact remOf_range _ s

/-- THE ALGEBRAIC CLAIM. -/
theorem algebraic : Cert.algebraic_KernelIdeal_ReferenceIdeal := by
  intro m ρ m' ρ' _ hagree
  refine ⟨fun c => Cert.KernelIdeal.Gen.V m c Cert.KernelIdeal.main_v116, fun c => Cert.KernelIdeal.Gen.V m c Cert.KernelIdeal.main_v131,
    fun c => Cert.KernelIdeal.Gen.V m c Cert.KernelIdeal.main_v146,
    fun c => shapeCast Cert.KernelIdeal.S2x256x384x384 (Cert.KernelIdeal.HandValue.G m c) Cert.KernelIdeal.Gen.shapeCasts_S2x256x147456_S2x256x384x384,
    Cert.KernelIdeal.HandValue.run m ρ, ?_⟩
  refine (θ_run Cert.ReferenceIdeal.defs _ _).mono (fun _ h c => ?_) (Cert.ReferenceIdeal.Hand.run_main (F := Ideal) m' ρ')
  obtain ⟨a0, a1, a2, a3, a4, a5⟩ := hagree c
  obtain ⟨p116, p131, p146, p148, p163⟩ := prefix_agree (F := Ideal) (fun b => m (c, b)) (launchContents m' c) a0.symm a1.symm a2.symm a3.symm a4.symm a5.symm
  refine ⟨(h c Cert.ReferenceIdeal.main_v116).trans ?_, (h c Cert.ReferenceIdeal.main_v131).trans ?_, (h c Cert.ReferenceIdeal.main_v146).trans ?_,
    (h c Cert.ReferenceIdeal.main_v173).trans ?_,
    (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _),
    (h c Cert.ReferenceIdeal.main_arg4).trans (Cert.ReferenceIdeal.Hand.kept_arg4 _),
    (h c Cert.ReferenceIdeal.main_arg5).trans (Cert.ReferenceIdeal.Hand.kept_arg5 _)⟩
  · exact (Cert.ReferenceIdeal.HandValue.R_v116 m' c).trans (p116.symm.trans (Cert.KernelIdeal.HandValue.V_v116 m c).symm)
  · exact (Cert.ReferenceIdeal.HandValue.R_v131 m' c).trans (p131.symm.trans (Cert.KernelIdeal.HandValue.V_v131 m c).symm)
  · exact (Cert.ReferenceIdeal.HandValue.R_v146 m' c).trans (p146.symm.trans (Cert.KernelIdeal.HandValue.V_v146 m c).symm)
  · -- the reference's product is the reference tail of the prefix's row numbers, gate and mask argument
    have hR : after Cert.ReferenceIdeal.Hand.ops (launchContents m' c) (Proc.devRef .tc Cert.ReferenceIdeal.main_v173)
        = refTail (Cert.ReferenceIdeal.HandValue.PR m' c (Proc.devRef .tc Cert.ReferenceIdeal.main_v148))
            (Cert.ReferenceIdeal.HandValue.PR m' c (Proc.devRef .tc Cert.ReferenceIdeal.main_v163))
            (m' ((c.tc : Thread Cert.ReferenceIdeal.nD Cert.ReferenceIdeal.τ).loc Cert.ReferenceIdeal.main_arg3)) := by
      rw [Cert.ReferenceIdeal.HandValue.ops_eq, read_v173, Cert.ReferenceIdeal.HandValue.PR_arg3]
    -- the kernel's is the row-selecting product of the selector and the flattened masks, reshaped
    have hK : shapeCast Cert.KernelIdeal.S2x256x384x384 (Cert.KernelIdeal.HandValue.G m c) Cert.KernelIdeal.Gen.shapeCasts_S2x256x147456_S2x256x384x384
        = refTail (Cert.KernelIdeal.HandValue.PK m c (Proc.devRef .tc Cert.KernelIdeal.main_v148))
            (Cert.KernelIdeal.HandValue.PK m c (Proc.devRef .tc Cert.KernelIdeal.main_v163))
            (m ((c : Thread Cert.KernelIdeal.nD Cert.KernelIdeal.τ).loc Cert.KernelIdeal.main_arg3)) := by
      unfold Cert.KernelIdeal.HandValue.G
      rw [K_v169, K_v170]
      exact tail_law _ _ _ (K_rows m c)
    rw [hR]
    refine Eq.trans ?_ hK.symm
    exact (congrArg₂ (fun k g => refTail k g _) p148.symm p163.symm).trans (congrArg (refTail _ _) a3)

end Cert.Hand

end
-- ==== Proof.lean ====
/-
  The certificate of a target-assignment kernel against its jnp reference, over the extended reals.

  Both programs first compute, by the same host operations, the pairwise overlap test of 128 proposals with 8 ground-truth
  boxes, the masked proposal / class / box rows and their sampled concatenations (three of the four results), the row
  numbers `k s = idx s mod 8` and the gate `gate (b, s)` of the 256 positive samples. They differ in the fourth result,
  the mask targets `[2, 256, 384, 384]`:
    * the kernel program multiplies, on a 2 × 24 grid, the selector `sel (b, s, r) = [k s = r] · gate (b, s)` by the masks
      flattened to `[2, 8, 147456]`, and reshapes the product;
    * the reference gathers row `k s` of the masks (after negative-index normalization) and multiplies by the gate.
  Since `0 ≤ k s < 8`, the sum over the eight rows has one surviving term and the two agree, index by index.

  The modules: `Spec` (the row-selecting product), `KerBlock` / `KerValue` / `KerRun` / `KerRead` (what the kernel program's
  run leaves), `RefOps` / `RefRun` / `RefRead` (the reference's run), `KerOps` / `Prefix` (the shared prefix computes equal
  values in the two programs), `LibRem8` / `TailLaw` / `TailRead` (the remainder's range and the two tails' law),
  `Frames` and `Bridge` (the five claims).
-/
import proofs.«172312_j89326729822373_2_alg».proof.Defs
import proofs.«172312_j89326729822373_2_alg».proof.Proof.Gen.Kernel
import proofs.«172312_j89326729822373_2_alg».proof.Proof.Gen.KernelIdeal
import proofs.«172312_j89326729822373_2_alg».proof.Proof.Gen.ReferenceIdeal
import proofs.«172312_j89326729822373_2_alg».proof.Proof.Gen.Pre_finite_inputs
import proofs.«172312_j89326729822373_2_alg».proof.Proof.Frames
import proofs.«172312_j89326729822373_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Hand.frame_k, Cert.Hand.frame_ki, Cert.Hand.frame_ri, Cert.Hand.preserves, Cert.Hand.algebraic⟩

end Cert.Proof

end
